-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S47x128 : Shape := ⟨2, ![47, 128]⟩
abbrev S47 : Shape := ⟨1, ![47]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S47x128 : S_.BroadcastsInDim S47x128 (![] : Fin 0 → Fin S47x128.rank)
  reducesTo_S47x128_S_d0_1 : S47x128.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg8 : FVec F S47 .f32) (main_arg9 : FVec F S47x128 .f32) (main_v33 : IVec S_ 1) : IVec S_ 1 :=
  let main_v34 : FVec F S47 .f32 := Host.absf main_arg8
  let main_cst_12 : FVec F S_ .f32 := constant S_ .f32 0x7F800000#32
  let main_v35 : FVec F S47 .f32 := broadcastInDim S47 ![] bcast_S_S47 main_cst_12
  let main_v36 : IVec S47 1 := cmpf .olt main_v34 main_v35
  let main_c_13 : IVec S_ 1 := constantI S_ 1 1#1
  let main_v37 : IVec S_ 1 := (fun x v => Host.reduce IntOp.andi x v reducesTo_S47_S_d0 h_S_) main_v36 main_c_13
  let main_v38 : IVec S_ 1 := andi main_v33 main_v37
  let main_v39 : FVec F S47x128 .f32 := Host.absf main_arg9
  let main_cst_14 : FVec F S_ .f32 := constant S_ .f32 0x7F800000#32
  let main_v40 : FVec F S47x128 .f32 := broadcastInDim S47x128 ![] bcast_S_S47x128 main_cst_14
  let main_v41 : IVec S47x128 1 := cmpf .olt main_v39 main_v40
  let main_c_15 : IVec S_ 1 := constantI S_ 1 1#1
  let main_v42 : IVec S_ 1 := (fun x v => Host.reduce IntOp.andi x v reducesTo_S47x128_S_d0_1 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S47x128 .f32) (main_arg8 : FVec F S47 .f32) (main_arg9 : FVec F S47x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S47x128 .f32 := Host.absf main_arg7
  let main_cst_10 : FVec F S_ .f32 := constant S_ .f32 0x7F800000#32
  let main_v30 : FVec F S47x128 .f32 := broadcastInDim S47x128 ![] bcast_S_S47x128 main_cst_10
  let main_v31 : IVec S47x128 1 := cmpf .olt main_v29 main_v30
  let main_c_11 : IVec S_ 1 := constantI S_ 1 1#1
  let main_v32 : IVec S_ 1 := (fun x v => Host.reduce IntOp.andi x v reducesTo_S47x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) (main_arg7 : FVec F S47x128 .f32) (main_arg8 : FVec F S47 .f32) (main_arg9 : FVec F S47x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S47x128 : Shape := ⟨2, ![47, 128]⟩
abbrev S47 : Shape := ⟨1, ![47]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S800000x128 : Shape := ⟨2, ![800000, 128]⟩
abbrev S1x128 : Shape := ⟨2, ![1, 128]⟩
abbrev S10000x128 : Shape := ⟨2, ![10000, 128]⟩
abbrev S10000x1 : Shape := ⟨2, ![10000, 1]⟩
abbrev S10000 : Shape := ⟨1, ![10000]⟩
abbrev S128x47 : Shape := ⟨2, ![128, 47]⟩
abbrev S100000x47 : Shape := ⟨2, ![100000, 47]⟩
abbrev S10000x47 : Shape := ⟨2, ![10000, 47]⟩
abbrev S800000x47 : Shape := ⟨2, ![800000, 47]⟩
abbrev S1x47 : Shape := ⟨2, ![1, 47]⟩

abbrev nBuf : Space → Nat
  | .hbm => 76
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S47x128, .f32⟩
  | .hbm, ⟨8, _⟩ => ⟨S47, .f32⟩
  | .hbm, ⟨9, _⟩ => ⟨S47x128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S100000, .f32⟩
  | .hbm, ⟨18, _⟩ => ⟨S800000x1, .i32⟩
  | .hbm, ⟨19, _⟩ => ⟨S100000, .f32⟩
  | .hbm, ⟨20, _⟩ => ⟨S100000x1, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S100000x128, .f32⟩
  | .hbm, ⟨32, _⟩ => ⟨S800000x1, .i32⟩
  | .hbm, ⟨33, _⟩ => ⟨S100000x128, .f32⟩
  | .hbm, ⟨34, _⟩ => ⟨S128x128, .f32⟩
  | .hbm, ⟨35, _⟩ => ⟨S128x128, .f32⟩
  | .hbm, ⟨36, _⟩ => ⟨S1x128, .f32⟩
  | .hbm, ⟨37, _⟩ => ⟨S100000x128, .f32⟩
  | .hbm, ⟨38, _⟩ => ⟨S1x128, .f32⟩
  | .hbm, ⟨39, _⟩ => ⟨S1x128, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128x47, .f32⟩
  | .hbm, ⟨54, _⟩ => ⟨S128x47, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S100000x47, .f32⟩
  | .hbm, ⟨60, _⟩ => ⟨S100000x47, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x47, .f32⟩
  | .hbm, ⟨70, _⟩ => ⟨S_, .f32⟩
  | .hbm, ⟨71, _⟩ => ⟨S100000x47, .f32⟩
  | .hbm, ⟨72, _⟩ => ⟨S800000x1, .i32⟩
  | .hbm, ⟨73, _⟩ => ⟨S100000x47, .f32⟩
  | .hbm, ⟨74, _⟩ => ⟨S1x47, .f32⟩
  | .hbm, ⟨75, _⟩ => ⟨S100000x47, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S128x47, .f32⟩
  | .local _ .vmem, ⟨22, _⟩ => ⟨S128x47, .f32⟩
  | .local _ .vmem, ⟨23, _⟩ => ⟨S10000x47, .f32⟩
  | .local _ .vmem, ⟨24, _⟩ => ⟨S10000x47, .f32⟩
  | .local _ .vmem, ⟨25, _⟩ => ⟨S10000x47, .f32⟩
  | .local _ .vmem, ⟨26, _⟩ => ⟨S10000x47, .f32⟩
  | .local _ .vmem, ⟨27, _⟩ => ⟨S10000x47, .f32⟩
  | .local _ .vmem, ⟨28, _⟩ => ⟨S10000x47, .f32⟩
  | .local _ .vmem, ⟨29, _⟩ => ⟨S10000x1, .f32⟩
  | .local _ .vmem, ⟨30, _⟩ => ⟨S10000x1, .f32⟩
  | .local _ .vmem, ⟨31, _⟩ => ⟨S1x47, .f32⟩
  | .local _ .vmem, ⟨32, _⟩ => ⟨S10000x47, .f32⟩
  | .local _ .vmem, ⟨33, _⟩ => ⟨S10000x47, .f32⟩
  | .local _ .vmem, ⟨34, _⟩ => ⟨S10000x47, .f32⟩
  | .local _ .vmem, ⟨35, _⟩ => ⟨S10000x47, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev main_v22_2 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39_0 : Ref sig .tc := ⟨.hbm, 59, rfl⟩
abbrev main_v39_1 : Ref sig .tc := ⟨.hbm, 60, rfl⟩
abbrev main_c_6 : Ref sig .tc := ⟨.hbm, 61, rfl⟩
abbrev main_v40 : Ref sig .tc := ⟨.hbm, 62, rfl⟩
abbrev main_v41 : Ref sig .tc := ⟨.hbm, 63, rfl⟩
abbrev main_c_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc1_sem8_0 : DmaSem sig := 23
abbrev cc1_sem8_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem3_0 : DmaSem sig := 30
abbrev cc2_sem3_1 : DmaSem sig := 31
abbrev cc2_sem4_0 : DmaSem sig := 32
abbrev cc2_sem4_1 : DmaSem sig := 33

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v47 : BitVec 1 := Scalar.cmpi .eq arg0 c9_i32
  let v48 : BitVec 32 := Scalar.extui v47
  let c0_i32_28 : BitVec 32 := 0#32
  let v49 : BitVec 1 := Scalar.cmpi .ne v48 c0_i32_28
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x47 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x47 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x47 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S10000x47 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x47 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x47 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S10000x47 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S10000x128 : S1x128.Broadcasts S10000x128
  reduces_S10000x128_S10000 : S10000x128.Reduces [1] S10000
  shapeCasts_S10000_S10000x1 : S10000.ShapeCasts S10000x1
  reduces_S10000x128_S128 : S10000x128.Reduces [0] S128
  shapeCasts_S1x128_S128 : S1x128.ShapeCasts S128
  bcast_S_S128 : S_.BroadcastsInDim S128 (![] : Fin 0 → Fin S128.rank)
  transposes_S47x128_S128x47_1_0 : S47x128.Transposes [1, 0] S128x47
  inb_S128x47_S128x47_0_0 : ∀ a, (![0, 0] : Fin 2 → Nat) a + S128x47.size a ≤ S128x47.size a
  h_S128x47 : 0 < S128x47.numel
  shapeCasts_S128x47_S128x47 : S128x47.ShapeCasts S128x47
  inb_S10000x47_S10000x47_0_0 : ∀ a, (![0, 0] : Fin 2 → Nat) a + S10000x47.size a ≤ S10000x47.size a
  h_S10000x47 : 0 < S10000x47.numel
  bcast_S_S100000x47 : S_.BroadcastsInDim S100000x47 (![] : Fin 0 → Fin S100000x47.rank)
  shapeCasts_S47_S1x47 : S47.ShapeCasts S1x47
  shapeCasts_S10000x47_S10000x47 : S10000x47.ShapeCasts S10000x47
  broadcasts_S10000x1_S10000x47 : S10000x1.Broadcasts S10000x47
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S10000x47 : S1x47.Broadcasts S10000x47
  reduces_S10000x47_S10000 : S10000x47.Reduces [1] S10000
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S10000x128_S128x128_S10000x128_1_0_0_1_n_n_wf : DotDims.WF S10000x128 S128x128 S10000x128 [1] [0] [0] [1] [] []
  dot_S10000x128_S128x47_S10000x47_1_0_0_1_n_n_wf : DotDims.WF S10000x128 S128x47 S10000x47 [1] [0] [0] [1] [] []
  gather_S100000x47_S800000x1_S800000x47_1_0_n_n_0_1_147_wf : GatherDims.WF S100000x47 S800000x1 S800000x47 [1] [0] [] [0] [] 1 ![1, 47]
  scatter_S100000x47_S800000x1_S800000x47_1_0_0_1_wf : ScatterDims.WF S100000x47 S800000x1 S800000x47 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x47.size a ≤ S128x47.size a
  hwx1_5 : ∀ i : grid1.Coords, EltTy.bits .f32 = 32 ∨ (Rect.block (s := S128x47) S128x47.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x47.size a ≤ S128x47.size a
  hwx1_6 : ∀ i : grid1.Coords, EltTy.bits .f32 = 32 ∨ (Rect.block (s := S128x47) S128x47.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x47.size a ≤ S100000x47.size a
  hwx1_7 : ∀ i : grid1.Coords, EltTy.bits .f32 = 32 ∨ (Rect.block (s := S100000x47) S10000x47.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x47.size a ≤ S100000x47.size a
  hwx1_8 : ∀ i : grid1.Coords, EltTy.bits .f32 = 32 ∨ (Rect.block (s := S100000x47) S10000x47.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x47.size a ≤ S100000x47.size a
  hwx2_0 : ∀ i : grid2.Coords, EltTy.bits .f32 = 32 ∨ (Rect.block (s := S100000x47) S10000x47.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x47.size a ≤ S1x47.size a
  hwx2_2 : ∀ i : grid2.Coords, EltTy.bits .f32 = 32 ∨ (Rect.block (s := S1x47) S1x47.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x47.size a ≤ S100000x47.size a
  hwx2_3 : ∀ i : grid2.Coords, EltTy.bits .f32 = 32 ∨ (Rect.block (s := S100000x47) S10000x47.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x47.size a ≤ S100000x47.size a
  hwx2_4 : ∀ i : grid2.Coords, EltTy.bits .f32 = 32 ∨ (Rect.block (s := S100000x47) S10000x47.size (cc2_transform_4 i) (hinb2_4 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x47_S10000x47_1_0_0_1_n_n : DotDims S10000x128 S128x47 S10000x47 where
  lhsContracting := [1]
  rhsContracting := [0]
  lhsNonContracting := [0]
  rhsNonContracting := [1]
  lhsBatch := []
  rhsBatch := []
  wf := dot_S10000x128_S128x47_S10000x47_1_0_0_1_n_n_wf
def gather_S100000x47_S800000x1_S800000x47_1_0_n_n_0_1_147 : GatherDims S100000x47 S800000x1 S800000x47 where
  offsetDims := [1]
  collapsedSliceDims := [0]
  operandBatchingDims := []
  startIndicesBatchingDims := []
  startIndexMap := [0]
  indexVectorDim := 1
  sliceSizes := ![1, 47]
  wf := gather_S100000x47_S800000x1_S800000x47_1_0_n_n_0_1_147_wf
def scatter_S100000x47_S800000x1_S800000x47_1_0_0_1 : ScatterDims S100000x47 S800000x1 S800000x47 where
  updateWindowDims := [1]
  insertedWindowDims := [0]
  scatterDimsToOperandDims := [0]
  indexVectorDim := 1
  wf := scatter_S100000x47_S800000x1_S800000x47_1_0_0_1_wf

abbrev win0_0 : Pipeline.Window sig grid0 :=
  Pipeline.Window.ofSpec (Memref.whole main_v18) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22_0) S10000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v22_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v22_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S128x47.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S128x47.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39_0) S10000x47.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v39_1) S10000x47.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v49) S10000x47.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39_1) S10000x47.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v51) S10000x47.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S47x128 : Shape := ⟨2, ![47, 128]⟩
abbrev S47 : Shape := ⟨1, ![47]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩
abbrev S128x47 : Shape := ⟨2, ![128, 47]⟩
abbrev S100000x47 : Shape := ⟨2, ![100000, 47]⟩
abbrev S1x47 : Shape := ⟨2, ![1, 47]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128, .f32⟩
  | 7 => ⟨S47x128, .f32⟩
  | 8 => ⟨S47, .f32⟩
  | 9 => ⟨S47x128, .f32⟩
  | 10 => ⟨S1x800000, .i32⟩
  | 11 => ⟨S800000, .i32⟩
  | 12 => ⟨S1x800000, .i32⟩
  | 13 => ⟨S800000, .i32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S_, .f32⟩
  | 24 => ⟨S100000x128, .f32⟩
  | 25 => ⟨S800000x1, .i32⟩
  | 26 => ⟨S100000x128, .f32⟩
  | 27 => ⟨S_, .f32⟩
  | 28 => ⟨S800000, .f32⟩
  | 29 => ⟨S_, .f32⟩
  | 30 => ⟨S100000, .f32⟩
  | 31 => ⟨S800000x1, .i32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x128, .f32⟩
  | 38 => ⟨S100000x128, .f32⟩
  | 39 => ⟨S128x128, .f32⟩
  | 40 => ⟨S100000x128, .f32⟩
  | 41 => ⟨S1x128, .f32⟩
  | 42 => ⟨S100000x128, .f32⟩
  | 43 => ⟨S100000x128, .f32⟩
  | 44 => ⟨S128x128, .f32⟩
  | 45 => ⟨S100000x128, .f32⟩
  | 46 => ⟨S100000x128, .f32⟩
  | 47 => ⟨S100000x128, .f32⟩
  | 48 => ⟨S_, .f32⟩
  | 49 => ⟨S100000, .f32⟩
  | 50 => ⟨S100000x1, .f32⟩
  | 51 => ⟨S100000x1, .f32⟩
  | 52 => ⟨S_, .f32⟩
  | 53 => ⟨S100000x1, .f32⟩
  | 54 => ⟨S100000x1, .f32⟩
  | 55 => ⟨S100000x128, .f32⟩
  | 56 => ⟨S100000x128, .f32⟩
  | 57 => ⟨S_, .f32⟩
  | 58 => ⟨S128, .f32⟩
  | 59 => ⟨S_, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S100000x128, .f32⟩
  | 66 => ⟨S_, .f32⟩
  | 67 => ⟨S128, .f32⟩
  | 68 => ⟨S_, .f32⟩
  | 69 => ⟨S128, .f32⟩
  | 70 => ⟨S128, .f32⟩
  | 71 => ⟨S1x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S128, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S1x800000, .i32⟩
  | 91 => ⟨S800000, .i32⟩
  | 92 => ⟨S1x800000, .i32⟩
  | 93 => ⟨S800000, .i32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S_, .f32⟩
  | 104 => ⟨S100000x128, .f32⟩
  | 105 => ⟨S800000x1, .i32⟩
  | 106 => ⟨S100000x128, .f32⟩
  | 107 => ⟨S_, .f32⟩
  | 108 => ⟨S800000, .f32⟩
  | 109 => ⟨S_, .f32⟩
  | 110 => ⟨S100000, .f32⟩
  | 111 => ⟨S800000x1, .i32⟩
  | 112 => ⟨S100000, .f32⟩
  | 113 => ⟨S_, .f32⟩
  | 114 => ⟨S100000, .f32⟩
  | 115 => ⟨S100000, .f32⟩
  | 116 => ⟨S100000x1, .f32⟩
  | 117 => ⟨S100000x128, .f32⟩
  | 118 => ⟨S100000x128, .f32⟩
  | 119 => ⟨S128x47, .f32⟩
  | 120 => ⟨S100000x47, .f32⟩
  | 121 => ⟨S1x47, .f32⟩
  | 122 => ⟨S100000x47, .f32⟩
  | 123 => ⟨S100000x47, .f32⟩
  | 124 => ⟨S128x47, .f32⟩
  | 125 => ⟨S100000x47, .f32⟩
  | 126 => ⟨S100000x47, .f32⟩
  | 127 => ⟨S100000x47, .f32⟩
  | _ => ⟨S100000x128, .f32⟩

abbrev hbmTy0_1 (i : Nat) : BufTy := match i % 128 with
  | 0 => ⟨S_, .f32⟩
  | 1 => ⟨S100000, .f32⟩
  | 2 => ⟨S100000x1, .f32⟩
  | 3 => ⟨S100000x1, .f32⟩
  | 4 => ⟨S_, .f32⟩
  | 5 => ⟨S100000x1, .f32⟩
  | 6 => ⟨S100000x1, .f32⟩
  | 7 => ⟨S100000x47, .f32⟩
  | 8 => ⟨S100000x47, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call0_cst : Ref sig .tc := ⟨.hbm, 87, rfl⟩
abbrev main_call0_v0 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_11 : Ref sig .tc := ⟨.hbm, 94, rfl⟩
abbrev main_v69 : Ref sig .tc := ⟨.hbm, 95, rfl⟩
abbrev main_v70 : Ref sig .tc := ⟨.hbm, 96, rfl⟩
abbrev main_c_12 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_14 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_16 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_17 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_18 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  reducesTo_S100000x128_S128_d0 : S100000x128.ReducesTo [0] S128
  bcast_S_S128 : S_.BroadcastsInDim S128 (![] : Fin 0 → Fin S128.rank)
  transposes_S47x128_S128x47_1_0 : S47x128.Transposes [1, 0] S128x47
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  reducesTo_S100000x47_S100000_d1 : S100000x47.ReducesTo [1] S100000
  bcast_S100000x1_S100000x47_0_1 : S100000x1.BroadcastsInDim S100000x47 (![0, 1] : Fin 2 → Fin S100000x47.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []
  dot_S100000x128_S128x47_S100000x47_1_0_0_1_n_n_wf : DotDims.WF S100000x128 S128x47 S100000x47 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.WordRegion0.lean ====
import proofs.«162611_j39075612459051_2_alg».proof.Proof.LaunchKernel
import proofs.«162611_j39075612459051_2_alg».proof.Proof.Gen.Kernel.Skeleton
import proofs.«162611_j39075612459051_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel region: the degree mean of the aggregated rows, the two matrix products and the bias, the
row normalisation, and beside it the running column sums of the normalised rows and of their squares, a block of
10000 rows at a time; the two sums are kept in scratch from point to point and written out at the last point.

Everything is stated at a parameter `V`: what the unscoped buffers hold when the region is entered. -/

/-- The two offsets of a whole-buffer rectangle are zero. -/
theorem off2 : (![0, 0] : Fin 2 → Nat) = fun _ => 0 := by
  funext a; match a with | ⟨0, _⟩ => rfl | ⟨1, _⟩ => rfl

/-- The first branch's condition: the grid coordinate is zero. -/
abbrev atFirst (i : grid0.Coords) : Prop :=
  (Scalar.cmpi .ne (Scalar.extui (Scalar.cmpi .eq (BitVec.ofNat 32 (i 0).val) 0#32)) 0#32) = 1#1
/-- The second branch's condition: the grid coordinate is nine. -/
abbrev atLast (i : grid0.Coords) : Prop := k0_cond2 i = 1#1

theorem atFirst_iff : ∀ t : Fin cfg0.N, atFirst (grid0.coords t) ↔ t.val = 0 :=
  (by decide +kernel : ∀ t : Fin grid0.N, atFirst (grid0.coords t) ↔ t.val = 0)
theorem atLast_iff : ∀ t : Fin cfg0.N, atLast (grid0.coords t) ↔ t.val = 9 :=
  (by decide +kernel : ∀ t : Fin grid0.N, atLast (grid0.coords t) ↔ t.val = 9)
/-- Away from the last point the two sum windows are idle and are not written back; at the last point they are live. -/
theorem idle7 : ∀ t : Fin cfg0.N, ¬ atLast (grid0.coords t) → cfg0.idle 7 (grid0.coords t) = true := by decide +kernel
theorem idle8 : ∀ t : Fin cfg0.N, ¬ atLast (grid0.coords t) → cfg0.idle 8 (grid0.coords t) = true := by decide +kernel
theorem noFlush7 : ∀ t : Fin cfg0.N, ¬ atLast (grid0.coords t) → (cfg0.win 7).flush t = false := by decide +kernel
theorem noFlush8 : ∀ t : Fin cfg0.N, ¬ atLast (grid0.coords t) → (cfg0.win 8).flush t = false := by decide +kernel
theorem live7 : ∀ t : Fin cfg0.N, atLast (grid0.coords t) → cfg0.idle 7 (grid0.coords t) = false := by decide +kernel
theorem live8 : ∀ t : Fin cfg0.N, atLast (grid0.coords t) → cfg0.idle 8 (grid0.coords t) = false := by decide +kernel

/-! The body reads and writes whole staging buffers. -/
abbrev q0_128 : Rect S10000x128 := Rect.unit (s := S10000x128) ![0, 0] S10000x128.size inb_S10000x128_S10000x128_0_0
abbrev q0_1 : Rect S10000x1 := Rect.unit (s := S10000x1) ![0, 0] S10000x1.size inb_S10000x1_S10000x1_0_0
abbrev q0_w : Rect S128x128 := Rect.unit (s := S128x128) ![0, 0] S128x128.size inb_S128x128_S128x128_0_0
abbrev q0_r : Rect S1x128 := Rect.unit (s := S1x128) ![0, 0] S1x128.size inb_S1x128_S1x128_0_0

/-- The normalised rows of a block: from the aggregated rows, the degrees, the rows themselves, the two weight
    matrices and the bias. -/
def hrow (x0 : Vec F S10000x128 .f32) (x1 : Vec F S10000x1 .f32) (x2 : Vec F S10000x128 .f32) (x3 : Vec F S128x128 .f32) (x4 : Vec F S1x128 .f32) (x5 : Vec F S128x128 .f32) : Vec F S10000x128 .f32 :=
  k0_pay5 x0 x1 x3 x4 x2 x5

/-- A store through the whole-buffer rectangle, last, covers the buffer whatever came before. -/
theorem cover128 (p0 : Vec F S10000x128 .f32) (L : List (View.Piece (Elt F) S10000x128 .f32)) (y : S10000x128.Idx) :
    ∃ pc ∈ ((⟨q0_128, p0⟩ :: L) : List (View.Piece (Elt F) S10000x128 .f32)), y ∈ pc.1.set :=
  ⟨_, List.mem_cons_self, View.mem_set_unit_zero off2 inb_S10000x128_S10000x128_0_0 y⟩
theorem coverRow (p0 : Vec F S1x128 .f32) (L : List (View.Piece (Elt F) S1x128 .f32)) (y : S1x128.Idx) :
    ∃ pc ∈ ((⟨q0_r, p0⟩ :: L) : List (View.Piece (Elt F) S1x128 .f32)), y ∈ pc.1.set :=
  ⟨_, List.mem_cons_self, View.mem_set_unit_zero off2 inb_S1x128_S1x128_0_0 y⟩

set_option maxHeartbeats 4000000 in
/-- The body at the first point: the two scratch rows are zeroed, the output block is left at the normalised rows, and
    the scratch rows at the block's column sums added to zero. -/
theorem body0_first (c : Dev nD) (E : Set ℕ) (i : grid0.Coords) (arg1 : Memref sig .tc .vmem S10000x128 .f32) (harg1 : arg1.IsWhole) (arg2 : Memref sig .tc .vmem S10000x1 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc1 : atFirst i) (hc2 : ¬ atLast i)
    (x0 : Vec F S10000x128 .f32) (x1 : Vec F S10000x1 .f32) (x2 : Vec F S10000x128 .f32) (x3 : Vec F S128x128 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (hrow x0 x1 x2 x3 x4 x5)
            ∗ owns (c : Thread nD τ) arg10 fullShare (k0_pay1 (hrow x0 x1 x2 x3 x4 x5) k0_pay3) ∗ owns (c : Thread nD τ) arg11 fullShare (k0_pay2 (hrow x0 x1 x2 x3 x4 x5) k0_pay4)) -∗ K ⟨⟩))
      ⊢ wp frame (wpE (defs₀ (F := F)) Variants.none c none) E (cc0__sage_linear1_kernel i arg1 harg1 arg2 harg2 arg3 harg3 arg4 harg4 arg5 harg5 arg6 harg6 arg7 harg7 arg8 harg8 arg9 harg9 arg10 harg10 arg11 harg11) K := by
  simp only [cc0__sage_linear1_kernel_eq_skeleton]; unfold cc0__sage_linear1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%e0, %g0, -, S0⟩, ⟨%e1, %g1, -, S1⟩, Hk⟩
  subst hf0; subst hf1; subst hf2; subst hf3; subst hf4; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (cover128 _ _), View.canon_cons_unit_zero off2]
    simp only [hrow, View.readCov_unit_zero (S := S1x128) _ off2, View.readAt_eq_ld, View.ld_unit_zero (S := S10000x128) off2, View.ld_unit_zero (S := S10000x1) off2, View.ld_unit_zero (S := S128x128) off2, View.ld_unit_zero (S := S1x128) off2]
  isplitl [S0]
  · iexists _; isplitr
    swap; · iexact S0
    ipureintro
    sl_unfold_run_names
    rw [View.read_writes_eq_canon _ _ _ (coverRow _ _), View.canon_cons_unit_zero off2]
    simp only [hrow, View.readCov_unit_zero (S := S1x128) _ off2, View.readAt_eq_ld, View.ld_unit_zero (S := S10000x128) off2, View.ld_unit_zero (S := S10000x1) off2, View.ld_unit_zero (S := S128x128) off2, View.ld_unit_zero (S := S1x128) off2]
  iexists _; isplitr
  swap; · iexact S1
  ipureintro
  sl_unfold_run_names
  rw [View.read_writes_eq_canon _ _ _ (coverRow _ _), View.canon_cons_unit_zero off2]
  simp only [hrow, View.readCov_unit_zero (S := S1x128) _ off2, View.readAt_eq_ld, View.ld_unit_zero (S := S10000x128) off2, View.ld_unit_zero (S := S10000x1) off2, View.ld_unit_zero (S := S128x128) off2, View.ld_unit_zero (S := S1x128) off2]

set_option maxHeartbeats 4000000 in
/-- The body at a point that is neither the first nor the last: the output block is left at the normalised rows, the
    two scratch rows grow by the block's column sums. -/
theorem body0_mid (c : Dev nD) (E : Set ℕ) (i : grid0.Coords) (arg1 : Memref sig .tc .vmem S10000x128 .f32) (harg1 : arg1.IsWhole) (arg2 : Memref sig .tc .vmem S10000x1 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc1 : ¬ atFirst i) (hc2 : ¬ atLast i)
    (x0 : Vec F S10000x128 .f32) (x1 : Vec F S10000x1 .f32) (x2 : Vec F S10000x128 .f32) (x3 : Vec F S128x128 .f32) (x4 : Vec F S1x128 .f32) (x5 : Vec F S128x128 .f32) (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg10 fullShare s0 ∗ owns (c : Thread nD τ) arg11 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (hrow x0 x1 x2 x3 x4 x5)
            ∗ owns (c : Thread nD τ) arg10 fullShare (k0_pay1 (hrow x0 x1 x2 x3 x4 x5) s0) ∗ owns (c : Thread nD τ) arg11 fullShare (k0_pay2 (hrow x0 x1 x2 x3 x4 x5) s1)) -∗ K ⟨⟩))
      ⊢ wp frame (wpE (defs₀ (F := F)) Variants.none c none) E (cc0__sage_linear1_kernel i arg1 harg1 arg2 harg2 arg3 harg3 arg4 harg4 arg5 harg5 arg6 harg6 arg7 harg7 arg8 harg8 arg9 harg9 arg10 harg10 arg11 harg11) K := by
  simp only [cc0__sage_linear1_kernel_eq_skeleton]; unfold cc0__sage_linear1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%g0, %hg0, S0⟩, ⟨%g1, %hg1, S1⟩, Hk⟩
  subst hf0; subst hf1; subst hf2; subst hf3; subst hf4; subst hf5; subst hg0; subst hg1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (cover128 _ _), View.canon_cons_unit_zero off2]
    simp only [hrow, View.readCov_unit_zero (S := S1x128) _ off2, View.readAt_eq_ld, View.ld_unit_zero (S := S10000x128) off2, View.ld_unit_zero (S := S10000x1) off2, View.ld_unit_zero (S := S128x128) off2, View.ld_unit_zero (S := S1x128) off2]
  isplitl [S0]
  · iexists _; isplitr
    swap; · iexact S0
    ipureintro
    sl_unfold_run_names
    rw [View.read_writes_eq_canon _ _ _ (coverRow _ _), View.canon_cons_unit_zero off2]
    simp only [hrow, View.readCov_unit_zero (S := S1x128) _ off2, View.readAt_eq_ld, View.ld_unit_zero (S := S10000x128) off2, View.ld_unit_zero (S := S10000x1) off2, View.ld_unit_zero (S := S128x128) off2, View.ld_unit_zero (S := S1x128) off2]
  iexists _; isplitr
  swap; · iexact S1
  ipureintro
  sl_unfold_run_names
  rw [View.read_writes_eq_canon _ _ _ (coverRow _ _), View.canon_cons_unit_zero off2]
  simp only [hrow, View.readCov_unit_zero (S := S1x128) _ off2, View.readAt_eq_ld, View.ld_unit_zero (S := S10000x128) off2, View.ld_unit_zero (S := S10000x1) off2, View.ld_unit_zero (S := S128x128) off2, View.ld_unit_zero (S := S1x128) off2]

set_option maxHeartbeats 4000000 in
/-- The body at the last point: as in the middle, and then the two scratch rows are copied into the two sum outputs. -/
theorem body0_last (c : Dev nD) (E : Set ℕ) (i : grid0.Coords) (arg1 : Memref sig .tc .vmem S10000x128 .f32) (harg1 : arg1.IsWhole) (arg2 : Memref sig .tc .vmem S10000x1 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc1 : ¬ atFirst i) (hc2 : atLast i)
    (x0 : Vec F S10000x128 .f32) (x1 : Vec F S10000x1 .f32) (x2 : Vec F S10000x128 .f32) (x3 : Vec F S128x128 .f32) (x4 : Vec F S1x128 .f32) (x5 : Vec F S128x128 .f32) (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s0 ∗ owns (c : Thread nD τ) arg11 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (hrow x0 x1 x2 x3 x4 x5) ∗ owns (c : Thread nD τ) arg8 fullShare (k0_pay1 (hrow x0 x1 x2 x3 x4 x5) s0) ∗ owns (c : Thread nD τ) arg9 fullShare (k0_pay2 (hrow x0 x1 x2 x3 x4 x5) s1)
            ∗ owns (c : Thread nD τ) arg10 fullShare (k0_pay1 (hrow x0 x1 x2 x3 x4 x5) s0) ∗ owns (c : Thread nD τ) arg11 fullShare (k0_pay2 (hrow x0 x1 x2 x3 x4 x5) s1)) -∗ K ⟨⟩))
      ⊢ wp frame (wpE (defs₀ (F := F)) Variants.none c none) E (cc0__sage_linear1_kernel i arg1 harg1 arg2 harg2 arg3 harg3 arg4 harg4 arg5 harg5 arg6 harg6 arg7 harg7 arg8 harg8 arg9 harg9 arg10 harg10 arg11 harg11) K := by
  simp only [cc0__sage_linear1_kernel_eq_skeleton]; unfold cc0__sage_linear1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%g0, %hg0, S0⟩, ⟨%g1, %hg1, S1⟩, Hk⟩
  subst hf0; subst hf1; subst hf2; subst hf3; subst hf4; subst hf5; subst hg0; subst hg1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (cover128 _ _), View.canon_cons_unit_zero off2]
    simp only [hrow, View.readCov_unit_zero (S := S1x128) _ off2, View.readAt_eq_ld, View.ld_unit_zero (S := S10000x128) off2, View.ld_unit_zero (S := S10000x1) off2, View.ld_unit_zero (S := S128x128) off2, View.ld_unit_zero (S := S1x128) off2]
  isplitl [H7]
  · iexists _; isplitr
    swap; · iexact H7
    ipureintro
    sl_unfold_run_names
    rw [View.read_writes_eq_canon _ _ _ (coverRow _ _), View.canon_cons_unit_zero off2]
    simp only [hrow, View.readCov_unit_zero (S := S1x128) _ off2, View.readAt_eq_ld, View.ld_unit_zero (S := S10000x128) off2, View.ld_unit_zero (S := S10000x1) off2, View.ld_unit_zero (S := S128x128) off2, View.ld_unit_zero (S := S1x128) off2]
  isplitl [H8]
  · iexists _; isplitr
    swap; · iexact H8
    ipureintro
    sl_unfold_run_names
    rw [View.read_writes_eq_canon _ _ _ (coverRow _ _), View.canon_cons_unit_zero off2]
    simp only [hrow, View.readCov_unit_zero (S := S1x128) _ off2, View.readAt_eq_ld, View.ld_unit_zero (S := S10000x128) off2, View.ld_unit_zero (S := S10000x1) off2, View.ld_unit_zero (S := S128x128) off2, View.ld_unit_zero (S := S1x128) off2]
  isplitl [S0]
  · iexists _; isplitr
    swap; · iexact S0
    ipureintro
    sl_unfold_run_names
    rw [View.read_writes_eq_canon _ _ _ (coverRow _ _), View.canon_cons_unit_zero off2]
    simp only [hrow, View.readCov_unit_zero (S := S1x128) _ off2, View.readAt_eq_ld, View.ld_unit_zero (S := S10000x128) off2, View.ld_unit_zero (S := S10000x1) off2, View.ld_unit_zero (S := S128x128) off2, View.ld_unit_zero (S := S1x128) off2]
  iexists _; isplitr
  swap; · iexact S1
  ipureintro
  sl_unfold_run_names
  rw [View.read_writes_eq_canon _ _ _ (coverRow _ _), View.canon_cons_unit_zero off2]
  simp only [hrow, View.readCov_unit_zero (S := S1x128) _ off2, View.readAt_eq_ld, View.ld_unit_zero (S := S10000x128) off2, View.ld_unit_zero (S := S10000x1) off2, View.ld_unit_zero (S := S128x128) off2, View.ld_unit_zero (S := S1x128) off2]

section
variable (V : (c : Dev nD) → (b : Ref sig .tc) → Buf (Elt F) ((c : Thread nD τ).loc b))

/-- The block of window `w` at grid point `t`, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds the window's block at every point: fetched there, or not fetched
    because the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-- The normalised rows of the block of point `t`. -/
def hAt (c : Dev nD) (t : Fin cfg0.N) : Vec F S10000x128 .f32 := hrow (blk0 V c 0 t) (blk0 V c 1 t) (blk0 V c 2 t) (blk0 V c 3 t) (blk0 V c 4 t) (blk0 V c 5 t)

/-- The running column sums of the normalised rows after the points `0 … n`, as the body computes them: the sum of
    block `0` added to the zero row, then each later block's sum added to what the point before left. -/
def sumAt (c : Dev nD) : (n : ℕ) → n < cfg0.N → Vec F S1x128 .f32
  | 0, hn => k0_pay1 (hAt V c ⟨0, hn⟩) k0_pay3
  | n + 1, hn => k0_pay1 (hAt V c ⟨n + 1, hn⟩) (sumAt c n (Nat.lt_of_succ_lt hn))
/-- The same for the squares. -/
def sqAt (c : Dev nD) : (n : ℕ) → n < cfg0.N → Vec F S1x128 .f32
  | 0, hn => k0_pay2 (hAt V c ⟨0, hn⟩) k0_pay4
  | n + 1, hn => k0_pay2 (hAt V c ⟨n + 1, hn⟩) (sqAt c n (Nat.lt_of_succ_lt hn))

theorem sumAt_pos (c : Dev nD) (t : Fin cfg0.N) (ht : t.val ≠ 0) :
    sumAt V c t.val t.isLt = k0_pay1 (hAt V c t) (sumAt V c (t.val - 1) (Nat.lt_of_le_of_lt (Nat.sub_le _ _) t.isLt)) := by
  obtain ⟨n, hn⟩ := t
  cases n with
  | zero => exact absurd rfl ht
  | succ n => rfl
theorem sqAt_pos (c : Dev nD) (t : Fin cfg0.N) (ht : t.val ≠ 0) :
    sqAt V c t.val t.isLt = k0_pay2 (hAt V c t) (sqAt V c (t.val - 1) (Nat.lt_of_le_of_lt (Nat.sub_le _ _) t.isLt)) := by
  obtain ⟨n, hn⟩ := t
  cases n with
  | zero => exact absurd rfl ht
  | succ n => rfl
theorem sumAt_zero (c : Dev nD) (t : Fin cfg0.N) (ht : t.val = 0) :
    sumAt V c t.val t.isLt = k0_pay1 (hAt V c t) k0_pay3 := by
  obtain ⟨n, hn⟩ := t
  cases n with
  | zero => rfl
  | succ n => exact absurd ht (Nat.succ_ne_zero n)
theorem sqAt_zero (c : Dev nD) (t : Fin cfg0.N) (ht : t.val = 0) :
    sqAt V c t.val t.isLt = k0_pay2 (hAt V c t) k0_pay4 := by
  obtain ⟨n, hn⟩ := t
  cases n with
  | zero => rfl
  | succ n => exact absurd ht (Nat.succ_ne_zero n)

/-- The two scratch rows as memrefs. -/
abbrev scr0 : Memref sig .tc .vmem S1x128 .f32 := Memref.whole cc0_scratch0
abbrev scr1 : Memref sig .tc .vmem S1x128 .f32 := Memref.whole cc0_scratch1

/-- The scoped buffers of the core that are neither a staging buffer of this region nor one of its two scratch
    rows, each at some contents: carried through the region unopened. -/
abbrev others (c : Dev nD) : sProp 𝕄 :=
  Pipeline.scopedRestBut (Ix := Unit) (Name := ℕ) (U := UR sig nD τ) (Lvl := ℕ) (Val := Elt F) spec0 c [cc0_scratch0, cc0_scratch1]

/-- What the launch hands the region, opened at the two scratch rows. -/
theorem PhiA0_open (c : Dev nD) :
    (Pipeline.ΦA spec0 c : sProp 𝕄)
      = iprop((((∃ d, owns (c : Thread nD τ) scr0 fullShare d) ∗ (∃ d, owns (c : Thread nD τ) scr1 fullShare d)) ∗ others c) ∗ (∃ r, prngReg c r)) := by
  unfold Pipeline.ΦA
  rw [Pipeline.scopedRest_split_of_list spec0 c [cc0_scratch0, cc0_scratch1] (by decide) (by decide)]
  simp only [scr0, scr1, owns_whole]; try rfl

/-- The region's invariant before position `n`: before the first point what the launch hands it; afterwards the two
    scratch rows at the running sums the point before left, the other scoped buffers and the generator register. -/
def PhiS (c : Dev nD) : (n : ℕ) → n ≤ cfg0.N → sProp 𝕄
  | 0, _ => Pipeline.ΦA spec0 c
  | n + 1, hn => iprop(owns (c : Thread nD τ) scr0 fullShare (sumAt V c n hn) ∗ owns (c : Thread nD τ) scr1 fullShare (sqAt V c n hn)
      ∗ others c ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(owns (c : Thread nD τ) scr0 fullShare (sumAt V c n hn) ∗ owns (c : Thread nD τ) scr1 fullShare (sqAt V c n hn)
      ∗ others c ∗ (∃ r, prngReg c r)) := rfl
theorem PhiS_pos (c : Dev nD) (n : ℕ) (h : n ≤ cfg0.N) (hz : n ≠ 0) :
    PhiS V c n h = iprop(owns (c : Thread nD τ) scr0 fullShare (sumAt V c (n - 1) (by omega)) ∗ owns (c : Thread nD τ) scr1 fullShare (sqAt V c (n - 1) (by omega))
      ∗ others c ∗ (∃ r, prngReg c r)) := by
  cases n with
  | zero => exact absurd rfl hz
  | succ n => rfl

/-- The region's proof data: the arrays as the region finds them; after the body every input buffer at its block, the
    row output at the block's normalised rows, the two sum outputs at the running sums; the invariant `PhiS`; nothing
    owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => hAt V c t
    | ⟨7, _⟩ => sumAt V c t.val t.isLt
    | ⟨8, _⟩ => sqAt V c t.val t.isLt
  Φ t := PhiS V c t.val (Nat.le_of_lt_succ t.isLt)
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) : (dat0 V c).after 3 t = blk0 V c 3 t := by dsimp only [dat0]
theorem dat0_after4 (c : Dev nD) (t : Fin cfg0.N) : (dat0 V c).after 4 t = blk0 V c 4 t := by dsimp only [dat0]
theorem dat0_after5 (c : Dev nD) (t : Fin cfg0.N) : (dat0 V c).after 5 t = blk0 V c 5 t := by dsimp only [dat0]
theorem dat0_after6 (c : Dev nD) (t : Fin cfg0.N) : (dat0 V c).after 6 t = hAt V c t := by dsimp only [dat0]
theorem dat0_after7 (c : Dev nD) (t : Fin cfg0.N) : (dat0 V c).after 7 t = sumAt V c t.val t.isLt := by dsimp only [dat0]
theorem dat0_after8 (c : Dev nD) (t : Fin cfg0.N) : (dat0 V c).after 8 t = sqAt V c t.val t.isLt := by dsimp only [dat0]
theorem dat0_before0 (c : Dev nD) (t : Fin cfg0.N) (d) : (dat0 V c).before 0 t d = blk0 V c 0 t :=
  before0_0_of V (dat0 V c) (dat0_A V c 0) (dat0_after0 V c) t d
theorem dat0_before1 (c : Dev nD) (t : Fin cfg0.N) (d) : (dat0 V c).before 1 t d = blk0 V c 1 t :=
  before0_1_of V (dat0 V c) (dat0_A V c 1) (dat0_after1 V c) t d
theorem dat0_before2 (c : Dev nD) (t : Fin cfg0.N) (d) : (dat0 V c).before 2 t d = blk0 V c 2 t :=
  before0_2_of V (dat0 V c) (dat0_A V c 2) (dat0_after2 V c) t d
theorem dat0_before3 (c : Dev nD) (t : Fin cfg0.N) (d) : (dat0 V c).before 3 t d = blk0 V c 3 t :=
  before0_3_of V (dat0 V c) (dat0_A V c 3) (dat0_after3 V c) t d
theorem dat0_before4 (c : Dev nD) (t : Fin cfg0.N) (d) : (dat0 V c).before 4 t d = blk0 V c 4 t :=
  before0_4_of V (dat0 V c) (dat0_A V c 4) (dat0_after4 V c) t d
theorem dat0_before5 (c : Dev nD) (t : Fin cfg0.N) (d) : (dat0 V c).before 5 t d = blk0 V c 5 t :=
  before0_5_of V (dat0 V c) (dat0_A V c 5) (dat0_after5 V c) t d

theorem dat0_Phi_castSucc (c : Dev nD) (t : Fin cfg0.N) :
    (dat0 V c).Φ t.castSucc = PhiS V c t.val (Nat.le_of_lt t.isLt) := by
  dsimp only [dat0]; simp only [Fin.coe_castSucc]

/-- What the body is called with at point `t`, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ (dat0 V c).leavesExact 7 t
    ∗ (dat0 V c).leavesExact 8 t)

set_option maxHeartbeats 4000000 in
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2, dat0_before3, dat0_before4, dat0_before5]
  rw [show (dat0 V c).owesAt () t.succ = (dat0 V c).owesAt () t.castSucc from rfl,
    show (dat0 V c).Φ t.succ = PhiS V c (t.val + 1) t.isLt from rfl, PhiS_succ,
    dat0_after0, dat0_after1, dat0_after2, dat0_after3, dat0_after4, dat0_after5, dat0_after6, dat0_Phi_castSucc]
  have hN : t.val < 10 := lt_of_lt_of_eq t.isLt (show cfg0.N = 10 from N_0)
  by_cases h0 : t.val = 0
  · -- the first point
    have hl : ¬ atLast (grid0.coords t) := fun h => by have := (atLast_iff t).mp h; omega
    rw [Dat.leavesExact_idle (dat0 V c) 7 t (idle7 t hl) (noFlush7 t hl), Dat.leavesExact_idle (dat0 V c) 8 t (idle8 t hl) (noFlush8 t hl),
      PhiS_zero V c _ _ h0, PhiA0_open, sumAt_zero V c t h0, sqAt_zero V c t h0]
    unfold hAt
    iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, H7, H8⟩
    iapply (body0_first c Set.univ (grid0.coords t) _ _ _ _ _ _ _ _ _ _ _ _ _ _ _ _ _ _ _ _ _ _ ((atFirst_iff t).mpr h0) hl (blk0 V c 0 t) (blk0 V c 1 t) (blk0 V c 2 t) (blk0 V c 3 t) (blk0 V c 4 t) (blk0 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hoth Hg]
    · isplitl [HS0]; · iexact HS0
      isplitl [HS1]; · iexact HS1
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hf : ¬ atFirst (grid0.coords t) := fun h => h0 ((atFirst_iff t).mp h)
    rw [PhiS_pos V c _ _ h0, sumAt_pos V c t h0, sqAt_pos V c t h0]
    unfold hAt
    by_cases h9 : t.val = 9
    · -- the last point
      have hl : atLast (grid0.coords t) := (atLast_iff t).mpr h9
      rw [show (dat0 V c).leavesExact 7 t = owns (c : Thread nD τ) (st0_7 t) fullShare ((dat0 V c).after 7 t) from by
          unfold Dat.leavesExact; rw [live7 t hl],
        show (dat0 V c).leavesExact 8 t = owns (c : Thread nD τ) (st0_8 t) fullShare ((dat0 V c).after 8 t) from by
          unfold Dat.leavesExact; rw [live8 t hl],
        dat0_after7, dat0_after8, sumAt_pos V c t h0, sqAt_pos V c t h0]
      unfold hAt
      iintro ⟨⟨HS0, HS1, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body0_last c Set.univ (grid0.coords t) _ _ _ _ _ _ _ _ _ _ _ _ _ _ _ _ _ _ _ _ _ _ hf hl (blk0 V c 0 t) (blk0 V c 1 t) (blk0 V c 2 t) (blk0 V c 3 t) (blk0 V c 4 t) (blk0 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hoth Hg]
      · isplitl [HS0]; · iexact HS0
        isplitl [HS1]; · iexact HS1
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · -- a point in between
      have hl : ¬ atLast (grid0.coords t) := fun h => h9 ((atLast_iff t).mp h)
      rw [Dat.leavesExact_idle (dat0 V c) 7 t (idle7 t hl) (noFlush7 t hl), Dat.leavesExact_idle (dat0 V c) 8 t (idle8 t hl) (noFlush8 t hl)]
      iintro ⟨⟨HS0, HS1, Hoth, Hg⟩, Ho, ⟨%d0, H0⟩, ⟨%d1, H1⟩, ⟨%d2, H2⟩, ⟨%d3, H3⟩, ⟨%d4, H4⟩, ⟨%d5, H5⟩, ⟨%d6, H6⟩, H7, H8⟩
      iapply (body0_mid c Set.univ (grid0.coords t) _ _ _ _ _ _ _ _ _ _ _ _ _ _ _ _ _ _ _ _ _ _ hf hl (blk0 V c 0 t) (blk0 V c 1 t) (blk0 V c 2 t) (blk0 V c 3 t) (blk0 V c 4 t) (blk0 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hoth Hg]
      · isplitl [HS0]; · iexact HS0
        isplitl [HS1]; · iexact HS1
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

theorem obligation0 (c : Dev nD) : BodyObligation (dat0 (F := F) V c) (defs₀ (F := F)) Variants.none () Set.univ := fun t => by
  rw [bigSep_W0, bigSep_W0]
  exact sound0 V c t

/-- What the launch hands the region is the invariant before the first point. -/
theorem dat0_hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives back what the launch handed over: the two running sums are forgotten. -/
theorem dat0_hout (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 10 := N_0; omega), PhiA0_open]
  iintro ⟨HS0, HS1, Hoth, Hg⟩
  isplitl [HS0 HS1 Hoth]
  · isplitl [HS0 HS1]
    · isplitl [HS0]
      · iexists _; iexact HS0
      iexists _; iexact HS1
    iexact Hoth
  iexact Hg

end

end Cert.Kernel.Hand

end
-- ==== Proof.WordRegion1.lean ====
import proofs.«162611_j39075612459051_2_alg».proof.Proof.LaunchKernel
import proofs.«162611_j39075612459051_2_alg».proof.Proof.Gen.Kernel.Skeleton
import proofs.«162611_j39075612459051_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region: batch normalisation with the given mean and variance rows, the rectifier, and the
two projections of the activations, a block of 10000 rows at a time.

Everything is stated at a parameter `V`: what the unscoped buffers hold when the region is entered. -/

section
variable (V : (c : Dev nD) → (b : Ref sig .tc) → Buf (Elt F) ((c : Thread nD τ).loc b))

/-- The block of window `w` at grid point `t`, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds the window's block at every point: fetched there, or not fetched
    because the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

/-! The body reads and writes whole staging buffers. -/
abbrev q1_128 : Rect S10000x128 := Rect.unit (s := S10000x128) ![0, 0] S10000x128.size inb_S10000x128_S10000x128_0_0
abbrev q1_r : Rect S1x128 := Rect.unit (s := S1x128) ![0, 0] S1x128.size inb_S1x128_S1x128_0_0
abbrev q1_w : Rect S128x47 := Rect.unit (s := S128x47) ![0, 0] S128x47.size inb_S128x47_S128x47_0_0
abbrev q1_47 : Rect S10000x47 := Rect.unit (s := S10000x47) ![0, 0] S10000x47.size inb_S10000x47_S10000x47_0_0

/-- What the body leaves in the first output block: the activations of the block against the neighbour weights. -/
def res1z (x0 : Vec F S10000x128 .f32) (x1 : Vec F S1x128 .f32) (x2 : Vec F S1x128 .f32) (x3 : Vec F S1x128 .f32) (x4 : Vec F S1x128 .f32) (x5 : Vec F S128x47 .f32) (x6 : Vec F S128x47 .f32) : Vec F S10000x47 .f32 :=
  View.canon [⟨q1_47, k1_pay2 (View.ld x0 q1_128) (View.ld x3 q1_r) (View.ld x1 q1_r) (View.ld x2 q1_r) (View.ld x4 q1_r) (View.ld x5 q1_w)⟩]

/-- The one store covers the block. -/
theorem res1z_cover (p0 : Vec F S10000x47 .f32) (y : S10000x47.Idx) :
    ∃ pc ∈ ([⟨q1_47, p0⟩] : List (View.Piece (Elt F) S10000x47 .f32)), y ∈ pc.1.set :=
  View.cover_of_tiled [⟨q1_47, p0⟩] S10000x47.size (by rfl) y

/-- What the body leaves in the second output block: the same activations against the self weights. -/
def res1r (x0 : Vec F S10000x128 .f32) (x1 : Vec F S1x128 .f32) (x2 : Vec F S1x128 .f32) (x3 : Vec F S1x128 .f32) (x4 : Vec F S1x128 .f32) (x5 : Vec F S128x47 .f32) (x6 : Vec F S128x47 .f32) : Vec F S10000x47 .f32 :=
  View.canon [⟨q1_47, k1_pay3 (View.ld x0 q1_128) (View.ld x3 q1_r) (View.ld x1 q1_r) (View.ld x2 q1_r) (View.ld x4 q1_r) (View.ld x6 q1_w)⟩]

/-- The one store covers the block. -/
theorem res1r_cover (p0 : Vec F S10000x47 .f32) (y : S10000x47.Idx) :
    ∃ pc ∈ ([⟨q1_47, p0⟩] : List (View.Piece (Elt F) S10000x47 .f32)), y ∈ pc.1.set :=
  View.cover_of_tiled [⟨q1_47, p0⟩] S10000x47.size (by rfl) y

set_option maxHeartbeats 4000000 in
/-- The body's triple: from the input blocks held at the given contents and the output buffers at anything, it
    runs to the inputs unchanged and each output at its stored value. -/
theorem body1 (c : Dev nD) (E : Set ℕ) (i : grid1.Coords)
    (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x47 .f32) (harg6 : arg6.IsWhole) (arg7 : Memref sig .tc .vmem S128x47 .f32) (harg7 : arg7.IsWhole) (arg8 : Memref sig .tc .vmem S10000x47 .f32) (harg8 : arg8.IsWhole) (arg9 : Memref sig .tc .vmem S10000x47 .f32) (harg9 : arg9.IsWhole)
    (x0 : Vec F S10000x128 .f32) (x1 : Vec F S1x128 .f32) (x2 : Vec F S1x128 .f32) (x3 : Vec F S1x128 .f32) (x4 : Vec F S1x128 .f32) (x5 : Vec F S128x47 .f32) (x6 : Vec F S128x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (res1z x0 x1 x2 x3 x4 x5 x6) ∗ owns (c : Thread nD τ) arg9 fullShare (res1r x0 x1 x2 x3 x4 x5 x6)) -∗ K ⟨⟩))
      ⊢ wp frame (wpE (defs₀ (F := F)) Variants.none c none) E (cc1__bn_relu_proj_kernel i arg1 harg1 arg2 harg2 arg3 harg3 arg4 harg4 arg5 harg5 arg6 harg6 arg7 harg7 arg8 harg8 arg9 harg9) K := by
  simp only [cc1__bn_relu_proj_kernel_eq_skeleton]; unfold cc1__bn_relu_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (res1z_cover _)
  iexists _; isplitr
  swap; · iexact H8
  ipureintro
  exact View.read_writes_eq_canon _ _ _ (res1r_cover _)

/-- The region's proof data: the arrays as the region finds them; after the body every input buffer at its
    block and every output buffer at its stored value of the blocks; the scoped rest and the generator register
    untouched; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => res1z (blk1 V c 0 t) (blk1 V c 1 t) (blk1 V c 2 t) (blk1 V c 3 t) (blk1 V c 4 t) (blk1 V c 5 t) (blk1 V c 6 t)
    | ⟨8, _⟩ => res1r (blk1 V c 0 t) (blk1 V c 1 t) (blk1 V c 2 t) (blk1 V c 3 t) (blk1 V c 4 t) (blk1 V c 5 t) (blk1 V c 6 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = blk1 V c 5 t := by dsimp only [dat1]
theorem dat1_after6 (c : Dev nD) (t : Fin cfg1.N) : (dat1 V c).after 6 t = blk1 V c 6 t := by dsimp only [dat1]
theorem dat1_after7 (c : Dev nD) (t : Fin cfg1.N) :
    (dat1 V c).after 7 t = res1z (blk1 V c 0 t) (blk1 V c 1 t) (blk1 V c 2 t) (blk1 V c 3 t) (blk1 V c 4 t) (blk1 V c 5 t) (blk1 V c 6 t) := by dsimp only [dat1]
theorem dat1_after8 (c : Dev nD) (t : Fin cfg1.N) :
    (dat1 V c).after 8 t = res1r (blk1 V c 0 t) (blk1 V c 1 t) (blk1 V c 2 t) (blk1 V c 3 t) (blk1 V c 4 t) (blk1 V c 5 t) (blk1 V c 6 t) := by dsimp only [dat1]

theorem dat1_before0 (c : Dev nD) (t : Fin cfg1.N) (d) : (dat1 V c).before 0 t d = blk1 V c 0 t :=
  before1_0_of V (dat1 V c) (dat1_A V c 0) (dat1_after0 V c) t d
theorem dat1_before1 (c : Dev nD) (t : Fin cfg1.N) (d) : (dat1 V c).before 1 t d = blk1 V c 1 t :=
  before1_1_of V (dat1 V c) (dat1_A V c 1) (dat1_after1 V c) t d
theorem dat1_before2 (c : Dev nD) (t : Fin cfg1.N) (d) : (dat1 V c).before 2 t d = blk1 V c 2 t :=
  before1_2_of V (dat1 V c) (dat1_A V c 2) (dat1_after2 V c) t d
theorem dat1_before3 (c : Dev nD) (t : Fin cfg1.N) (d) : (dat1 V c).before 3 t d = blk1 V c 3 t :=
  before1_3_of V (dat1 V c) (dat1_A V c 3) (dat1_after3 V c) t d
theorem dat1_before4 (c : Dev nD) (t : Fin cfg1.N) (d) : (dat1 V c).before 4 t d = blk1 V c 4 t :=
  before1_4_of V (dat1 V c) (dat1_A V c 4) (dat1_after4 V c) t d
theorem dat1_before5 (c : Dev nD) (t : Fin cfg1.N) (d) : (dat1 V c).before 5 t d = blk1 V c 5 t :=
  before1_5_of V (dat1 V c) (dat1_A V c 5) (dat1_after5 V c) t d
theorem dat1_before6 (c : Dev nD) (t : Fin cfg1.N) (d) : (dat1 V c).before 6 t d = blk1 V c 6 t :=
  before1_6_of V (dat1 V c) (dat1_A V c 6) (dat1_after6 V c) t d

/-- What the body is called with at point `t`, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4, dat1_before5, dat1_before6]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6, dat1_after7, dat1_after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body1 c Set.univ _ _ _ _ _ _ _ _ _ _ _ _ _ _ _ _ _ _ _ (blk1 V c 0 t) (blk1 V c 1 t) (blk1 V c 2 t) (blk1 V c 3 t) (blk1 V c 4 t) (blk1 V c 5 t) (blk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem obligation1 (c : Dev nD) : BodyObligation (dat1 (F := F) V c) (defs₀ (F := F)) Variants.none () Set.univ := fun t => by
  rw [bigSep_W1, bigSep_W1]
  exact sound1 V c t

end

end Cert.Kernel.Hand

end
-- ==== Proof.WordRegion2.lean ====
import proofs.«162611_j39075612459051_2_alg».proof.Proof.LaunchKernel
import proofs.«162611_j39075612459051_2_alg».proof.Proof.Gen.Kernel.Skeleton
import proofs.«162611_j39075612459051_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third kernel region: the degree mean of the aggregated projections, the bias, the self term and the
row normalisation, a block of 10000 rows at a time.

Everything is stated at a parameter `V`: what the unscoped buffers hold when the region is entered. -/

section
variable (V : (c : Dev nD) → (b : Ref sig .tc) → Buf (Elt F) ((c : Thread nD τ).loc b))

/-- The block of window `w` at grid point `t`, read off the window's array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds the window's block at every point: fetched there, or not fetched
    because the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-! The body reads and writes whole staging buffers. -/
abbrev q2_47 : Rect S10000x47 := Rect.unit (s := S10000x47) ![0, 0] S10000x47.size inb_S10000x47_S10000x47_0_0
abbrev q2_1 : Rect S10000x1 := Rect.unit (s := S10000x1) ![0, 0] S10000x1.size inb_S10000x1_S10000x1_0_0
abbrev q2_b : Rect S1x47 := Rect.unit (s := S1x47) ![0, 0] S1x47.size inb_S1x47_S1x47_0_0

/-- What the body leaves in the output block: its one store, the row-normalised combination of the four input blocks. -/
def res2 (x0 : Vec F S10000x47 .f32) (x1 : Vec F S10000x1 .f32) (x2 : Vec F S1x47 .f32) (x3 : Vec F S10000x47 .f32) : Vec F S10000x47 .f32 :=
  View.canon [⟨q2_47, k2_pay1 (View.ld x0 q2_47) (View.ld x1 q2_1) (View.ld x2 q2_b) (View.ld x3 q2_47)⟩]

/-- The one store covers the block. -/
theorem res2_cover (p0 : Vec F S10000x47 .f32) (y : S10000x47.Idx) :
    ∃ pc ∈ ([⟨q2_47, p0⟩] : List (View.Piece (Elt F) S10000x47 .f32)), y ∈ pc.1.set :=
  View.cover_of_tiled [⟨q2_47, p0⟩] S10000x47.size (by rfl) y

set_option maxHeartbeats 4000000 in
/-- The body's triple: from the input blocks held at the given contents and the output buffers at anything, it
    runs to the inputs unchanged and each output at its stored value. -/
theorem body2 (c : Dev nD) (E : Set ℕ) (i : grid2.Coords)
    (arg1 : Memref sig .tc .vmem S10000x47 .f32) (harg1 : arg1.IsWhole) (arg2 : Memref sig .tc .vmem S10000x1 .f32) (harg2 : arg2.IsWhole) (arg3 : Memref sig .tc .vmem S1x47 .f32) (harg3 : arg3.IsWhole) (arg4 : Memref sig .tc .vmem S10000x47 .f32) (harg4 : arg4.IsWhole) (arg5 : Memref sig .tc .vmem S10000x47 .f32) (harg5 : arg5.IsWhole)
    (x0 : Vec F S10000x47 .f32) (x1 : Vec F S10000x1 .f32) (x2 : Vec F S1x47 .f32) (x3 : Vec F S10000x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (res2 x0 x1 x2 x3)) -∗ K ⟨⟩))
      ⊢ wp frame (wpE (defs₀ (F := F)) Variants.none c none) E (cc2__combine_kernel i arg1 harg1 arg2 harg2 arg3 harg3 arg4 harg4 arg5 harg5) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (res2_cover _)

/-- The region's proof data: the arrays as the region finds them; after the body every input buffer at its
    block and every output buffer at its stored value of the blocks; the scoped rest and the generator register
    untouched; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => res2 (blk2 V c 0 t) (blk2 V c 1 t) (blk2 V c 2 t) (blk2 V c 3 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) : (dat2 V c).after 3 t = blk2 V c 3 t := by dsimp only [dat2]
theorem dat2_after4 (c : Dev nD) (t : Fin cfg2.N) :
    (dat2 V c).after 4 t = res2 (blk2 V c 0 t) (blk2 V c 1 t) (blk2 V c 2 t) (blk2 V c 3 t) := by dsimp only [dat2]

theorem dat2_before0 (c : Dev nD) (t : Fin cfg2.N) (d) : (dat2 V c).before 0 t d = blk2 V c 0 t :=
  before2_0_of V (dat2 V c) (dat2_A V c 0) (dat2_after0 V c) t d
theorem dat2_before1 (c : Dev nD) (t : Fin cfg2.N) (d) : (dat2 V c).before 1 t d = blk2 V c 1 t :=
  before2_1_of V (dat2 V c) (dat2_A V c 1) (dat2_after1 V c) t d
theorem dat2_before2 (c : Dev nD) (t : Fin cfg2.N) (d) : (dat2 V c).before 2 t d = blk2 V c 2 t :=
  before2_2_of V (dat2 V c) (dat2_A V c 2) (dat2_after2 V c) t d
theorem dat2_before3 (c : Dev nD) (t : Fin cfg2.N) (d) : (dat2 V c).before 3 t d = blk2 V c 3 t :=
  before2_3_of V (dat2 V c) (dat2_A V c 3) (dat2_after3 V c) t d

/-- What the body is called with at point `t`, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound2 (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2, dat2_before3]
  rw [show (dat2 V c).Φ t.succ = (dat2 V c).Φ t.castSucc from rfl,
    show (dat2 V c).owesAt () t.succ = (dat2 V c).owesAt () t.castSucc from rfl,
    dat2_after0, dat2_after1, dat2_after2, dat2_after3, dat2_after4]
  iintro ⟨HΦ, Ho, ⟨%d0, H0⟩, ⟨%d1, H1⟩, ⟨%d2, H2⟩, ⟨%d3, H3⟩, ⟨%d4, H4⟩⟩
  iapply (body2 c Set.univ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem obligation2 (c : Dev nD) : BodyObligation (dat2 (F := F) V c) (defs₀ (F := F)) Variants.none () Set.univ := fun t => by
  rw [bigSep_W2, bigSep_W2]
  exact sound2 V c t

end

end Cert.Kernel.Hand

end
-- ==== Proof.WordRun.lean ====
import proofs.«162611_j39075612459051_2_alg».proof.Proof.LaunchKernel
import proofs.«162611_j39075612459051_2_alg».proof.Proof.Gen.Kernel.Skeleton
import proofs.«162611_j39075612459051_2_alg».proof.Proof.Gen.Kernel.Points
import proofs.«162611_j39075612459051_2_alg».proof.Proof.WordRegion0
import proofs.«162611_j39075612459051_2_alg».proof.Proof.WordRegion1
import proofs.«162611_j39075612459051_2_alg».proof.Proof.WordRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run: host operations, the first kernel region, host operations, the second, host operations,
the third.

The contents of the core's unscoped buffers are followed through the six items: a stretch of host operations
applies its operations; a kernel region replaces its output arrays by what its write-backs leave. At the end every
unscoped buffer is read against the final memory. -/

/-- No operation of the first stretch of host operations allocates a buffer. -/
theorem hostOps0_fresh : (hostOps0 : List (HloOp τ sig (Elt F))).Forall fun op => op.fresh = ∅ := by
  simp only [List.Forall]; repeat' constructor
/-- The references it writes. -/
abbrev hostOps0_W : List (Ref sig .tc) := [main_v0, main_v1, main_v2, main_v3, main_cst, main_v4, main_cst_0, main_v5, main_v6, main_v7, main_v8, main_c, main_v9, main_v10, main_c_1, main_v11, main_v12, main_v13, main_v14, main_v15, main_cst_2, main_v16, main_v17, main_v18, main_v19, main_v20, main_v21]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of the second stretch of host operations allocates a buffer. -/
theorem hostOps1_fresh : (hostOps1 : List (HloOp τ sig (Elt F))).Forall fun op => op.fresh = ∅ := by
  simp only [List.Forall]; repeat' constructor
/-- The references it writes. -/
abbrev hostOps1_W : List (Ref sig .tc) := [main_v23, main_cst_3, main_v24, main_v25, main_v26, main_cst_4, main_v27, main_v28, main_v29, main_v30, main_cst_5, main_v31, main_v32, main_v33, main_v34, main_v35, main_v36, main_v37, main_v38]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of the third stretch of host operations allocates a buffer. -/
theorem hostOps2_fresh : (hostOps2 : List (HloOp τ sig (Elt F))).Forall fun op => op.fresh = ∅ := by
  simp only [List.Forall]; repeat' constructor
/-- The references it writes. -/
abbrev hostOps2_W : List (Ref sig .tc) := [main_c_6, main_v40, main_v41, main_c_7, main_v42, main_v43, main_v44, main_v45, main_v46, main_cst_8, main_v47, main_v48, main_v49, main_v50]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

variable (m : (ℓ : Loc nD τ sig) → Buf (Elt F) ℓ) (ρ : Dev nD → PrngReg)

/-- The core's buffers at launch. -/
abbrev W0 : Dev nD → Valuation τ sig (Elt F) := fun c b => (s₀ m ρ).mem ((c : Dev nD), b)
/-- After the first stretch of host operations. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After kernel region 0: its windows' arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After kernel region 1: its windows' arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch of host operations. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- After kernel region 2: its windows' arrays at what the write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the core's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- Argument 0 ends as launched: no host operation writes it and no kernel region has it as an output. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 2).trans (((dat0 (V1 m ρ) c).arrAt_in 2 rfl _).trans (dat0_A (V1 m ρ) c 2))
    _ = W0 m ρ c (Proc.devRef .tc main_arg0) := StableHlo.after_of_writes_sub hostOps0 _ hostOps0_writes (by decide)
    _ = m ((c : Thread nD τ).loc main_arg0) := rfl

/-- Argument 1 ends as launched: no host operation writes it and no kernel region has it as an output. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- Argument 2 ends as launched: no host operation writes it and no kernel region has it as an output. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- Argument 3 ends as launched: no host operation writes it and no kernel region has it as an output. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- Argument 4 ends as launched: no host operation writes it and no kernel region has it as an output. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- Argument 5 ends as launched: no host operation writes it and no kernel region has it as an output. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- Argument 6 ends as launched: no host operation writes it and no kernel region has it as an output. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- Argument 7 ends as launched: no host operation writes it and no kernel region has it as an output. -/
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-- Argument 8 ends as launched: no host operation writes it and no kernel region has it as an output. -/
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-- Argument 9 ends as launched: no host operation writes it and no kernel region has it as an output. -/
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-! ## The proof data of the three regions and the thread state -/

abbrev adm' : (p : Fin 3) → (pcfgs (F := F) p).Adm := fun p => (cfgs p).toPCfg_adm
/-- Each region's proof data at the contents it is entered with. -/
def pdats : (p : Fin 3) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing
    nothing. -/
abbrev R (c : Dev nD) : sProp 𝕄 := iprop((∃ r, prngReg c r) ∗ ∃ W, owes (c : Thread nD τ) (0 : CellTallies nD τ sig Unit) W)
/-- A stretch of host operations as an item. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the `owes`. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- Kernel region 0 over the thread state: entered with every unscoped buffer at `W1`, left with every one at
    `W2`; its windows' arrays are split out of the unscoped buffers on entry and put back, at what the write-backs
    leave, on exit; the generator register goes into the region's invariant and comes back; nothing is owed; the
    kernel has no semaphore of its own. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (dat0_hin (V1 m ρ) c)
    unfold Pipeline.ΦA
    iintro ⟨Hp, -, Hr⟩
    isplitl [Hr]; · iexact Hr
    iexact Hp
  hout c := by
    rw [Pipeline.ownSems0_none]
    refine (dat0_hout (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered with every unscoped buffer at `W3`, left with every one at
    `W4`; its windows' arrays are split out of the unscoped buffers on entry and put back, at what the write-backs
    leave, on exit; the generator register goes into the region's invariant and comes back; nothing is owed; the
    kernel has no semaphore of its own. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 2 over the thread state: entered with every unscoped buffer at `W5`, left with every one at
    `W6`; its windows' arrays are split out of the unscoped buffers on entry and put back, at what the write-backs
    leave, on exit; the generator register goes into the region's invariant and comes back; nothing is owed; the
    kernel has no semaphore of its own. -/
def reg2 : Pipeline.RegionSeg (pcfgs (F := F)) adm' (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The six items in order. -/
abbrev segs : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every unscoped buffer of every core ends at the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c)⟩) (run_all m ρ)

/-- The result array ends at what the third region's write-backs leave. -/
theorem result : θ_run defs (onTc (τ := τ) (main (F := F))) ⟨m, fun _ => 0, ρ⟩ (fun r => ∀ c : Dev nD,
      r.2.mem ((c.tc : Thread nD τ).loc main_v51) = (dat2 (V5 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v51 (by decide))).trans (W6_arr m ρ c 4), (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c)⟩) (run_all m ρ)

end Cert.Kernel.Hand

end
-- ==== Proof.Region0.lean ====
import proofs.«162611_j39075612459051_2_alg».proof.Proof.LaunchKernelIdeal
import proofs.«162611_j39075612459051_2_alg».proof.Proof.Gen.KernelIdeal.Skeleton
import proofs.«162611_j39075612459051_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel region: the degree mean of the aggregated rows, the two matrix products and the bias, the
row normalisation, and beside it the running column sums of the normalised rows and of their squares, a block of
10000 rows at a time; the two sums are kept in scratch from point to point and written out at the last point.

Everything is stated at a parameter `V`: what the unscoped buffers hold when the region is entered. -/

/-- The two offsets of a whole-buffer rectangle are zero. -/
theorem off2 : (![0, 0] : Fin 2 → Nat) = fun _ => 0 := by
  funext a; match a with | ⟨0, _⟩ => rfl | ⟨1, _⟩ => rfl

/-- The first branch's condition: the grid coordinate is zero. -/
abbrev atFirst (i : grid0.Coords) : Prop :=
  (Scalar.cmpi .ne (Scalar.extui (Scalar.cmpi .eq (BitVec.ofNat 32 (i 0).val) 0#32)) 0#32) = 1#1
/-- The second branch's condition: the grid coordinate is nine. -/
abbrev atLast (i : grid0.Coords) : Prop := k0_cond2 i = 1#1

theorem atFirst_iff : ∀ t : Fin cfg0.N, atFirst (grid0.coords t) ↔ t.val = 0 :=
  (by decide +kernel : ∀ t : Fin grid0.N, atFirst (grid0.coords t) ↔ t.val = 0)
theorem atLast_iff : ∀ t : Fin cfg0.N, atLast (grid0.coords t) ↔ t.val = 9 :=
  (by decide +kernel : ∀ t : Fin grid0.N, atLast (grid0.coords t) ↔ t.val = 9)
/-- Away from the last point the two sum windows are idle and are not written back; at the last point they are live. -/
theorem idle7 : ∀ t : Fin cfg0.N, ¬ atLast (grid0.coords t) → cfg0.idle 7 (grid0.coords t) = true := by decide +kernel
theorem idle8 : ∀ t : Fin cfg0.N, ¬ atLast (grid0.coords t) → cfg0.idle 8 (grid0.coords t) = true := by decide +kernel
theorem noFlush7 : ∀ t : Fin cfg0.N, ¬ atLast (grid0.coords t) → (cfg0.win 7).flush t = false := by decide +kernel
theorem noFlush8 : ∀ t : Fin cfg0.N, ¬ atLast (grid0.coords t) → (cfg0.win 8).flush t = false := by decide +kernel
theorem live7 : ∀ t : Fin cfg0.N, atLast (grid0.coords t) → cfg0.idle 7 (grid0.coords t) = false := by decide +kernel
theorem live8 : ∀ t : Fin cfg0.N, atLast (grid0.coords t) → cfg0.idle 8 (grid0.coords t) = false := by decide +kernel

/-! The body reads and writes whole staging buffers. -/
abbrev q0_128 : Rect S10000x128 := Rect.unit (s := S10000x128) ![0, 0] S10000x128.size inb_S10000x128_S10000x128_0_0
abbrev q0_1 : Rect S10000x1 := Rect.unit (s := S10000x1) ![0, 0] S10000x1.size inb_S10000x1_S10000x1_0_0
abbrev q0_w : Rect S128x128 := Rect.unit (s := S128x128) ![0, 0] S128x128.size inb_S128x128_S128x128_0_0
abbrev q0_r : Rect S1x128 := Rect.unit (s := S1x128) ![0, 0] S1x128.size inb_S1x128_S1x128_0_0

/-- The normalised rows of a block: from the aggregated rows, the degrees, the rows themselves, the two weight
    matrices and the bias. -/
def hrow (x0 : Vec F S10000x128 .f32) (x1 : Vec F S10000x1 .f32) (x2 : Vec F S10000x128 .f32) (x3 : Vec F S128x128 .f32) (x4 : Vec F S1x128 .f32) (x5 : Vec F S128x128 .f32) : Vec F S10000x128 .f32 :=
  k0_pay5 x0 x1 x3 x4 x2 x5

/-- A store through the whole-buffer rectangle, last, covers the buffer whatever came before. -/
theorem cover128 (p0 : Vec F S10000x128 .f32) (L : List (View.Piece (Elt F) S10000x128 .f32)) (y : S10000x128.Idx) :
    ∃ pc ∈ ((⟨q0_128, p0⟩ :: L) : List (View.Piece (Elt F) S10000x128 .f32)), y ∈ pc.1.set :=
  ⟨_, List.mem_cons_self, View.mem_set_unit_zero off2 inb_S10000x128_S10000x128_0_0 y⟩
theorem coverRow (p0 : Vec F S1x128 .f32) (L : List (View.Piece (Elt F) S1x128 .f32)) (y : S1x128.Idx) :
    ∃ pc ∈ ((⟨q0_r, p0⟩ :: L) : List (View.Piece (Elt F) S1x128 .f32)), y ∈ pc.1.set :=
  ⟨_, List.mem_cons_self, View.mem_set_unit_zero off2 inb_S1x128_S1x128_0_0 y⟩

set_option maxHeartbeats 4000000 in
/-- The body at the first point: the two scratch rows are zeroed, the output block is left at the normalised rows, and
    the scratch rows at the block's column sums added to zero. -/
theorem body0_first (c : Dev nD) (E : Set ℕ) (i : grid0.Coords) (arg1 : Memref sig .tc .vmem S10000x128 .f32) (harg1 : arg1.IsWhole) (arg2 : Memref sig .tc .vmem S10000x1 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc1 : atFirst i) (hc2 : ¬ atLast i)
    (x0 : Vec F S10000x128 .f32) (x1 : Vec F S10000x1 .f32) (x2 : Vec F S10000x128 .f32) (x3 : Vec F S128x128 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (hrow x0 x1 x2 x3 x4 x5)
            ∗ owns (c : Thread nD τ) arg10 fullShare (k0_pay1 (hrow x0 x1 x2 x3 x4 x5) k0_pay3) ∗ owns (c : Thread nD τ) arg11 fullShare (k0_pay2 (hrow x0 x1 x2 x3 x4 x5) k0_pay4)) -∗ K ⟨⟩))
      ⊢ wp frame (wpE (defs₀ (F := F)) Variants.none c none) E (cc0__sage_linear1_kernel i arg1 harg1 arg2 harg2 arg3 harg3 arg4 harg4 arg5 harg5 arg6 harg6 arg7 harg7 arg8 harg8 arg9 harg9 arg10 harg10 arg11 harg11) K := by
  simp only [cc0__sage_linear1_kernel_eq_skeleton]; unfold cc0__sage_linear1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%e0, %g0, -, S0⟩, ⟨%e1, %g1, -, S1⟩, Hk⟩
  subst hf0; subst hf1; subst hf2; subst hf3; subst hf4; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (cover128 _ _), View.canon_cons_unit_zero off2]
    simp only [hrow, View.readCov_unit_zero (S := S1x128) _ off2, View.readAt_eq_ld, View.ld_unit_zero (S := S10000x128) off2, View.ld_unit_zero (S := S10000x1) off2, View.ld_unit_zero (S := S128x128) off2, View.ld_unit_zero (S := S1x128) off2]
  isplitl [S0]
  · iexists _; isplitr
    swap; · iexact S0
    ipureintro
    sl_unfold_run_names
    rw [View.read_writes_eq_canon _ _ _ (coverRow _ _), View.canon_cons_unit_zero off2]
    simp only [hrow, View.readCov_unit_zero (S := S1x128) _ off2, View.readAt_eq_ld, View.ld_unit_zero (S := S10000x128) off2, View.ld_unit_zero (S := S10000x1) off2, View.ld_unit_zero (S := S128x128) off2, View.ld_unit_zero (S := S1x128) off2]
  iexists _; isplitr
  swap; · iexact S1
  ipureintro
  sl_unfold_run_names
  rw [View.read_writes_eq_canon _ _ _ (coverRow _ _), View.canon_cons_unit_zero off2]
  simp only [hrow, View.readCov_unit_zero (S := S1x128) _ off2, View.readAt_eq_ld, View.ld_unit_zero (S := S10000x128) off2, View.ld_unit_zero (S := S10000x1) off2, View.ld_unit_zero (S := S128x128) off2, View.ld_unit_zero (S := S1x128) off2]

set_option maxHeartbeats 4000000 in
/-- The body at a point that is neither the first nor the last: the output block is left at the normalised rows, the
    two scratch rows grow by the block's column sums. -/
theorem body0_mid (c : Dev nD) (E : Set ℕ) (i : grid0.Coords) (arg1 : Memref sig .tc .vmem S10000x128 .f32) (harg1 : arg1.IsWhole) (arg2 : Memref sig .tc .vmem S10000x1 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc1 : ¬ atFirst i) (hc2 : ¬ atLast i)
    (x0 : Vec F S10000x128 .f32) (x1 : Vec F S10000x1 .f32) (x2 : Vec F S10000x128 .f32) (x3 : Vec F S128x128 .f32) (x4 : Vec F S1x128 .f32) (x5 : Vec F S128x128 .f32) (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg10 fullShare s0 ∗ owns (c : Thread nD τ) arg11 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (hrow x0 x1 x2 x3 x4 x5)
            ∗ owns (c : Thread nD τ) arg10 fullShare (k0_pay1 (hrow x0 x1 x2 x3 x4 x5) s0) ∗ owns (c : Thread nD τ) arg11 fullShare (k0_pay2 (hrow x0 x1 x2 x3 x4 x5) s1)) -∗ K ⟨⟩))
      ⊢ wp frame (wpE (defs₀ (F := F)) Variants.none c none) E (cc0__sage_linear1_kernel i arg1 harg1 arg2 harg2 arg3 harg3 arg4 harg4 arg5 harg5 arg6 harg6 arg7 harg7 arg8 harg8 arg9 harg9 arg10 harg10 arg11 harg11) K := by
  simp only [cc0__sage_linear1_kernel_eq_skeleton]; unfold cc0__sage_linear1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%g0, %hg0, S0⟩, ⟨%g1, %hg1, S1⟩, Hk⟩
  subst hf0; subst hf1; subst hf2; subst hf3; subst hf4; subst hf5; subst hg0; subst hg1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (cover128 _ _), View.canon_cons_unit_zero off2]
    simp only [hrow, View.readCov_unit_zero (S := S1x128) _ off2, View.readAt_eq_ld, View.ld_unit_zero (S := S10000x128) off2, View.ld_unit_zero (S := S10000x1) off2, View.ld_unit_zero (S := S128x128) off2, View.ld_unit_zero (S := S1x128) off2]
  isplitl [S0]
  · iexists _; isplitr
    swap; · iexact S0
    ipureintro
    sl_unfold_run_names
    rw [View.read_writes_eq_canon _ _ _ (coverRow _ _), View.canon_cons_unit_zero off2]
    simp only [hrow, View.readCov_unit_zero (S := S1x128) _ off2, View.readAt_eq_ld, View.ld_unit_zero (S := S10000x128) off2, View.ld_unit_zero (S := S10000x1) off2, View.ld_unit_zero (S := S128x128) off2, View.ld_unit_zero (S := S1x128) off2]
  iexists _; isplitr
  swap; · iexact S1
  ipureintro
  sl_unfold_run_names
  rw [View.read_writes_eq_canon _ _ _ (coverRow _ _), View.canon_cons_unit_zero off2]
  simp only [hrow, View.readCov_unit_zero (S := S1x128) _ off2, View.readAt_eq_ld, View.ld_unit_zero (S := S10000x128) off2, View.ld_unit_zero (S := S10000x1) off2, View.ld_unit_zero (S := S128x128) off2, View.ld_unit_zero (S := S1x128) off2]

set_option maxHeartbeats 4000000 in
/-- The body at the last point: as in the middle, and then the two scratch rows are copied into the two sum outputs. -/
theorem body0_last (c : Dev nD) (E : Set ℕ) (i : grid0.Coords) (arg1 : Memref sig .tc .vmem S10000x128 .f32) (harg1 : arg1.IsWhole) (arg2 : Memref sig .tc .vmem S10000x1 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S10000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc1 : ¬ atFirst i) (hc2 : atLast i)
    (x0 : Vec F S10000x128 .f32) (x1 : Vec F S10000x1 .f32) (x2 : Vec F S10000x128 .f32) (x3 : Vec F S128x128 .f32) (x4 : Vec F S1x128 .f32) (x5 : Vec F S128x128 .f32) (s0 s1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s0 ∗ owns (c : Thread nD τ) arg11 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (hrow x0 x1 x2 x3 x4 x5) ∗ owns (c : Thread nD τ) arg8 fullShare (k0_pay1 (hrow x0 x1 x2 x3 x4 x5) s0) ∗ owns (c : Thread nD τ) arg9 fullShare (k0_pay2 (hrow x0 x1 x2 x3 x4 x5) s1)
            ∗ owns (c : Thread nD τ) arg10 fullShare (k0_pay1 (hrow x0 x1 x2 x3 x4 x5) s0) ∗ owns (c : Thread nD τ) arg11 fullShare (k0_pay2 (hrow x0 x1 x2 x3 x4 x5) s1)) -∗ K ⟨⟩))
      ⊢ wp frame (wpE (defs₀ (F := F)) Variants.none c none) E (cc0__sage_linear1_kernel i arg1 harg1 arg2 harg2 arg3 harg3 arg4 harg4 arg5 harg5 arg6 harg6 arg7 harg7 arg8 harg8 arg9 harg9 arg10 harg10 arg11 harg11) K := by
  simp only [cc0__sage_linear1_kernel_eq_skeleton]; unfold cc0__sage_linear1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%g0, %hg0, S0⟩, ⟨%g1, %hg1, S1⟩, Hk⟩
  subst hf0; subst hf1; subst hf2; subst hf3; subst hf4; subst hf5; subst hg0; subst hg1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (cover128 _ _), View.canon_cons_unit_zero off2]
    simp only [hrow, View.readCov_unit_zero (S := S1x128) _ off2, View.readAt_eq_ld, View.ld_unit_zero (S := S10000x128) off2, View.ld_unit_zero (S := S10000x1) off2, View.ld_unit_zero (S := S128x128) off2, View.ld_unit_zero (S := S1x128) off2]
  isplitl [H7]
  · iexists _; isplitr
    swap; · iexact H7
    ipureintro
    sl_unfold_run_names
    rw [View.read_writes_eq_canon _ _ _ (coverRow _ _), View.canon_cons_unit_zero off2]
    simp only [hrow, View.readCov_unit_zero (S := S1x128) _ off2, View.readAt_eq_ld, View.ld_unit_zero (S := S10000x128) off2, View.ld_unit_zero (S := S10000x1) off2, View.ld_unit_zero (S := S128x128) off2, View.ld_unit_zero (S := S1x128) off2]
  isplitl [H8]
  · iexists _; isplitr
    swap; · iexact H8
    ipureintro
    sl_unfold_run_names
    rw [View.read_writes_eq_canon _ _ _ (coverRow _ _), View.canon_cons_unit_zero off2]
    simp only [hrow, View.readCov_unit_zero (S := S1x128) _ off2, View.readAt_eq_ld, View.ld_unit_zero (S := S10000x128) off2, View.ld_unit_zero (S := S10000x1) off2, View.ld_unit_zero (S := S128x128) off2, View.ld_unit_zero (S := S1x128) off2]
  isplitl [S0]
  · iexists _; isplitr
    swap; · iexact S0
    ipureintro
    sl_unfold_run_names
    rw [View.read_writes_eq_canon _ _ _ (coverRow _ _), View.canon_cons_unit_zero off2]
    simp only [hrow, View.readCov_unit_zero (S := S1x128) _ off2, View.readAt_eq_ld, View.ld_unit_zero (S := S10000x128) off2, View.ld_unit_zero (S := S10000x1) off2, View.ld_unit_zero (S := S128x128) off2, View.ld_unit_zero (S := S1x128) off2]
  iexists _; isplitr
  swap; · iexact S1
  ipureintro
  sl_unfold_run_names
  rw [View.read_writes_eq_canon _ _ _ (coverRow _ _), View.canon_cons_unit_zero off2]
  simp only [hrow, View.readCov_unit_zero (S := S1x128) _ off2, View.readAt_eq_ld, View.ld_unit_zero (S := S10000x128) off2, View.ld_unit_zero (S := S10000x1) off2, View.ld_unit_zero (S := S128x128) off2, View.ld_unit_zero (S := S1x128) off2]

section
variable (V : (c : Dev nD) → (b : Ref sig .tc) → Buf (Elt F) ((c : Thread nD τ).loc b))

/-- The block of window `w` at grid point `t`, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds the window's block at every point: fetched there, or not fetched
    because the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-- The normalised rows of the block of point `t`. -/
def hAt (c : Dev nD) (t : Fin cfg0.N) : Vec F S10000x128 .f32 := hrow (blk0 V c 0 t) (blk0 V c 1 t) (blk0 V c 2 t) (blk0 V c 3 t) (blk0 V c 4 t) (blk0 V c 5 t)

/-- The running column sums of the normalised rows after the points `0 … n`, as the body computes them: the sum of
    block `0` added to the zero row, then each later block's sum added to what the point before left. -/
def sumAt (c : Dev nD) : (n : ℕ) → n < cfg0.N → Vec F S1x128 .f32
  | 0, hn => k0_pay1 (hAt V c ⟨0, hn⟩) k0_pay3
  | n + 1, hn => k0_pay1 (hAt V c ⟨n + 1, hn⟩) (sumAt c n (Nat.lt_of_succ_lt hn))
/-- The same for the squares. -/
def sqAt (c : Dev nD) : (n : ℕ) → n < cfg0.N → Vec F S1x128 .f32
  | 0, hn => k0_pay2 (hAt V c ⟨0, hn⟩) k0_pay4
  | n + 1, hn => k0_pay2 (hAt V c ⟨n + 1, hn⟩) (sqAt c n (Nat.lt_of_succ_lt hn))

theorem sumAt_pos (c : Dev nD) (t : Fin cfg0.N) (ht : t.val ≠ 0) :
    sumAt V c t.val t.isLt = k0_pay1 (hAt V c t) (sumAt V c (t.val - 1) (Nat.lt_of_le_of_lt (Nat.sub_le _ _) t.isLt)) := by
  obtain ⟨n, hn⟩ := t
  cases n with
  | zero => exact absurd rfl ht
  | succ n => rfl
theorem sqAt_pos (c : Dev nD) (t : Fin cfg0.N) (ht : t.val ≠ 0) :
    sqAt V c t.val t.isLt = k0_pay2 (hAt V c t) (sqAt V c (t.val - 1) (Nat.lt_of_le_of_lt (Nat.sub_le _ _) t.isLt)) := by
  obtain ⟨n, hn⟩ := t
  cases n with
  | zero => exact absurd rfl ht
  | succ n => rfl
theorem sumAt_zero (c : Dev nD) (t : Fin cfg0.N) (ht : t.val = 0) :
    sumAt V c t.val t.isLt = k0_pay1 (hAt V c t) k0_pay3 := by
  obtain ⟨n, hn⟩ := t
  cases n with
  | zero => rfl
  | succ n => exact absurd ht (Nat.succ_ne_zero n)
theorem sqAt_zero (c : Dev nD) (t : Fin cfg0.N) (ht : t.val = 0) :
    sqAt V c t.val t.isLt = k0_pay2 (hAt V c t) k0_pay4 := by
  obtain ⟨n, hn⟩ := t
  cases n with
  | zero => rfl
  | succ n => exact absurd ht (Nat.succ_ne_zero n)

/-- The two scratch rows as memrefs. -/
abbrev scr0 : Memref sig .tc .vmem S1x128 .f32 := Memref.whole cc0_scratch0
abbrev scr1 : Memref sig .tc .vmem S1x128 .f32 := Memref.whole cc0_scratch1

/-- The scoped buffers of the core that are neither a staging buffer of this region nor one of its two scratch
    rows, each at some contents: carried through the region unopened. -/
abbrev others (c : Dev nD) : sProp 𝕄 :=
  Pipeline.scopedRestBut (Ix := Unit) (Name := ℕ) (U := UR sig nD τ) (Lvl := ℕ) (Val := Elt F) spec0 c [cc0_scratch0, cc0_scratch1]

/-- What the launch hands the region, opened at the two scratch rows. -/
theorem PhiA0_open (c : Dev nD) :
    (Pipeline.ΦA spec0 c : sProp 𝕄)
      = iprop((((∃ d, owns (c : Thread nD τ) scr0 fullShare d) ∗ (∃ d, owns (c : Thread nD τ) scr1 fullShare d)) ∗ others c) ∗ (∃ r, prngReg c r)) := by
  unfold Pipeline.ΦA
  rw [Pipeline.scopedRest_split_of_list spec0 c [cc0_scratch0, cc0_scratch1] (by decide) (by decide)]
  simp only [scr0, scr1, owns_whole]; try rfl

/-- The region's invariant before position `n`: before the first point what the launch hands it; afterwards the two
    scratch rows at the running sums the point before left, the other scoped buffers and the generator register. -/
def PhiS (c : Dev nD) : (n : ℕ) → n ≤ cfg0.N → sProp 𝕄
  | 0, _ => Pipeline.ΦA spec0 c
  | n + 1, hn => iprop(owns (c : Thread nD τ) scr0 fullShare (sumAt V c n hn) ∗ owns (c : Thread nD τ) scr1 fullShare (sqAt V c n hn)
      ∗ others c ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(owns (c : Thread nD τ) scr0 fullShare (sumAt V c n hn) ∗ owns (c : Thread nD τ) scr1 fullShare (sqAt V c n hn)
      ∗ others c ∗ (∃ r, prngReg c r)) := rfl
theorem PhiS_pos (c : Dev nD) (n : ℕ) (h : n ≤ cfg0.N) (hz : n ≠ 0) :
    PhiS V c n h = iprop(owns (c : Thread nD τ) scr0 fullShare (sumAt V c (n - 1) (by omega)) ∗ owns (c : Thread nD τ) scr1 fullShare (sqAt V c (n - 1) (by omega))
      ∗ others c ∗ (∃ r, prngReg c r)) := by
  cases n with
  | zero => exact absurd rfl hz
  | succ n => rfl

/-- The region's proof data: the arrays as the region finds them; after the body every input buffer at its block, the
    row output at the block's normalised rows, the two sum outputs at the running sums; the invariant `PhiS`; nothing
    owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => hAt V c t
    | ⟨7, _⟩ => sumAt V c t.val t.isLt
    | ⟨8, _⟩ => sqAt V c t.val t.isLt
  Φ t := PhiS V c t.val (Nat.le_of_lt_succ t.isLt)
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) : (dat0 V c).after 3 t = blk0 V c 3 t := by dsimp only [dat0]
theorem dat0_after4 (c : Dev nD) (t : Fin cfg0.N) : (dat0 V c).after 4 t = blk0 V c 4 t := by dsimp only [dat0]
theorem dat0_after5 (c : Dev nD) (t : Fin cfg0.N) : (dat0 V c).after 5 t = blk0 V c 5 t := by dsimp only [dat0]
theorem dat0_after6 (c : Dev nD) (t : Fin cfg0.N) : (dat0 V c).after 6 t = hAt V c t := by dsimp only [dat0]
theorem dat0_after7 (c : Dev nD) (t : Fin cfg0.N) : (dat0 V c).after 7 t = sumAt V c t.val t.isLt := by dsimp only [dat0]
theorem dat0_after8 (c : Dev nD) (t : Fin cfg0.N) : (dat0 V c).after 8 t = sqAt V c t.val t.isLt := by dsimp only [dat0]
theorem dat0_before0 (c : Dev nD) (t : Fin cfg0.N) (d) : (dat0 V c).before 0 t d = blk0 V c 0 t :=
  before0_0_of V (dat0 V c) (dat0_A V c 0) (dat0_after0 V c) t d
theorem dat0_before1 (c : Dev nD) (t : Fin cfg0.N) (d) : (dat0 V c).before 1 t d = blk0 V c 1 t :=
  before0_1_of V (dat0 V c) (dat0_A V c 1) (dat0_after1 V c) t d
theorem dat0_before2 (c : Dev nD) (t : Fin cfg0.N) (d) : (dat0 V c).before 2 t d = blk0 V c 2 t :=
  before0_2_of V (dat0 V c) (dat0_A V c 2) (dat0_after2 V c) t d
theorem dat0_before3 (c : Dev nD) (t : Fin cfg0.N) (d) : (dat0 V c).before 3 t d = blk0 V c 3 t :=
  before0_3_of V (dat0 V c) (dat0_A V c 3) (dat0_after3 V c) t d
theorem dat0_before4 (c : Dev nD) (t : Fin cfg0.N) (d) : (dat0 V c).before 4 t d = blk0 V c 4 t :=
  before0_4_of V (dat0 V c) (dat0_A V c 4) (dat0_after4 V c) t d
theorem dat0_before5 (c : Dev nD) (t : Fin cfg0.N) (d) : (dat0 V c).before 5 t d = blk0 V c 5 t :=
  before0_5_of V (dat0 V c) (dat0_A V c 5) (dat0_after5 V c) t d

theorem dat0_Phi_castSucc (c : Dev nD) (t : Fin cfg0.N) :
    (dat0 V c).Φ t.castSucc = PhiS V c t.val (Nat.le_of_lt t.isLt) := by
  dsimp only [dat0]; simp only [Fin.coe_castSucc]

/-- What the body is called with at point `t`, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ (dat0 V c).leavesExact 7 t
    ∗ (dat0 V c).leavesExact 8 t)

set_option maxHeartbeats 4000000 in
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2, dat0_before3, dat0_before4, dat0_before5]
  rw [show (dat0 V c).owesAt () t.succ = (dat0 V c).owesAt () t.castSucc from rfl,
    show (dat0 V c).Φ t.succ = PhiS V c (t.val + 1) t.isLt from rfl, PhiS_succ,
    dat0_after0, dat0_after1, dat0_after2, dat0_after3, dat0_after4, dat0_after5, dat0_after6, dat0_Phi_castSucc]
  have hN : t.val < 10 := lt_of_lt_of_eq t.isLt (show cfg0.N = 10 from N_0)
  by_cases h0 : t.val = 0
  · -- the first point
    have hl : ¬ atLast (grid0.coords t) := fun h => by have := (atLast_iff t).mp h; omega
    rw [Dat.leavesExact_idle (dat0 V c) 7 t (idle7 t hl) (noFlush7 t hl), Dat.leavesExact_idle (dat0 V c) 8 t (idle8 t hl) (noFlush8 t hl),
      PhiS_zero V c _ _ h0, PhiA0_open, sumAt_zero V c t h0, sqAt_zero V c t h0]
    unfold hAt
    iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, H7, H8⟩
    iapply (body0_first c Set.univ (grid0.coords t) _ _ _ _ _ _ _ _ _ _ _ _ _ _ _ _ _ _ _ _ _ _ ((atFirst_iff t).mpr h0) hl (blk0 V c 0 t) (blk0 V c 1 t) (blk0 V c 2 t) (blk0 V c 3 t) (blk0 V c 4 t) (blk0 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hoth Hg]
    · isplitl [HS0]; · iexact HS0
      isplitl [HS1]; · iexact HS1
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hf : ¬ atFirst (grid0.coords t) := fun h => h0 ((atFirst_iff t).mp h)
    rw [PhiS_pos V c _ _ h0, sumAt_pos V c t h0, sqAt_pos V c t h0]
    unfold hAt
    by_cases h9 : t.val = 9
    · -- the last point
      have hl : atLast (grid0.coords t) := (atLast_iff t).mpr h9
      rw [show (dat0 V c).leavesExact 7 t = owns (c : Thread nD τ) (st0_7 t) fullShare ((dat0 V c).after 7 t) from by
          unfold Dat.leavesExact; rw [live7 t hl],
        show (dat0 V c).leavesExact 8 t = owns (c : Thread nD τ) (st0_8 t) fullShare ((dat0 V c).after 8 t) from by
          unfold Dat.leavesExact; rw [live8 t hl],
        dat0_after7, dat0_after8, sumAt_pos V c t h0, sqAt_pos V c t h0]
      unfold hAt
      iintro ⟨⟨HS0, HS1, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body0_last c Set.univ (grid0.coords t) _ _ _ _ _ _ _ _ _ _ _ _ _ _ _ _ _ _ _ _ _ _ hf hl (blk0 V c 0 t) (blk0 V c 1 t) (blk0 V c 2 t) (blk0 V c 3 t) (blk0 V c 4 t) (blk0 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hoth Hg]
      · isplitl [HS0]; · iexact HS0
        isplitl [HS1]; · iexact HS1
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · -- a point in between
      have hl : ¬ atLast (grid0.coords t) := fun h => h9 ((atLast_iff t).mp h)
      rw [Dat.leavesExact_idle (dat0 V c) 7 t (idle7 t hl) (noFlush7 t hl), Dat.leavesExact_idle (dat0 V c) 8 t (idle8 t hl) (noFlush8 t hl)]
      iintro ⟨⟨HS0, HS1, Hoth, Hg⟩, Ho, ⟨%d0, H0⟩, ⟨%d1, H1⟩, ⟨%d2, H2⟩, ⟨%d3, H3⟩, ⟨%d4, H4⟩, ⟨%d5, H5⟩, ⟨%d6, H6⟩, H7, H8⟩
      iapply (body0_mid c Set.univ (grid0.coords t) _ _ _ _ _ _ _ _ _ _ _ _ _ _ _ _ _ _ _ _ _ _ hf hl (blk0 V c 0 t) (blk0 V c 1 t) (blk0 V c 2 t) (blk0 V c 3 t) (blk0 V c 4 t) (blk0 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hoth Hg]
      · isplitl [HS0]; · iexact HS0
        isplitl [HS1]; · iexact HS1
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

theorem obligation0 (c : Dev nD) : BodyObligation (dat0 (F := F) V c) (defs₀ (F := F)) Variants.none () Set.univ := fun t => by
  rw [bigSep_W0, bigSep_W0]
  exact sound0 V c t

/-- What the launch hands the region is the invariant before the first point. -/
theorem dat0_hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives back what the launch handed over: the two running sums are forgotten. -/
theorem dat0_hout (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 10 := N_0; omega), PhiA0_open]
  iintro ⟨HS0, HS1, Hoth, Hg⟩
  isplitl [HS0 HS1 Hoth]
  · isplitl [HS0 HS1]
    · isplitl [HS0]
      · iexists _; iexact HS0
      iexists _; iexact HS1
    iexact Hoth
  iexact Hg

end

end Cert.KernelIdeal.Hand

end
-- ==== Proof.Region1.lean ====
import proofs.«162611_j39075612459051_2_alg».proof.Proof.LaunchKernelIdeal
import proofs.«162611_j39075612459051_2_alg».proof.Proof.Gen.KernelIdeal.Skeleton
import proofs.«162611_j39075612459051_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region: batch normalisation with the given mean and variance rows, the rectifier, and the
two projections of the activations, a block of 10000 rows at a time.

Everything is stated at a parameter `V`: what the unscoped buffers hold when the region is entered. -/

section
variable (V : (c : Dev nD) → (b : Ref sig .tc) → Buf (Elt F) ((c : Thread nD τ).loc b))

/-- The block of window `w` at grid point `t`, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds the window's block at every point: fetched there, or not fetched
    because the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

/-! The body reads and writes whole staging buffers. -/
abbrev q1_128 : Rect S10000x128 := Rect.unit (s := S10000x128) ![0, 0] S10000x128.size inb_S10000x128_S10000x128_0_0
abbrev q1_r : Rect S1x128 := Rect.unit (s := S1x128) ![0, 0] S1x128.size inb_S1x128_S1x128_0_0
abbrev q1_w : Rect S128x47 := Rect.unit (s := S128x47) ![0, 0] S128x47.size inb_S128x47_S128x47_0_0
abbrev q1_47 : Rect S10000x47 := Rect.unit (s := S10000x47) ![0, 0] S10000x47.size inb_S10000x47_S10000x47_0_0

/-- What the body leaves in the first output block: the activations of the block against the neighbour weights. -/
def res1z (x0 : Vec F S10000x128 .f32) (x1 : Vec F S1x128 .f32) (x2 : Vec F S1x128 .f32) (x3 : Vec F S1x128 .f32) (x4 : Vec F S1x128 .f32) (x5 : Vec F S128x47 .f32) (x6 : Vec F S128x47 .f32) : Vec F S10000x47 .f32 :=
  View.canon [⟨q1_47, k1_pay2 (View.ld x0 q1_128) (View.ld x3 q1_r) (View.ld x1 q1_r) (View.ld x2 q1_r) (View.ld x4 q1_r) (View.ld x5 q1_w)⟩]

/-- The one store covers the block. -/
theorem res1z_cover (p0 : Vec F S10000x47 .f32) (y : S10000x47.Idx) :
    ∃ pc ∈ ([⟨q1_47, p0⟩] : List (View.Piece (Elt F) S10000x47 .f32)), y ∈ pc.1.set :=
  View.cover_of_tiled [⟨q1_47, p0⟩] S10000x47.size (by rfl) y

/-- What the body leaves in the second output block: the same activations against the self weights. -/
def res1r (x0 : Vec F S10000x128 .f32) (x1 : Vec F S1x128 .f32) (x2 : Vec F S1x128 .f32) (x3 : Vec F S1x128 .f32) (x4 : Vec F S1x128 .f32) (x5 : Vec F S128x47 .f32) (x6 : Vec F S128x47 .f32) : Vec F S10000x47 .f32 :=
  View.canon [⟨q1_47, k1_pay3 (View.ld x0 q1_128) (View.ld x3 q1_r) (View.ld x1 q1_r) (View.ld x2 q1_r) (View.ld x4 q1_r) (View.ld x6 q1_w)⟩]

/-- The one store covers the block. -/
theorem res1r_cover (p0 : Vec F S10000x47 .f32) (y : S10000x47.Idx) :
    ∃ pc ∈ ([⟨q1_47, p0⟩] : List (View.Piece (Elt F) S10000x47 .f32)), y ∈ pc.1.set :=
  View.cover_of_tiled [⟨q1_47, p0⟩] S10000x47.size (by rfl) y

set_option maxHeartbeats 4000000 in
/-- The body's triple: from the input blocks held at the given contents and the output buffers at anything, it
    runs to the inputs unchanged and each output at its stored value. -/
theorem body1 (c : Dev nD) (E : Set ℕ) (i : grid1.Coords)
    (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x47 .f32) (harg6 : arg6.IsWhole) (arg7 : Memref sig .tc .vmem S128x47 .f32) (harg7 : arg7.IsWhole) (arg8 : Memref sig .tc .vmem S10000x47 .f32) (harg8 : arg8.IsWhole) (arg9 : Memref sig .tc .vmem S10000x47 .f32) (harg9 : arg9.IsWhole)
    (x0 : Vec F S10000x128 .f32) (x1 : Vec F S1x128 .f32) (x2 : Vec F S1x128 .f32) (x3 : Vec F S1x128 .f32) (x4 : Vec F S1x128 .f32) (x5 : Vec F S128x47 .f32) (x6 : Vec F S128x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (res1z x0 x1 x2 x3 x4 x5 x6) ∗ owns (c : Thread nD τ) arg9 fullShare (res1r x0 x1 x2 x3 x4 x5 x6)) -∗ K ⟨⟩))
      ⊢ wp frame (wpE (defs₀ (F := F)) Variants.none c none) E (cc1__bn_relu_proj_kernel i arg1 harg1 arg2 harg2 arg3 harg3 arg4 harg4 arg5 harg5 arg6 harg6 arg7 harg7 arg8 harg8 arg9 harg9) K := by
  simp only [cc1__bn_relu_proj_kernel_eq_skeleton]; unfold cc1__bn_relu_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (res1z_cover _)
  iexists _; isplitr
  swap; · iexact H8
  ipureintro
  exact View.read_writes_eq_canon _ _ _ (res1r_cover _)

/-- The region's proof data: the arrays as the region finds them; after the body every input buffer at its
    block and every output buffer at its stored value of the blocks; the scoped rest and the generator register
    untouched; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => res1z (blk1 V c 0 t) (blk1 V c 1 t) (blk1 V c 2 t) (blk1 V c 3 t) (blk1 V c 4 t) (blk1 V c 5 t) (blk1 V c 6 t)
    | ⟨8, _⟩ => res1r (blk1 V c 0 t) (blk1 V c 1 t) (blk1 V c 2 t) (blk1 V c 3 t) (blk1 V c 4 t) (blk1 V c 5 t) (blk1 V c 6 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = blk1 V c 5 t := by dsimp only [dat1]
theorem dat1_after6 (c : Dev nD) (t : Fin cfg1.N) : (dat1 V c).after 6 t = blk1 V c 6 t := by dsimp only [dat1]
theorem dat1_after7 (c : Dev nD) (t : Fin cfg1.N) :
    (dat1 V c).after 7 t = res1z (blk1 V c 0 t) (blk1 V c 1 t) (blk1 V c 2 t) (blk1 V c 3 t) (blk1 V c 4 t) (blk1 V c 5 t) (blk1 V c 6 t) := by dsimp only [dat1]
theorem dat1_after8 (c : Dev nD) (t : Fin cfg1.N) :
    (dat1 V c).after 8 t = res1r (blk1 V c 0 t) (blk1 V c 1 t) (blk1 V c 2 t) (blk1 V c 3 t) (blk1 V c 4 t) (blk1 V c 5 t) (blk1 V c 6 t) := by dsimp only [dat1]

theorem dat1_before0 (c : Dev nD) (t : Fin cfg1.N) (d) : (dat1 V c).before 0 t d = blk1 V c 0 t :=
  before1_0_of V (dat1 V c) (dat1_A V c 0) (dat1_after0 V c) t d
theorem dat1_before1 (c : Dev nD) (t : Fin cfg1.N) (d) : (dat1 V c).before 1 t d = blk1 V c 1 t :=
  before1_1_of V (dat1 V c) (dat1_A V c 1) (dat1_after1 V c) t d
theorem dat1_before2 (c : Dev nD) (t : Fin cfg1.N) (d) : (dat1 V c).before 2 t d = blk1 V c 2 t :=
  before1_2_of V (dat1 V c) (dat1_A V c 2) (dat1_after2 V c) t d
theorem dat1_before3 (c : Dev nD) (t : Fin cfg1.N) (d) : (dat1 V c).before 3 t d = blk1 V c 3 t :=
  before1_3_of V (dat1 V c) (dat1_A V c 3) (dat1_after3 V c) t d
theorem dat1_before4 (c : Dev nD) (t : Fin cfg1.N) (d) : (dat1 V c).before 4 t d = blk1 V c 4 t :=
  before1_4_of V (dat1 V c) (dat1_A V c 4) (dat1_after4 V c) t d
theorem dat1_before5 (c : Dev nD) (t : Fin cfg1.N) (d) : (dat1 V c).before 5 t d = blk1 V c 5 t :=
  before1_5_of V (dat1 V c) (dat1_A V c 5) (dat1_after5 V c) t d
theorem dat1_before6 (c : Dev nD) (t : Fin cfg1.N) (d) : (dat1 V c).before 6 t d = blk1 V c 6 t :=
  before1_6_of V (dat1 V c) (dat1_A V c 6) (dat1_after6 V c) t d

/-- What the body is called with at point `t`, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4, dat1_before5, dat1_before6]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6, dat1_after7, dat1_after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body1 c Set.univ _ _ _ _ _ _ _ _ _ _ _ _ _ _ _ _ _ _ _ (blk1 V c 0 t) (blk1 V c 1 t) (blk1 V c 2 t) (blk1 V c 3 t) (blk1 V c 4 t) (blk1 V c 5 t) (blk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem obligation1 (c : Dev nD) : BodyObligation (dat1 (F := F) V c) (defs₀ (F := F)) Variants.none () Set.univ := fun t => by
  rw [bigSep_W1, bigSep_W1]
  exact sound1 V c t

end

end Cert.KernelIdeal.Hand

end
-- ==== Proof.Region2.lean ====
import proofs.«162611_j39075612459051_2_alg».proof.Proof.LaunchKernelIdeal
import proofs.«162611_j39075612459051_2_alg».proof.Proof.Gen.KernelIdeal.Skeleton
import proofs.«162611_j39075612459051_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third kernel region: the degree mean of the aggregated projections, the bias, the self term and the
row normalisation, a block of 10000 rows at a time.

Everything is stated at a parameter `V`: what the unscoped buffers hold when the region is entered. -/

section
variable (V : (c : Dev nD) → (b : Ref sig .tc) → Buf (Elt F) ((c : Thread nD τ).loc b))

/-- The block of window `w` at grid point `t`, read off the window's array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds the window's block at every point: fetched there, or not fetched
    because the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-! The body reads and writes whole staging buffers. -/
abbrev q2_47 : Rect S10000x47 := Rect.unit (s := S10000x47) ![0, 0] S10000x47.size inb_S10000x47_S10000x47_0_0
abbrev q2_1 : Rect S10000x1 := Rect.unit (s := S10000x1) ![0, 0] S10000x1.size inb_S10000x1_S10000x1_0_0
abbrev q2_b : Rect S1x47 := Rect.unit (s := S1x47) ![0, 0] S1x47.size inb_S1x47_S1x47_0_0

/-- What the body leaves in the output block: its one store, the row-normalised combination of the four input blocks. -/
def res2 (x0 : Vec F S10000x47 .f32) (x1 : Vec F S10000x1 .f32) (x2 : Vec F S1x47 .f32) (x3 : Vec F S10000x47 .f32) : Vec F S10000x47 .f32 :=
  View.canon [⟨q2_47, k2_pay1 (View.ld x0 q2_47) (View.ld x1 q2_1) (View.ld x2 q2_b) (View.ld x3 q2_47)⟩]

/-- The one store covers the block. -/
theorem res2_cover (p0 : Vec F S10000x47 .f32) (y : S10000x47.Idx) :
    ∃ pc ∈ ([⟨q2_47, p0⟩] : List (View.Piece (Elt F) S10000x47 .f32)), y ∈ pc.1.set :=
  View.cover_of_tiled [⟨q2_47, p0⟩] S10000x47.size (by rfl) y

set_option maxHeartbeats 4000000 in
/-- The body's triple: from the input blocks held at the given contents and the output buffers at anything, it
    runs to the inputs unchanged and each output at its stored value. -/
theorem body2 (c : Dev nD) (E : Set ℕ) (i : grid2.Coords)
    (arg1 : Memref sig .tc .vmem S10000x47 .f32) (harg1 : arg1.IsWhole) (arg2 : Memref sig .tc .vmem S10000x1 .f32) (harg2 : arg2.IsWhole) (arg3 : Memref sig .tc .vmem S1x47 .f32) (harg3 : arg3.IsWhole) (arg4 : Memref sig .tc .vmem S10000x47 .f32) (harg4 : arg4.IsWhole) (arg5 : Memref sig .tc .vmem S10000x47 .f32) (harg5 : arg5.IsWhole)
    (x0 : Vec F S10000x47 .f32) (x1 : Vec F S10000x1 .f32) (x2 : Vec F S1x47 .f32) (x3 : Vec F S10000x47 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (res2 x0 x1 x2 x3)) -∗ K ⟨⟩))
      ⊢ wp frame (wpE (defs₀ (F := F)) Variants.none c none) E (cc2__combine_kernel i arg1 harg1 arg2 harg2 arg3 harg3 arg4 harg4 arg5 harg5) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (res2_cover _)

/-- The region's proof data: the arrays as the region finds them; after the body every input buffer at its
    block and every output buffer at its stored value of the blocks; the scoped rest and the generator register
    untouched; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => res2 (blk2 V c 0 t) (blk2 V c 1 t) (blk2 V c 2 t) (blk2 V c 3 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) : (dat2 V c).after 3 t = blk2 V c 3 t := by dsimp only [dat2]
theorem dat2_after4 (c : Dev nD) (t : Fin cfg2.N) :
    (dat2 V c).after 4 t = res2 (blk2 V c 0 t) (blk2 V c 1 t) (blk2 V c 2 t) (blk2 V c 3 t) := by dsimp only [dat2]

theorem dat2_before0 (c : Dev nD) (t : Fin cfg2.N) (d) : (dat2 V c).before 0 t d = blk2 V c 0 t :=
  before2_0_of V (dat2 V c) (dat2_A V c 0) (dat2_after0 V c) t d
theorem dat2_before1 (c : Dev nD) (t : Fin cfg2.N) (d) : (dat2 V c).before 1 t d = blk2 V c 1 t :=
  before2_1_of V (dat2 V c) (dat2_A V c 1) (dat2_after1 V c) t d
theorem dat2_before2 (c : Dev nD) (t : Fin cfg2.N) (d) : (dat2 V c).before 2 t d = blk2 V c 2 t :=
  before2_2_of V (dat2 V c) (dat2_A V c 2) (dat2_after2 V c) t d
theorem dat2_before3 (c : Dev nD) (t : Fin cfg2.N) (d) : (dat2 V c).before 3 t d = blk2 V c 3 t :=
  before2_3_of V (dat2 V c) (dat2_A V c 3) (dat2_after3 V c) t d

/-- What the body is called with at point `t`, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound2 (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2, dat2_before3]
  rw [show (dat2 V c).Φ t.succ = (dat2 V c).Φ t.castSucc from rfl,
    show (dat2 V c).owesAt () t.succ = (dat2 V c).owesAt () t.castSucc from rfl,
    dat2_after0, dat2_after1, dat2_after2, dat2_after3, dat2_after4]
  iintro ⟨HΦ, Ho, ⟨%d0, H0⟩, ⟨%d1, H1⟩, ⟨%d2, H2⟩, ⟨%d3, H3⟩, ⟨%d4, H4⟩⟩
  iapply (body2 c Set.univ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem obligation2 (c : Dev nD) : BodyObligation (dat2 (F := F) V c) (defs₀ (F := F)) Variants.none () Set.univ := fun t => by
  rw [bigSep_W2, bigSep_W2]
  exact sound2 V c t

end

end Cert.KernelIdeal.Hand

end
-- ==== Proof.Run.lean ====
import proofs.«162611_j39075612459051_2_alg».proof.Proof.LaunchKernelIdeal
import proofs.«162611_j39075612459051_2_alg».proof.Proof.Gen.KernelIdeal.Skeleton
import proofs.«162611_j39075612459051_2_alg».proof.Proof.Gen.KernelIdeal.Points
import proofs.«162611_j39075612459051_2_alg».proof.Proof.Region0
import proofs.«162611_j39075612459051_2_alg».proof.Proof.Region1
import proofs.«162611_j39075612459051_2_alg».proof.Proof.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run: host operations, the first kernel region, host operations, the second, host operations,
the third.

The contents of the core's unscoped buffers are followed through the six items: a stretch of host operations
applies its operations; a kernel region replaces its output arrays by what its write-backs leave. At the end every
unscoped buffer is read against the final memory. -/

/-- No operation of the first stretch of host operations allocates a buffer. -/
theorem hostOps0_fresh : (hostOps0 : List (HloOp τ sig (Elt F))).Forall fun op => op.fresh = ∅ := by
  simp only [List.Forall]; repeat' constructor
/-- The references it writes. -/
abbrev hostOps0_W : List (Ref sig .tc) := [main_v0, main_v1, main_v2, main_v3, main_cst, main_v4, main_cst_0, main_v5, main_v6, main_v7, main_v8, main_c, main_v9, main_v10, main_c_1, main_v11, main_v12, main_v13, main_v14, main_v15, main_cst_2, main_v16, main_v17, main_v18, main_v19, main_v20, main_v21]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of the second stretch of host operations allocates a buffer. -/
theorem hostOps1_fresh : (hostOps1 : List (HloOp τ sig (Elt F))).Forall fun op => op.fresh = ∅ := by
  simp only [List.Forall]; repeat' constructor
/-- The references it writes. -/
abbrev hostOps1_W : List (Ref sig .tc) := [main_v23, main_cst_3, main_v24, main_v25, main_v26, main_cst_4, main_v27, main_v28, main_v29, main_v30, main_cst_5, main_v31, main_v32, main_v33, main_v34, main_v35, main_v36, main_v37, main_v38]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of the third stretch of host operations allocates a buffer. -/
theorem hostOps2_fresh : (hostOps2 : List (HloOp τ sig (Elt F))).Forall fun op => op.fresh = ∅ := by
  simp only [List.Forall]; repeat' constructor
/-- The references it writes. -/
abbrev hostOps2_W : List (Ref sig .tc) := [main_c_6, main_v40, main_v41, main_c_7, main_v42, main_v43, main_v44, main_v45, main_v46, main_cst_8, main_v47, main_v48, main_v49, main_v50]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

variable (m : (ℓ : Loc nD τ sig) → Buf (Elt F) ℓ) (ρ : Dev nD → PrngReg)

/-- The core's buffers at launch. -/
abbrev W0 : Dev nD → Valuation τ sig (Elt F) := fun c b => (s₀ m ρ).mem ((c : Dev nD), b)
/-- After the first stretch of host operations. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After kernel region 0: its windows' arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After kernel region 1: its windows' arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch of host operations. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- After kernel region 2: its windows' arrays at what the write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the core's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- Argument 0 ends as launched: no host operation writes it and no kernel region has it as an output. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 2).trans (((dat0 (V1 m ρ) c).arrAt_in 2 rfl _).trans (dat0_A (V1 m ρ) c 2))
    _ = W0 m ρ c (Proc.devRef .tc main_arg0) := StableHlo.after_of_writes_sub hostOps0 _ hostOps0_writes (by decide)
    _ = m ((c : Thread nD τ).loc main_arg0) := rfl

/-- Argument 1 ends as launched: no host operation writes it and no kernel region has it as an output. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- Argument 2 ends as launched: no host operation writes it and no kernel region has it as an output. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- Argument 3 ends as launched: no host operation writes it and no kernel region has it as an output. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- Argument 4 ends as launched: no host operation writes it and no kernel region has it as an output. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- Argument 5 ends as launched: no host operation writes it and no kernel region has it as an output. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- Argument 6 ends as launched: no host operation writes it and no kernel region has it as an output. -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- Argument 7 ends as launched: no host operation writes it and no kernel region has it as an output. -/
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-- Argument 8 ends as launched: no host operation writes it and no kernel region has it as an output. -/
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-- Argument 9 ends as launched: no host operation writes it and no kernel region has it as an output. -/
theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-! ## The proof data of the three regions and the thread state -/

abbrev adm' : (p : Fin 3) → (pcfgs (F := F) p).Adm := fun p => (cfgs p).toPCfg_adm
/-- Each region's proof data at the contents it is entered with. -/
def pdats : (p : Fin 3) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing
    nothing. -/
abbrev R (c : Dev nD) : sProp 𝕄 := iprop((∃ r, prngReg c r) ∗ ∃ W, owes (c : Thread nD τ) (0 : CellTallies nD τ sig Unit) W)
/-- A stretch of host operations as an item. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the `owes`. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- Kernel region 0 over the thread state: entered with every unscoped buffer at `W1`, left with every one at
    `W2`; its windows' arrays are split out of the unscoped buffers on entry and put back, at what the write-backs
    leave, on exit; the generator register goes into the region's invariant and comes back; nothing is owed; the
    kernel has no semaphore of its own. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (dat0_hin (V1 m ρ) c)
    unfold Pipeline.ΦA
    iintro ⟨Hp, -, Hr⟩
    isplitl [Hr]; · iexact Hr
    iexact Hp
  hout c := by
    rw [Pipeline.ownSems0_none]
    refine (dat0_hout (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered with every unscoped buffer at `W3`, left with every one at
    `W4`; its windows' arrays are split out of the unscoped buffers on entry and put back, at what the write-backs
    leave, on exit; the generator register goes into the region's invariant and comes back; nothing is owed; the
    kernel has no semaphore of its own. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 2 over the thread state: entered with every unscoped buffer at `W5`, left with every one at
    `W6`; its windows' arrays are split out of the unscoped buffers on entry and put back, at what the write-backs
    leave, on exit; the generator register goes into the region's invariant and comes back; nothing is owed; the
    kernel has no semaphore of its own. -/
def reg2 : Pipeline.RegionSeg (pcfgs (F := F)) adm' (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The six items in order. -/
abbrev segs : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every unscoped buffer of every core ends at the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c)⟩) (run_all m ρ)

/-- The result array ends at what the third region's write-backs leave. -/
theorem result : θ_run defs (onTc (τ := τ) (main (F := F))) ⟨m, fun _ => 0, ρ⟩ (fun r => ∀ c : Dev nD,
      r.2.mem ((c.tc : Thread nD τ).loc main_v51) = (dat2 (V5 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v51 (by decide))).trans (W6_arr m ρ c 4), (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c)⟩) (run_all m ρ)

end Cert.KernelIdeal.Hand

end
-- ==== Proof.KKeep.lean ====
import proofs.«162611_j39075612459051_2_alg».proof.Proof.LaunchKernelIdeal
import proofs.«162611_j39075612459051_2_alg».proof.Proof.Gen.KernelIdeal.Skeleton
import proofs.«162611_j39075612459051_2_alg».proof.Proof.Gen.KernelIdeal.Points
import proofs.«162611_j39075612459051_2_alg».proof.Proof.Run
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What each item of the run leaves in place

A stretch of host operations changes only the buffers its operations write; a kernel region changes only its output
arrays. So a buffer an item does not write reads, after the item, what it read before. -/

variable (m : (ℓ : Loc nD τ sig) → Buf (Elt F) ℓ) (ρ : Dev nD → PrngReg)

theorem keep1 (c : Dev nD) (b : Ref sig .tc) (h : b ∉ hostOps0_W) : W1 m ρ c (Proc.devRef .tc b) = W0 m ρ c (Proc.devRef .tc b) :=
  StableHlo.after_of_writes_sub hostOps0 _ hostOps0_writes h
theorem keep3 (c : Dev nD) (b : Ref sig .tc) (h : b ∉ hostOps1_W) : W3 m ρ c (Proc.devRef .tc b) = W2 m ρ c (Proc.devRef .tc b) :=
  StableHlo.after_of_writes_sub hostOps1 _ hostOps1_writes h
theorem keep5 (c : Dev nD) (b : Ref sig .tc) (h : b ∉ hostOps2_W) : W5 m ρ c (Proc.devRef .tc b) = W4 m ρ c (Proc.devRef .tc b) :=
  StableHlo.after_of_writes_sub hostOps2 _ hostOps2_writes h

/-- An argument array reads as launched at every boundary. -/
theorem W0_arg (c : Dev nD) (b : Ref sig .tc) : W0 m ρ c (Proc.devRef .tc b) = m ((c : Thread nD τ).loc b) := rfl
theorem W1_arg0 (c : Dev nD) : W1 m ρ c (Proc.devRef .tc main_arg0) = m ((c : Thread nD τ).loc main_arg0) :=
  keep1 m ρ c main_arg0 (by decide)
theorem W2_arg0 (c : Dev nD) : W2 m ρ c (Proc.devRef .tc main_arg0) = m ((c : Thread nD τ).loc main_arg0) :=
  ((W2_arr m ρ c 2).trans (((dat0 (V1 m ρ) c).arrAt_in 2 rfl _).trans (dat0_A (V1 m ρ) c 2))).trans (W1_arg0 m ρ c)
theorem W4_arg0 (c : Dev nD) : W4 m ρ c (Proc.devRef .tc main_arg0) = m ((c : Thread nD τ).loc main_arg0) :=
  (W4_of_ne m ρ c main_arg0 (by decide)).trans ((keep3 m ρ c main_arg0 (by decide)).trans (W2_arg0 m ρ c))
theorem W1_arg1 (c : Dev nD) : W1 m ρ c (Proc.devRef .tc main_arg1) = m ((c : Thread nD τ).loc main_arg1) :=
  keep1 m ρ c main_arg1 (by decide)
theorem W2_arg1 (c : Dev nD) : W2 m ρ c (Proc.devRef .tc main_arg1) = m ((c : Thread nD τ).loc main_arg1) :=
  (W2_of_ne m ρ c main_arg1 (by decide)).trans (W1_arg1 m ρ c)
theorem W4_arg1 (c : Dev nD) : W4 m ρ c (Proc.devRef .tc main_arg1) = m ((c : Thread nD τ).loc main_arg1) :=
  (W4_of_ne m ρ c main_arg1 (by decide)).trans ((keep3 m ρ c main_arg1 (by decide)).trans (W2_arg1 m ρ c))
theorem W1_arg2 (c : Dev nD) : W1 m ρ c (Proc.devRef .tc main_arg2) = m ((c : Thread nD τ).loc main_arg2) :=
  keep1 m ρ c main_arg2 (by decide)
theorem W2_arg2 (c : Dev nD) : W2 m ρ c (Proc.devRef .tc main_arg2) = m ((c : Thread nD τ).loc main_arg2) :=
  (W2_of_ne m ρ c main_arg2 (by decide)).trans (W1_arg2 m ρ c)
theorem W4_arg2 (c : Dev nD) : W4 m ρ c (Proc.devRef .tc main_arg2) = m ((c : Thread nD τ).loc main_arg2) :=
  (W4_of_ne m ρ c main_arg2 (by decide)).trans ((keep3 m ρ c main_arg2 (by decide)).trans (W2_arg2 m ρ c))
theorem W1_arg3 (c : Dev nD) : W1 m ρ c (Proc.devRef .tc main_arg3) = m ((c : Thread nD τ).loc main_arg3) :=
  keep1 m ρ c main_arg3 (by decide)
theorem W2_arg3 (c : Dev nD) : W2 m ρ c (Proc.devRef .tc main_arg3) = m ((c : Thread nD τ).loc main_arg3) :=
  (W2_of_ne m ρ c main_arg3 (by decide)).trans (W1_arg3 m ρ c)
theorem W4_arg3 (c : Dev nD) : W4 m ρ c (Proc.devRef .tc main_arg3) = m ((c : Thread nD τ).loc main_arg3) :=
  (W4_of_ne m ρ c main_arg3 (by decide)).trans ((keep3 m ρ c main_arg3 (by decide)).trans (W2_arg3 m ρ c))
theorem W1_arg4 (c : Dev nD) : W1 m ρ c (Proc.devRef .tc main_arg4) = m ((c : Thread nD τ).loc main_arg4) :=
  keep1 m ρ c main_arg4 (by decide)
theorem W2_arg4 (c : Dev nD) : W2 m ρ c (Proc.devRef .tc main_arg4) = m ((c : Thread nD τ).loc main_arg4) :=
  (W2_of_ne m ρ c main_arg4 (by decide)).trans (W1_arg4 m ρ c)
theorem W4_arg4 (c : Dev nD) : W4 m ρ c (Proc.devRef .tc main_arg4) = m ((c : Thread nD τ).loc main_arg4) :=
  (W4_of_ne m ρ c main_arg4 (by decide)).trans ((keep3 m ρ c main_arg4 (by decide)).trans (W2_arg4 m ρ c))
theorem W1_arg5 (c : Dev nD) : W1 m ρ c (Proc.devRef .tc main_arg5) = m ((c : Thread nD τ).loc main_arg5) :=
  keep1 m ρ c main_arg5 (by decide)
theorem W2_arg5 (c : Dev nD) : W2 m ρ c (Proc.devRef .tc main_arg5) = m ((c : Thread nD τ).loc main_arg5) :=
  (W2_of_ne m ρ c main_arg5 (by decide)).trans (W1_arg5 m ρ c)
theorem W4_arg5 (c : Dev nD) : W4 m ρ c (Proc.devRef .tc main_arg5) = m ((c : Thread nD τ).loc main_arg5) :=
  (W4_of_ne m ρ c main_arg5 (by decide)).trans ((keep3 m ρ c main_arg5 (by decide)).trans (W2_arg5 m ρ c))
theorem W1_arg6 (c : Dev nD) : W1 m ρ c (Proc.devRef .tc main_arg6) = m ((c : Thread nD τ).loc main_arg6) :=
  keep1 m ρ c main_arg6 (by decide)
theorem W2_arg6 (c : Dev nD) : W2 m ρ c (Proc.devRef .tc main_arg6) = m ((c : Thread nD τ).loc main_arg6) :=
  (W2_of_ne m ρ c main_arg6 (by decide)).trans (W1_arg6 m ρ c)
theorem W4_arg6 (c : Dev nD) : W4 m ρ c (Proc.devRef .tc main_arg6) = m ((c : Thread nD τ).loc main_arg6) :=
  (W4_of_ne m ρ c main_arg6 (by decide)).trans ((keep3 m ρ c main_arg6 (by decide)).trans (W2_arg6 m ρ c))
theorem W1_arg7 (c : Dev nD) : W1 m ρ c (Proc.devRef .tc main_arg7) = m ((c : Thread nD τ).loc main_arg7) :=
  keep1 m ρ c main_arg7 (by decide)
theorem W2_arg7 (c : Dev nD) : W2 m ρ c (Proc.devRef .tc main_arg7) = m ((c : Thread nD τ).loc main_arg7) :=
  (W2_of_ne m ρ c main_arg7 (by decide)).trans (W1_arg7 m ρ c)
theorem W4_arg7 (c : Dev nD) : W4 m ρ c (Proc.devRef .tc main_arg7) = m ((c : Thread nD τ).loc main_arg7) :=
  (W4_of_ne m ρ c main_arg7 (by decide)).trans ((keep3 m ρ c main_arg7 (by decide)).trans (W2_arg7 m ρ c))
theorem W1_arg8 (c : Dev nD) : W1 m ρ c (Proc.devRef .tc main_arg8) = m ((c : Thread nD τ).loc main_arg8) :=
  keep1 m ρ c main_arg8 (by decide)
theorem W2_arg8 (c : Dev nD) : W2 m ρ c (Proc.devRef .tc main_arg8) = m ((c : Thread nD τ).loc main_arg8) :=
  (W2_of_ne m ρ c main_arg8 (by decide)).trans (W1_arg8 m ρ c)
theorem W4_arg8 (c : Dev nD) : W4 m ρ c (Proc.devRef .tc main_arg8) = m ((c : Thread nD τ).loc main_arg8) :=
  (W4_of_ne m ρ c main_arg8 (by decide)).trans ((keep3 m ρ c main_arg8 (by decide)).trans (W2_arg8 m ρ c))
theorem W1_arg9 (c : Dev nD) : W1 m ρ c (Proc.devRef .tc main_arg9) = m ((c : Thread nD τ).loc main_arg9) :=
  keep1 m ρ c main_arg9 (by decide)
theorem W2_arg9 (c : Dev nD) : W2 m ρ c (Proc.devRef .tc main_arg9) = m ((c : Thread nD τ).loc main_arg9) :=
  (W2_of_ne m ρ c main_arg9 (by decide)).trans (W1_arg9 m ρ c)
theorem W4_arg9 (c : Dev nD) : W4 m ρ c (Proc.devRef .tc main_arg9) = m ((c : Thread nD τ).loc main_arg9) :=
  (W4_of_ne m ρ c main_arg9 (by decide)).trans ((keep3 m ρ c main_arg9 (by decide)).trans (W2_arg9 m ρ c))

/-- The two rows of edge words the first stretch computes are still there when the third stretch reads them. -/
theorem W4_v1 (c : Dev nD) : W4 m ρ c (Proc.devRef .tc main_v1) = W1 m ρ c (Proc.devRef .tc main_v1) :=
  (W4_of_ne m ρ c main_v1 (by decide)).trans ((keep3 m ρ c main_v1 (by decide)).trans (W2_of_ne m ρ c main_v1 (by decide)))
theorem W4_v3 (c : Dev nD) : W4 m ρ c (Proc.devRef .tc main_v3) = W1 m ρ c (Proc.devRef .tc main_v3) :=
  (W4_of_ne m ρ c main_v3 (by decide)).trans ((keep3 m ρ c main_v3 (by decide)).trans (W2_of_ne m ρ c main_v3 (by decide)))
/-- The degree column the first stretch computes is still there when the third region reads it. -/
theorem W5_v8 (c : Dev nD) : W5 m ρ c (Proc.devRef .tc main_v8) = W1 m ρ c (Proc.devRef .tc main_v8) :=
  (keep5 m ρ c main_v8 (by decide)).trans ((W4_of_ne m ρ c main_v8 (by decide)).trans ((keep3 m ρ c main_v8 (by decide)).trans
    ((W2_arr m ρ c 1).trans (((dat0 (V1 m ρ) c).arrAt_in 1 rfl _).trans (dat0_A (V1 m ρ) c 1)))))
/-- The first region's row output is still there when the second region reads it. -/
theorem W3_v22_0 (c : Dev nD) : W3 m ρ c (Proc.devRef .tc main_v22_0) = (dat0 (V1 m ρ) c).arrAt 6 cfg0.N :=
  (keep3 m ρ c main_v22_0 (by decide)).trans (W2_arr m ρ c 6)
theorem W2_v22_1 (c : Dev nD) : W2 m ρ c (Proc.devRef .tc main_v22_1) = (dat0 (V1 m ρ) c).arrAt 7 cfg0.N := W2_arr m ρ c 7
theorem W2_v22_2 (c : Dev nD) : W2 m ρ c (Proc.devRef .tc main_v22_2) = (dat0 (V1 m ρ) c).arrAt 8 cfg0.N := W2_arr m ρ c 8
/-- The second region's outputs when the third stretch and the third region read them. -/
theorem W4_v39_0 (c : Dev nD) : W4 m ρ c (Proc.devRef .tc main_v39_0) = (dat1 (V3 m ρ) c).arrAt 7 cfg1.N := W4_arr m ρ c 7
theorem W5_v39_1 (c : Dev nD) : W5 m ρ c (Proc.devRef .tc main_v39_1) = (dat1 (V3 m ρ) c).arrAt 8 cfg1.N :=
  (keep5 m ρ c main_v39_1 (by decide)).trans (W4_arr m ρ c 8)

end Cert.KernelIdeal.Hand

end
-- ==== Proof.KBlocks.lean ====
import proofs.«162611_j39075612459051_2_alg».proof.Proof.LaunchKernelIdeal
import proofs.«162611_j39075612459051_2_alg».proof.Proof.Gen.KernelIdeal.Skeleton
import proofs.«162611_j39075612459051_2_alg».proof.Proof.Gen.KernelIdeal.Points
import proofs.«162611_j39075612459051_2_alg».proof.Proof.Region0
import proofs.«162611_j39075612459051_2_alg».proof.Proof.Region1
import proofs.«162611_j39075612459051_2_alg».proof.Proof.Region2
import Idealize.ShloMosaic.Lib.ValueIdx
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The windows' blocks as rows of their arrays

Every window of the three regions either moves down its array 10000 rows at a time or is its whole array at every
point. An entry of a block is then an entry of the array: row `10000 t + p` for the first kind, row `p` for the second. -/

open Idealize.ShloMosaic.ValueIdx

/-- The printed index maps of region 0, decided over the grid: a row-blocked window sits at block row `t`, a whole-array
    window at block `(0, 0)`. -/
theorem idx0_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The printed index maps of region 1, decided over the grid: a row-blocked window sits at block row `t`, a whole-array
    window at block `(0, 0)`. -/
theorem idx1_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- The printed index maps of region 2, decided over the grid: a row-blocked window sits at block row `t`, a whole-array
    window at block `(0, 0)`. -/
theorem idx2_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

section
variable (V : (c : Dev nD) → (b : Ref sig .tc) → Buf (Elt F) ((c : Thread nD τ).loc b))

/-- Window 0 of region 0 at point `t` is rows `10000 t … 10000 t + 9999` of its array. -/
theorem blk0_0_apply (c : Dev nD) (t : Fin cfg0.N) (p : Fin 10000) (k : Fin 128) :
    blk0 V c 0 t (ix2 p k) = V c main_v18 (ix2 (⟨t.val * 10000 + p.val, by have := t.isLt; have : cfg0.N = 10 := N_0; have := p.isLt; omega⟩ : Fin 100000) k) := by
  unfold blk0
  show V c main_v18 (((cfg0.win 0).blk t).view.emb (ix2 p k)) = _
  congr 1; funext a; apply Fin.ext
  match a with
  | ⟨0, _⟩ => show win0_0.index t (0 : Fin 2) * 10000 + 1 * p.val = t.val * 10000 + p.val; rw [(idx0_facts t).1]; omega
  | ⟨1, _⟩ => show win0_0.index t (1 : Fin 2) * 128 + 1 * k.val = k.val; rw [(idx0_facts t).2.1]; omega

/-- Window 1 of region 0 at point `t` is rows `10000 t … 10000 t + 9999` of its array. -/
theorem blk0_1_apply (c : Dev nD) (t : Fin cfg0.N) (p : Fin 10000) (k : Fin 1) :
    blk0 V c 1 t (ix2 p k) = V c main_v8 (ix2 (⟨t.val * 10000 + p.val, by have := t.isLt; have : cfg0.N = 10 := N_0; have := p.isLt; omega⟩ : Fin 100000) k) := by
  unfold blk0
  show V c main_v8 (((cfg0.win 1).blk t).view.emb (ix2 p k)) = _
  congr 1; funext a; apply Fin.ext
  match a with
  | ⟨0, _⟩ => show win0_1.index t (0 : Fin 2) * 10000 + 1 * p.val = t.val * 10000 + p.val; rw [(idx0_facts t).2.2.1]; omega
  | ⟨1, _⟩ => show win0_1.index t (1 : Fin 2) * 1 + 1 * k.val = k.val; rw [(idx0_facts t).2.2.2.1]; omega

/-- Window 2 of region 0 at point `t` is rows `10000 t … 10000 t + 9999` of its array. -/
theorem blk0_2_apply (c : Dev nD) (t : Fin cfg0.N) (p : Fin 10000) (k : Fin 128) :
    blk0 V c 2 t (ix2 p k) = V c main_arg0 (ix2 (⟨t.val * 10000 + p.val, by have := t.isLt; have : cfg0.N = 10 := N_0; have := p.isLt; omega⟩ : Fin 100000) k) := by
  unfold blk0
  show V c main_arg0 (((cfg0.win 2).blk t).view.emb (ix2 p k)) = _
  congr 1; funext a; apply Fin.ext
  match a with
  | ⟨0, _⟩ => show win0_2.index t (0 : Fin 2) * 10000 + 1 * p.val = t.val * 10000 + p.val; rw [(idx0_facts t).2.2.2.2.1]; omega
  | ⟨1, _⟩ => show win0_2.index t (1 : Fin 2) * 128 + 1 * k.val = k.val; rw [(idx0_facts t).2.2.2.2.2.1]; omega

/-- Window 3 of region 0 is its whole array at every point. -/
theorem blk0_3_apply (c : Dev nD) (t : Fin cfg0.N) (p : Fin 128) (k : Fin 128) :
    blk0 V c 3 t (ix2 p k) = V c main_v19 (ix2 p k) := by
  unfold blk0
  show V c main_v19 (((cfg0.win 3).blk t).view.emb (ix2 p k)) = _
  congr 1; funext a; apply Fin.ext
  match a with
  | ⟨0, _⟩ => show win0_3.index t (0 : Fin 2) * 128 + 1 * p.val = p.val; rw [(idx0_facts t).2.2.2.2.2.2.1]; omega
  | ⟨1, _⟩ => show win0_3.index t (1 : Fin 2) * 128 + 1 * k.val = k.val; rw [(idx0_facts t).2.2.2.2.2.2.2.1]; omega

/-- Window 4 of region 0 is its whole array at every point. -/
theorem blk0_4_apply (c : Dev nD) (t : Fin cfg0.N) (p : Fin 1) (k : Fin 128) :
    blk0 V c 4 t (ix2 p k) = V c main_v21 (ix2 p k) := by
  unfold blk0
  show V c main_v21 (((cfg0.win 4).blk t).view.emb (ix2 p k)) = _
  congr 1; funext a; apply Fin.ext
  match a with
  | ⟨0, _⟩ => show win0_4.index t (0 : Fin 2) * 1 + 1 * p.val = p.val; rw [(idx0_facts t).2.2.2.2.2.2.2.2.1]; omega
  | ⟨1, _⟩ => show win0_4.index t (1 : Fin 2) * 128 + 1 * k.val = k.val; rw [(idx0_facts t).2.2.2.2.2.2.2.2.2.1]; omega

/-- Window 5 of region 0 is its whole array at every point. -/
theorem blk0_5_apply (c : Dev nD) (t : Fin cfg0.N) (p : Fin 128) (k : Fin 128) :
    blk0 V c 5 t (ix2 p k) = V c main_v20 (ix2 p k) := by
  unfold blk0
  show V c main_v20 (((cfg0.win 5).blk t).view.emb (ix2 p k)) = _
  congr 1; funext a; apply Fin.ext
  match a with
  | ⟨0, _⟩ => show win0_5.index t (0 : Fin 2) * 128 + 1 * p.val = p.val; rw [(idx0_facts t).2.2.2.2.2.2.2.2.2.2.1]; omega
  | ⟨1, _⟩ => show win0_5.index t (1 : Fin 2) * 128 + 1 * k.val = k.val; rw [(idx0_facts t).2.2.2.2.2.2.2.2.2.2.2.1]; omega

/-- Window 0 of region 1 at point `t` is rows `10000 t … 10000 t + 9999` of its array. -/
theorem blk1_0_apply (c : Dev nD) (t : Fin cfg1.N) (p : Fin 10000) (k : Fin 128) :
    blk1 V c 0 t (ix2 p k) = V c main_v22_0 (ix2 (⟨t.val * 10000 + p.val, by have := t.isLt; have : cfg1.N = 10 := N_1; have := p.isLt; omega⟩ : Fin 100000) k) := by
  unfold blk1
  show V c main_v22_0 (((cfg1.win 0).blk t).view.emb (ix2 p k)) = _
  congr 1; funext a; apply Fin.ext
  match a with
  | ⟨0, _⟩ => show win1_0.index t (0 : Fin 2) * 10000 + 1 * p.val = t.val * 10000 + p.val; rw [(idx1_facts t).1]; omega
  | ⟨1, _⟩ => show win1_0.index t (1 : Fin 2) * 128 + 1 * k.val = k.val; rw [(idx1_facts t).2.1]; omega

/-- Window 1 of region 1 is its whole array at every point. -/
theorem blk1_1_apply (c : Dev nD) (t : Fin cfg1.N) (p : Fin 1) (k : Fin 128) :
    blk1 V c 1 t (ix2 p k) = V c main_v35 (ix2 p k) := by
  unfold blk1
  show V c main_v35 (((cfg1.win 1).blk t).view.emb (ix2 p k)) = _
  congr 1; funext a; apply Fin.ext
  match a with
  | ⟨0, _⟩ => show win1_1.index t (0 : Fin 2) * 1 + 1 * p.val = p.val; rw [(idx1_facts t).2.2.1]; omega
  | ⟨1, _⟩ => show win1_1.index t (1 : Fin 2) * 128 + 1 * k.val = k.val; rw [(idx1_facts t).2.2.2.1]; omega

/-- Window 2 of region 1 is its whole array at every point. -/
theorem blk1_2_apply (c : Dev nD) (t : Fin cfg1.N) (p : Fin 1) (k : Fin 128) :
    blk1 V c 2 t (ix2 p k) = V c main_v36 (ix2 p k) := by
  unfold blk1
  show V c main_v36 (((cfg1.win 2).blk t).view.emb (ix2 p k)) = _
  congr 1; funext a; apply Fin.ext
  match a with
  | ⟨0, _⟩ => show win1_2.index t (0 : Fin 2) * 1 + 1 * p.val = p.val; rw [(idx1_facts t).2.2.2.2.1]; omega
  | ⟨1, _⟩ => show win1_2.index t (1 : Fin 2) * 128 + 1 * k.val = k.val; rw [(idx1_facts t).2.2.2.2.2.1]; omega

/-- Window 3 of region 1 is its whole array at every point. -/
theorem blk1_3_apply (c : Dev nD) (t : Fin cfg1.N) (p : Fin 1) (k : Fin 128) :
    blk1 V c 3 t (ix2 p k) = V c main_v37 (ix2 p k) := by
  unfold blk1
  show V c main_v37 (((cfg1.win 3).blk t).view.emb (ix2 p k)) = _
  congr 1; funext a; apply Fin.ext
  match a with
  | ⟨0, _⟩ => show win1_3.index t (0 : Fin 2) * 1 + 1 * p.val = p.val; rw [(idx1_facts t).2.2.2.2.2.2.1]; omega
  | ⟨1, _⟩ => show win1_3.index t (1 : Fin 2) * 128 + 1 * k.val = k.val; rw [(idx1_facts t).2.2.2.2.2.2.2.1]; omega

/-- Window 4 of region 1 is its whole array at every point. -/
theorem blk1_4_apply (c : Dev nD) (t : Fin cfg1.N) (p : Fin 1) (k : Fin 128) :
    blk1 V c 4 t (ix2 p k) = V c main_v38 (ix2 p k) := by
  unfold blk1
  show V c main_v38 (((cfg1.win 4).blk t).view.emb (ix2 p k)) = _
  congr 1; funext a; apply Fin.ext
  match a with
  | ⟨0, _⟩ => show win1_4.index t (0 : Fin 2) * 1 + 1 * p.val = p.val; rw [(idx1_facts t).2.2.2.2.2.2.2.2.1]; omega
  | ⟨1, _⟩ => show win1_4.index t (1 : Fin 2) * 128 + 1 * k.val = k.val; rw [(idx1_facts t).2.2.2.2.2.2.2.2.2.1]; omega

/-- Window 5 of region 1 is its whole array at every point. -/
theorem blk1_5_apply (c : Dev nD) (t : Fin cfg1.N) (p : Fin 128) (k : Fin 47) :
    blk1 V c 5 t (ix2 p k) = V c main_v33 (ix2 p k) := by
  unfold blk1
  show V c main_v33 (((cfg1.win 5).blk t).view.emb (ix2 p k)) = _
  congr 1; funext a; apply Fin.ext
  match a with
  | ⟨0, _⟩ => show win1_5.index t (0 : Fin 2) * 128 + 1 * p.val = p.val; rw [(idx1_facts t).2.2.2.2.2.2.2.2.2.2.1]; omega
  | ⟨1, _⟩ => show win1_5.index t (1 : Fin 2) * 47 + 1 * k.val = k.val; rw [(idx1_facts t).2.2.2.2.2.2.2.2.2.2.2.1]; omega

/-- Window 6 of region 1 is its whole array at every point. -/
theorem blk1_6_apply (c : Dev nD) (t : Fin cfg1.N) (p : Fin 128) (k : Fin 47) :
    blk1 V c 6 t (ix2 p k) = V c main_v34 (ix2 p k) := by
  unfold blk1
  show V c main_v34 (((cfg1.win 6).blk t).view.emb (ix2 p k)) = _
  congr 1; funext a; apply Fin.ext
  match a with
  | ⟨0, _⟩ => show win1_6.index t (0 : Fin 2) * 128 + 1 * p.val = p.val; rw [(idx1_facts t).2.2.2.2.2.2.2.2.2.2.2.2.1]; omega
  | ⟨1, _⟩ => show win1_6.index t (1 : Fin 2) * 47 + 1 * k.val = k.val; rw [(idx1_facts t).2.2.2.2.2.2.2.2.2.2.2.2.2.1]; omega

/-- Window 0 of region 2 at point `t` is rows `10000 t … 10000 t + 9999` of its array. -/
theorem blk2_0_apply (c : Dev nD) (t : Fin cfg2.N) (p : Fin 10000) (k : Fin 47) :
    blk2 V c 0 t (ix2 p k) = V c main_v49 (ix2 (⟨t.val * 10000 + p.val, by have := t.isLt; have : cfg2.N = 10 := N_2; have := p.isLt; omega⟩ : Fin 100000) k) := by
  unfold blk2
  show V c main_v49 (((cfg2.win 0).blk t).view.emb (ix2 p k)) = _
  congr 1; funext a; apply Fin.ext
  match a with
  | ⟨0, _⟩ => show win2_0.index t (0 : Fin 2) * 10000 + 1 * p.val = t.val * 10000 + p.val; rw [(idx2_facts t).1]; omega
  | ⟨1, _⟩ => show win2_0.index t (1 : Fin 2) * 47 + 1 * k.val = k.val; rw [(idx2_facts t).2.1]; omega

/-- Window 1 of region 2 at point `t` is rows `10000 t … 10000 t + 9999` of its array. -/
theorem blk2_1_apply (c : Dev nD) (t : Fin cfg2.N) (p : Fin 10000) (k : Fin 1) :
    blk2 V c 1 t (ix2 p k) = V c main_v8 (ix2 (⟨t.val * 10000 + p.val, by have := t.isLt; have : cfg2.N = 10 := N_2; have := p.isLt; omega⟩ : Fin 100000) k) := by
  unfold blk2
  show V c main_v8 (((cfg2.win 1).blk t).view.emb (ix2 p k)) = _
  congr 1; funext a; apply Fin.ext
  match a with
  | ⟨0, _⟩ => show win2_1.index t (0 : Fin 2) * 10000 + 1 * p.val = t.val * 10000 + p.val; rw [(idx2_facts t).2.2.1]; omega
  | ⟨1, _⟩ => show win2_1.index t (1 : Fin 2) * 1 + 1 * k.val = k.val; rw [(idx2_facts t).2.2.2.1]; omega

/-- Window 2 of region 2 is its whole array at every point. -/
theorem blk2_2_apply (c : Dev nD) (t : Fin cfg2.N) (p : Fin 1) (k : Fin 47) :
    blk2 V c 2 t (ix2 p k) = V c main_v50 (ix2 p k) := by
  unfold blk2
  show V c main_v50 (((cfg2.win 2).blk t).view.emb (ix2 p k)) = _
  congr 1; funext a; apply Fin.ext
  match a with
  | ⟨0, _⟩ => show win2_2.index t (0 : Fin 2) * 1 + 1 * p.val = p.val; rw [(idx2_facts t).2.2.2.2.1]; omega
  | ⟨1, _⟩ => show win2_2.index t (1 : Fin 2) * 47 + 1 * k.val = k.val; rw [(idx2_facts t).2.2.2.2.2.1]; omega

/-- Window 3 of region 2 at point `t` is rows `10000 t … 10000 t + 9999` of its array. -/
theorem blk2_3_apply (c : Dev nD) (t : Fin cfg2.N) (p : Fin 10000) (k : Fin 47) :
    blk2 V c 3 t (ix2 p k) = V c main_v39_1 (ix2 (⟨t.val * 10000 + p.val, by have := t.isLt; have : cfg2.N = 10 := N_2; have := p.isLt; omega⟩ : Fin 100000) k) := by
  unfold blk2
  show V c main_v39_1 (((cfg2.win 3).blk t).view.emb (ix2 p k)) = _
  congr 1; funext a; apply Fin.ext
  match a with
  | ⟨0, _⟩ => show win2_3.index t (0 : Fin 2) * 10000 + 1 * p.val = t.val * 10000 + p.val; rw [(idx2_facts t).2.2.2.2.2.2.1]; omega
  | ⟨1, _⟩ => show win2_3.index t (1 : Fin 2) * 47 + 1 * k.val = k.val; rw [(idx2_facts t).2.2.2.2.2.2.2.1]; omega

end

/-- An entry of output window 6 of region 0 at point `t` is an entry of row `10000 t + p` of its array. -/
theorem emb0_6 (t : Fin cfg0.N) (p : Fin 10000) (k : Fin 128) :
    ((cfg0.win 6).blk t).view.emb (ix2 p k) = (ix2 (⟨t.val * 10000 + p.val, by have := t.isLt; have : cfg0.N = 10 := N_0; have := p.isLt; omega⟩ : Fin 100000) k : S100000x128.Idx) := by
  funext a; apply Fin.ext
  match a with
  | ⟨0, _⟩ => show win0_6.index t (0 : Fin 2) * 10000 + 1 * p.val = t.val * 10000 + p.val; rw [(idx0_facts t).2.2.2.2.2.2.2.2.2.2.2.2.1]; omega
  | ⟨1, _⟩ => show win0_6.index t (1 : Fin 2) * 128 + 1 * k.val = k.val; rw [(idx0_facts t).2.2.2.2.2.2.2.2.2.2.2.2.2.1]; omega

/-- An index of the array is in point `t`'s block iff each coordinate is in the block's range on its axis. -/
theorem mem0_6 (t : Fin cfg0.N) (i : S100000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v22_0).slice (win0_6.rect t)).set ↔ _
  rw [View.set_slice_whole, Rect.mem_set_unit]
  exact Iff.rfl

/-- Every index of the array lies in the block of the point its row belongs to, and every point writes its block back. -/
theorem cover0_6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 10 := N_0
  refine ⟨⟨(i 0).val / 10000, by rw [hN]; omega⟩, flush0_6 _, ?_⟩
  rw [mem0_6]
  intro a
  match a with
  | ⟨0, _⟩ =>
    show win0_6.index _ (0 : Fin 2) * 10000 ≤ (i 0).val ∧ (i 0).val < win0_6.index _ (0 : Fin 2) * 10000 + 10000
    rw [(idx0_facts _).2.2.2.2.2.2.2.2.2.2.2.2.1]; show (i 0).val / 10000 * 10000 ≤ (i 0).val ∧ (i 0).val < (i 0).val / 10000 * 10000 + 10000; omega
  | ⟨1, _⟩ =>
    show win0_6.index _ (1 : Fin 2) * 128 ≤ (i 1).val ∧ (i 1).val < win0_6.index _ (1 : Fin 2) * 128 + 128
    rw [(idx0_facts _).2.2.2.2.2.2.2.2.2.2.2.2.2.1]; omega

/-- An entry of output window 7 of region 1 at point `t` is an entry of row `10000 t + p` of its array. -/
theorem emb1_7 (t : Fin cfg1.N) (p : Fin 10000) (k : Fin 47) :
    ((cfg1.win 7).blk t).view.emb (ix2 p k) = (ix2 (⟨t.val * 10000 + p.val, by have := t.isLt; have : cfg1.N = 10 := N_1; have := p.isLt; omega⟩ : Fin 100000) k : S100000x47.Idx) := by
  funext a; apply Fin.ext
  match a with
  | ⟨0, _⟩ => show win1_7.index t (0 : Fin 2) * 10000 + 1 * p.val = t.val * 10000 + p.val; rw [(idx1_facts t).2.2.2.2.2.2.2.2.2.2.2.2.2.2.1]; omega
  | ⟨1, _⟩ => show win1_7.index t (1 : Fin 2) * 47 + 1 * k.val = k.val; rw [(idx1_facts t).2.2.2.2.2.2.2.2.2.2.2.2.2.2.2.1]; omega

/-- An index of the array is in point `t`'s block iff each coordinate is in the block's range on its axis. -/
theorem mem1_7 (t : Fin cfg1.N) (i : S100000x47.Idx) :
    i ∈ ((cfg1.win 7).blk t).view.set ↔ ∀ a : Fin 2, win1_7.index t a * S10000x47.size a ≤ (i a).val ∧ (i a).val < win1_7.index t a * S10000x47.size a + S10000x47.size a := by
  show i ∈ ((View.whole main_v39_0).slice (win1_7.rect t)).set ↔ _
  rw [View.set_slice_whole, Rect.mem_set_unit]
  exact Iff.rfl

/-- Every index of the array lies in the block of the point its row belongs to, and every point writes its block back. -/
theorem cover1_7 (i : S100000x47.Idx) : ∃ t : Fin cfg1.N, (cfg1.win 7).flush t = true ∧ i ∈ ((cfg1.win 7).blk t).view.set := by
  have hi0 : (i 0).val < 100000 := (i 0).isLt
  have hi1 : (i 1).val < 47 := (i 1).isLt
  have hN : cfg1.N = 10 := N_1
  refine ⟨⟨(i 0).val / 10000, by rw [hN]; omega⟩, flush1_7 _, ?_⟩
  rw [mem1_7]
  intro a
  match a with
  | ⟨0, _⟩ =>
    show win1_7.index _ (0 : Fin 2) * 10000 ≤ (i 0).val ∧ (i 0).val < win1_7.index _ (0 : Fin 2) * 10000 + 10000
    rw [(idx1_facts _).2.2.2.2.2.2.2.2.2.2.2.2.2.2.1]; show (i 0).val / 10000 * 10000 ≤ (i 0).val ∧ (i 0).val < (i 0).val / 10000 * 10000 + 10000; omega
  | ⟨1, _⟩ =>
    show win1_7.index _ (1 : Fin 2) * 47 ≤ (i 1).val ∧ (i 1).val < win1_7.index _ (1 : Fin 2) * 47 + 47
    rw [(idx1_facts _).2.2.2.2.2.2.2.2.2.2.2.2.2.2.2.1]; omega

/-- An entry of output window 8 of region 1 at point `t` is an entry of row `10000 t + p` of its array. -/
theorem emb1_8 (t : Fin cfg1.N) (p : Fin 10000) (k : Fin 47) :
    ((cfg1.win 8).blk t).view.emb (ix2 p k) = (ix2 (⟨t.val * 10000 + p.val, by have := t.isLt; have : cfg1.N = 10 := N_1; have := p.isLt; omega⟩ : Fin 100000) k : S100000x47.Idx) := by
  funext a; apply Fin.ext
  match a with
  | ⟨0, _⟩ => show win1_8.index t (0 : Fin 2) * 10000 + 1 * p.val = t.val * 10000 + p.val; rw [(idx1_facts t).2.2.2.2.2.2.2.2.2.2.2.2.2.2.2.2.1]; omega
  | ⟨1, _⟩ => show win1_8.index t (1 : Fin 2) * 47 + 1 * k.val = k.val; rw [(idx1_facts t).2.2.2.2.2.2.2.2.2.2.2.2.2.2.2.2.2]; omega

/-- An index of the array is in point `t`'s block iff each coordinate is in the block's range on its axis. -/
theorem mem1_8 (t : Fin cfg1.N) (i : S100000x47.Idx) :
    i ∈ ((cfg1.win 8).blk t).view.set ↔ ∀ a : Fin 2, win1_8.index t a * S10000x47.size a ≤ (i a).val ∧ (i a).val < win1_8.index t a * S10000x47.size a + S10000x47.size a := by
  show i ∈ ((View.whole main_v39_1).slice (win1_8.rect t)).set ↔ _
  rw [View.set_slice_whole, Rect.mem_set_unit]
  exact Iff.rfl

/-- Every index of the array lies in the block of the point its row belongs to, and every point writes its block back. -/
theorem cover1_8 (i : S100000x47.Idx) : ∃ t : Fin cfg1.N, (cfg1.win 8).flush t = true ∧ i ∈ ((cfg1.win 8).blk t).view.set := by
  have hi0 : (i 0).val < 100000 := (i 0).isLt
  have hi1 : (i 1).val < 47 := (i 1).isLt
  have hN : cfg1.N = 10 := N_1
  refine ⟨⟨(i 0).val / 10000, by rw [hN]; omega⟩, flush1_8 _, ?_⟩
  rw [mem1_8]
  intro a
  match a with
  | ⟨0, _⟩ =>
    show win1_8.index _ (0 : Fin 2) * 10000 ≤ (i 0).val ∧ (i 0).val < win1_8.index _ (0 : Fin 2) * 10000 + 10000
    rw [(idx1_facts _).2.2.2.2.2.2.2.2.2.2.2.2.2.2.2.2.1]; show (i 0).val / 10000 * 10000 ≤ (i 0).val ∧ (i 0).val < (i 0).val / 10000 * 10000 + 10000; omega
  | ⟨1, _⟩ =>
    show win1_8.index _ (1 : Fin 2) * 47 ≤ (i 1).val ∧ (i 1).val < win1_8.index _ (1 : Fin 2) * 47 + 47
    rw [(idx1_facts _).2.2.2.2.2.2.2.2.2.2.2.2.2.2.2.2.2]; omega

/-- An entry of output window 4 of region 2 at point `t` is an entry of row `10000 t + p` of its array. -/
theorem emb2_4 (t : Fin cfg2.N) (p : Fin 10000) (k : Fin 47) :
    ((cfg2.win 4).blk t).view.emb (ix2 p k) = (ix2 (⟨t.val * 10000 + p.val, by have := t.isLt; have : cfg2.N = 10 := N_2; have := p.isLt; omega⟩ : Fin 100000) k : S100000x47.Idx) := by
  funext a; apply Fin.ext
  match a with
  | ⟨0, _⟩ => show win2_4.index t (0 : Fin 2) * 10000 + 1 * p.val = t.val * 10000 + p.val; rw [(idx2_facts t).2.2.2.2.2.2.2.2.1]; omega
  | ⟨1, _⟩ => show win2_4.index t (1 : Fin 2) * 47 + 1 * k.val = k.val; rw [(idx2_facts t).2.2.2.2.2.2.2.2.2]; omega

/-- An index of the array is in point `t`'s block iff each coordinate is in the block's range on its axis. -/
theorem mem2_4 (t : Fin cfg2.N) (i : S100000x47.Idx) :
    i ∈ ((cfg2.win 4).blk t).view.set ↔ ∀ a : Fin 2, win2_4.index t a * S10000x47.size a ≤ (i a).val ∧ (i a).val < win2_4.index t a * S10000x47.size a + S10000x47.size a := by
  show i ∈ ((View.whole main_v51).slice (win2_4.rect t)).set ↔ _
  rw [View.set_slice_whole, Rect.mem_set_unit]
  exact Iff.rfl

/-- Every index of the array lies in the block of the point its row belongs to, and every point writes its block back. -/
theorem cover2_4 (i : S100000x47.Idx) : ∃ t : Fin cfg2.N, (cfg2.win 4).flush t = true ∧ i ∈ ((cfg2.win 4).blk t).view.set := by
  have hi0 : (i 0).val < 100000 := (i 0).isLt
  have hi1 : (i 1).val < 47 := (i 1).isLt
  have hN : cfg2.N = 10 := N_2
  refine ⟨⟨(i 0).val / 10000, by rw [hN]; omega⟩, flush2_4 _, ?_⟩
  rw [mem2_4]
  intro a
  match a with
  | ⟨0, _⟩ =>
    show win2_4.index _ (0 : Fin 2) * 10000 ≤ (i 0).val ∧ (i 0).val < win2_4.index _ (0 : Fin 2) * 10000 + 10000
    rw [(idx2_facts _).2.2.2.2.2.2.2.2.1]; show (i 0).val / 10000 * 10000 ≤ (i 0).val ∧ (i 0).val < (i 0).val / 10000 * 10000 + 10000; omega
  | ⟨1, _⟩ =>
    show win2_4.index _ (1 : Fin 2) * 47 ≤ (i 1).val ∧ (i 1).val < win2_4.index _ (1 : Fin 2) * 47 + 47
    rw [(idx2_facts _).2.2.2.2.2.2.2.2.2]; omega

end Cert.KernelIdeal.Hand

end
-- ==== Proof.LibMatDot.lean ====
/-
  The product of an m×k matrix by a k×n matrix, read at one entry, at the ideal values: both the vector unit's
  matrix product into a zero accumulator and the host's `dot_general` with the dimension numbers
  (contracting [1]×[0], no batch axis) are the sum over the contracted coordinate of the products of the entries,
  `∑ c, A (a, c) * B (c, b)`, whatever the element formats of the operands and whatever proof of well-formedness
  the record of dimension numbers carries. Also three broadcasts read at an entry: a column `[a, 1]` laid across
  `b` columns (the vector unit's and the host's), a vector of `n` entries laid along every row through a one-row
  matrix (the host's two-step form), and a scalar constant laid over a shape.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

open scoped BigOperators

namespace Cert.Lib.MatDot

open Idealize.ShloMosaic Idealize.ShloMosaic.ValueIdx

variable {m k n : Nat} {φ₁ φ₂ : FTy}

/-- The left operand's entry that output entry `(a, b)` meets at contraction position `c` is `(a, c)`. -/
theorem lhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's entry there is `(c, b)`. -/
theorem rhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's matrix product at entry `(a, b)` is `∑ c, A (a, c) * B (c, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

/-- The vector unit's matrix product into the zero accumulator at entry `(a, b)` is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

variable {α : Type}

/-- A column `[a, 1]` laid across `b` columns by the vector unit's broadcast reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` along axes `[0, 1]` reads the same. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `n` entries made a one-row matrix along axis 1 by the host reads, at `(u, t)`, the vector at `t`. -/
theorem broadcastInDim_vec_oneRow_apply {n : ℕ} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) fun ax => ?_
  match ax with
  | ⟨0, _⟩ =>
    show t.val = if n = 1 then 0 else t.val
    split
    · have := t.isLt; omega
    · rfl

/-- So the host's two-step row broadcast (a vector to one row, the row down `m` rows) reads, at `(r, t)`, the vector at `t`. -/
theorem broadcastInDim_vec_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) :=
  (Idealize.ShloMosaic.broadcastInDim_oneRow_apply h2 _ r t).trans (broadcastInDim_vec_oneRow_apply h1 x 0 t)

/-- The vector unit's form of the same: the vector cast to one row, the row laid down `m` rows. -/
theorem broadcastTo_vec_rows_apply {m n : ℕ} (h1 : (⟨1, ![n]⟩ : Shape).ShapeCasts ⟨2, ![1, n]⟩)
    (h2 : (⟨2, ![1, n]⟩ : Shape).Broadcasts ⟨2, ![m, n]⟩) (x : (⟨1, ![n]⟩ : Shape).Idx → α) (r : Fin m) (t : Fin n) :
    broadcastTo ⟨2, ![m, n]⟩ (shapeCast ⟨2, ![1, n]⟩ x h1) h2 (ix2 r t) = x (ix1 t) :=
  (broadcastTo_1b_ab_apply _ h2 r t).trans (shapeCast_a_1a_apply x h1 0 t)

end Cert.Lib.MatDot

end
-- ==== Proof.KernelPayloads.lean ====
/-
  The three kernels' pure payload functions read at an index, at the extended reals. Each payload is a chain of
  elementwise operations, broadcasts of a row or of a column, sums along one axis and matrix products into a zero
  accumulator; read at one entry `(p, j)` it is a closed expression in the entries of its arguments: the sums along an
  axis become sums over that axis's coordinate, a matrix product the sum over the contracted coordinate of the products
  of the entries, a broadcast row or column the entry of that row or column.
-/
import proofs.«162611_j39075612459051_2_alg».proof.Proof.Gen.KernelIdeal.Skeleton
import proofs.«162611_j39075612459051_2_alg».proof.Proof.LibMatDot

noncomputable section

open scoped BigOperators

namespace Cert.KernelIdeal.Pay

open Cert.KernelIdeal Cert.KernelIdeal.Gen Idealize.ShloMosaic Idealize.ShloMosaic.ValueIdx

/-! ## Layout and reduction steps read at an entry, over variables -/

section Steps
variable {a b : ℕ}

/-- The source entry a sum down the rows reads over column `j` at row `p`. -/
theorem lift_rows (h : (⟨2, ![a, b]⟩ : Shape).Reduces [0] ⟨1, ![b]⟩) (j : Fin b) (p : Fin a) :
    h.lift (ix1 j) p = ix2 p j := by
  funext c; apply Fin.ext
  match c with
  | ⟨0, _⟩ => rfl
  | ⟨1, _⟩ => rfl

/-- The source entry a sum along the columns reads over row `p` at column `j`. -/
theorem lift_cols (h : (⟨2, ![a, b]⟩ : Shape).Reduces [1] ⟨1, ![a]⟩) (p : Fin a) (j : Fin b) :
    h.lift (ix1 p) j = ix2 p j := by
  funext c; apply Fin.ext
  match c with
  | ⟨0, _⟩ => rfl
  | ⟨1, _⟩ => rfl

/-- A sum down the rows of an `a × b` matrix, read at column `j`, is the sum over the rows of that column's entries. -/
theorem sumRows_apply (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (j : Fin b) :
    multiReduction .add [0] ⟨1, ![b]⟩ src 0x00000000#32 h hφ hacc (ix1 j) = ∑ p : Fin a, src (ix2 p j) := by
  refine (Ideal.multiReduction_add_single src 0x00000000#32 h hφ hacc (ix1 j)).trans ?_
  exact Finset.sum_congr rfl fun p _ => congrArg src (lift_rows h j p)

/-- A sum along the columns of an `a × b` matrix, read at row `p`, is the sum over the columns of that row's entries. -/
theorem sumCols_apply (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ j : Fin b, src (ix2 p j) := by
  refine (Ideal.multiReduction_add_single src 0x00000000#32 h hφ hacc (ix1 p)).trans ?_
  exact Finset.sum_congr rfl fun j _ => congrArg src (lift_cols h p j)

variable {α : Type}

/-- A vector of `a` entries cast to a column `[a, 1]` reads, at `(p, u)`, the vector at `p`. -/
theorem shapeCast_a_a1_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Steps

/-! ## A row divided by its length, the length clamped below -/

section Normalize
variable {a b : ℕ}

/-- Each entry of an `a × b` matrix divided by the square root of the sum of the squares of its row, that root clamped
    below by the constant of word `w`: at `(p, o)` the entry over the clamped root of row `p`'s sum of squares. -/
theorem rowNormalize_apply (V : FVec Ideal ⟨2, ![a, b]⟩ .f32)
    (hred : (⟨2, ![a, b]⟩ : Shape).Reduces [1] ⟨1, ![a]⟩) (hφ : FKind.Formats .f32)
    (hacc : (0x00000000#32 : BitVec 32) = FKind.add.neutral .f32 hφ)
    (hcast : (⟨1, ![a]⟩ : Shape).ShapeCasts ⟨2, ![a, 1]⟩) (hb : (⟨2, ![a, 1]⟩ : Shape).Broadcasts ⟨2, ![a, b]⟩)
    (w : BitVec 32) (p : Fin a) (o : Fin b) :
    divf V (broadcastTo ⟨2, ![a, b]⟩ (maximumf (sqrt (shapeCast ⟨2, ![a, 1]⟩
        (multiReduction .add [1] ⟨1, ![a]⟩ (mulf V V) 0x00000000#32 hred hφ hacc) hcast))
        (broadcast ⟨2, ![a, 1]⟩ (Scalar.ofBits (F := Ideal) .f32 w))) hb) (ix2 p o)
      = Ideal.div (V (ix2 p o)) (max (Ideal.sqrt (∑ o' : Fin b, V (ix2 p o') * V (ix2 p o'))) (Ideal.ofBits .f32 w)) := by
  refine congrArg (Ideal.div (V (ix2 p o))) ?_
  refine (Cert.Lib.MatDot.broadcastTo_col_apply _ hb p o).trans ?_
  show max (Ideal.sqrt (shapeCast ⟨2, ![a, 1]⟩
      (multiReduction .add [1] ⟨1, ![a]⟩ (mulf V V) 0x00000000#32 hred hφ hacc) hcast (ix2 p 0))) (Ideal.ofBits .f32 w) = _
  rw [shapeCast_a_a1_apply, sumCols_apply]
  rfl

end Normalize

/-! ## The initial values of the two running sums -/

/-- The first running sum starts from the zero row. -/
theorem pay3_apply (j : Fin 128) : k0_pay3 (F := Ideal) (ix2 0 j) = 0 := by
  unfold k0_pay3
  rw [shapeCast_self]
  exact Ideal.ofBits_zero_f32

/-- So does the second. -/
theorem pay4_apply (j : Fin 128) : k0_pay4 (F := Ideal) (ix2 0 j) = 0 := by
  unfold k0_pay4
  rw [shapeCast_self]
  exact Ideal.ofBits_zero_f32

/-! ## The two running sums -/

/-- The first running sum after a block: the sum so far plus, in each column, the sum of the block's rows. -/
theorem pay1_apply (hb : Vec Ideal S10000x128 .f32) (s : Vec Ideal S1x128 .f32) (j : Fin 128) :
    k0_pay1 (F := Ideal) hb s (ix2 0 j) = s (ix2 0 j) + ∑ p : Fin 10000, hb (ix2 p j) := by
  unfold k0_pay1
  rw [shapeCast_self]
  refine congrArg (s (ix2 0 j) + ·) ?_
  refine (shapeCast_a_1a_apply _ _ 0 j).trans ?_
  exact sumRows_apply hb _ _ _ j

/-- The second running sum after a block: the sum so far plus, in each column, the sum of the squares of the block's rows. -/
theorem pay2_apply (hb : Vec Ideal S10000x128 .f32) (s : Vec Ideal S1x128 .f32) (j : Fin 128) :
    k0_pay2 (F := Ideal) hb s (ix2 0 j) = s (ix2 0 j) + ∑ p : Fin 10000, hb (ix2 p j) * hb (ix2 p j) := by
  unfold k0_pay2
  rw [shapeCast_self]
  refine congrArg (s (ix2 0 j) + ·) ?_
  refine (shapeCast_a_1a_apply _ _ 0 j).trans ?_
  exact sumRows_apply (mulf hb hb) _ _ _ j

/-! ## The first kernel's block: the mean of the neighbours' rows through the left weights, the offset, the rows through the right weights; normalised -/

/-- The block's row before it is normalised, at `(p, j)`: the aggregated row divided by the degree clamped below at one,
    against column `j` of the left weights; plus the offset; plus the row itself against column `j` of the right weights. -/
def pay5_out (x0 : Vec Ideal S10000x128 .f32) (x1 : Vec Ideal S10000x1 .f32) (x3 : Vec Ideal S128x128 .f32)
    (x4 : Vec Ideal S1x128 .f32) (x2 : Vec Ideal S10000x128 .f32) (x5 : Vec Ideal S128x128 .f32) (p : Fin 10000) (j : Fin 128) : EReal :=
  ((∑ k : Fin 128, Ideal.div (x0 (ix2 p k)) (max (x1 (ix2 p 0)) (Ideal.ofBits .f32 0x3F800000#32)) * x3 (ix2 k j)) + x4 (ix2 0 j))
    + ∑ k : Fin 128, x2 (ix2 p k) * x5 (ix2 k j)

/-- The aggregated rows, each divided by its degree clamped below at one, times the left weights: the matrix the kernel forms. -/
def pay5Left (x0 : Vec Ideal S10000x128 .f32) (x1 : Vec Ideal S10000x1 .f32) (x3 : Vec Ideal S128x128 .f32) :
    FVec Ideal S10000x128 .f32 :=
  matmul (φ₁ := .f32) (φ₂ := .f32) dot_S10000x128_S128x128_S10000x128_1_0_0_1_n_n none
    (divf x0 (broadcastTo S10000x128 (maximumf x1 (broadcast S10000x1 (Scalar.ofBits (F := Ideal) .f32 0x3F800000#32)))
      broadcasts_S10000x1_S10000x128)) x3 (constant (F := Ideal) S10000x128 .f32 0x00000000#32)

/-- The rows times the right weights: the matrix the kernel forms. -/
def pay5Right (x2 : Vec Ideal S10000x128 .f32) (x5 : Vec Ideal S128x128 .f32) : FVec Ideal S10000x128 .f32 :=
  matmul (φ₁ := .f32) (φ₂ := .f32) dot_S10000x128_S128x128_S10000x128_1_0_0_1_n_n none x2 x5
    (constant (F := Ideal) S10000x128 .f32 0x00000000#32)

/-- Their sum with the offset row laid down every row. -/
def pay5Vec (x0 : Vec Ideal S10000x128 .f32) (x1 : Vec Ideal S10000x1 .f32) (x3 : Vec Ideal S128x128 .f32)
    (x4 : Vec Ideal S1x128 .f32) (x2 : Vec Ideal S10000x128 .f32) (x5 : Vec Ideal S128x128 .f32) : FVec Ideal S10000x128 .f32 :=
  addf (addf (pay5Left x0 x1 x3) (broadcastTo S10000x128 x4 broadcasts_S1x128_S10000x128)) (pay5Right x2 x5)

theorem pay5Left_apply (x0 : Vec Ideal S10000x128 .f32) (x1 : Vec Ideal S10000x1 .f32) (x3 : Vec Ideal S128x128 .f32)
    (p : Fin 10000) (j : Fin 128) :
    pay5Left x0 x1 x3 (ix2 p j)
      = ∑ k : Fin 128, Ideal.div (x0 (ix2 p k)) (max (x1 (ix2 p 0)) (Ideal.ofBits .f32 0x3F800000#32)) * x3 (ix2 k j) := by
  unfold pay5Left
  refine (Cert.Lib.MatDot.matmul_zero_apply _ none _ _ p j).trans ?_
  refine Finset.sum_congr rfl fun k _ => ?_
  refine congrArg (· * x3 (ix2 k j)) ?_
  exact congrArg (Ideal.div (x0 (ix2 p k))) (Cert.Lib.MatDot.broadcastTo_col_apply _ _ p k)

theorem pay5Right_apply (x2 : Vec Ideal S10000x128 .f32) (x5 : Vec Ideal S128x128 .f32) (p : Fin 10000) (j : Fin 128) :
    pay5Right x2 x5 (ix2 p j) = ∑ k : Fin 128, x2 (ix2 p k) * x5 (ix2 k j) := by
  unfold pay5Right
  exact Cert.Lib.MatDot.matmul_zero_apply _ none _ _ p j

theorem pay5Vec_apply (x0 : Vec Ideal S10000x128 .f32) (x1 : Vec Ideal S10000x1 .f32) (x3 : Vec Ideal S128x128 .f32)
    (x4 : Vec Ideal S1x128 .f32) (x2 : Vec Ideal S10000x128 .f32) (x5 : Vec Ideal S128x128 .f32) (p : Fin 10000) (j : Fin 128) :
    pay5Vec x0 x1 x3 x4 x2 x5 (ix2 p j) = pay5_out x0 x1 x3 x4 x2 x5 p j := by
  have e4 : broadcastTo S10000x128 x4 broadcasts_S1x128_S10000x128 (ix2 p j) = x4 (ix2 0 j) :=
    broadcastTo_1b_ab_apply x4 _ p j
  show (pay5Left x0 x1 x3 (ix2 p j) + broadcastTo S10000x128 x4 broadcasts_S1x128_S10000x128 (ix2 p j))
      + pay5Right x2 x5 (ix2 p j) = _
  rw [pay5Left_apply, pay5Right_apply, e4]
  rfl

/-- The first kernel's block at `(p, j)`: the row's entry over the row's length, the length clamped below. -/
theorem pay5_apply (x0 : Vec Ideal S10000x128 .f32) (x1 : Vec Ideal S10000x1 .f32) (x3 : Vec Ideal S128x128 .f32)
    (x4 : Vec Ideal S1x128 .f32) (x2 : Vec Ideal S10000x128 .f32) (x5 : Vec Ideal S128x128 .f32) (p : Fin 10000) (j : Fin 128) :
    k0_pay5 (F := Ideal) x0 x1 x3 x4 x2 x5 (ix2 p j)
      = Ideal.div (pay5_out x0 x1 x3 x4 x2 x5 p j)
          (max (Ideal.sqrt (∑ j' : Fin 128, pay5_out x0 x1 x3 x4 x2 x5 p j' * pay5_out x0 x1 x3 x4 x2 x5 p j'))
            (Ideal.ofBits .f32 0x2B8CBCCC#32)) := by
  unfold k0_pay5
  simp only [shapeCast_self]
  refine (rowNormalize_apply (pay5Vec x0 x1 x3 x4 x2 x5) _ _ _ _ _ _ p j).trans ?_
  simp only [pay5Vec_apply]

/-! ## The second kernel: normalise, scale, shift, clamp below at zero; then the two projections -/

/-- The activation at `(p, j)`: the row's entry centred by the column's mean, scaled by the column's weight and by the
    reciprocal square root of the column's variance plus the small constant, shifted by the column's offset, and clamped
    below at zero. -/
theorem act_apply (v0 : Vec Ideal S10000x128 .f32) (v2 v4 v10 v17 : Vec Ideal S1x128 .f32) (p : Fin 10000) (j : Fin 128) :
    k1_pay1 (F := Ideal) v0 v2 v4 v10 v17 (ix2 p j)
      = max (((v2 (ix2 0 j) * (v0 (ix2 p j) - v4 (ix2 0 j))) * Ideal.rsqrt (v10 (ix2 0 j) + Ideal.ofBits .f32 0x3727C5AC#32))
          + v17 (ix2 0 j)) (Ideal.ofBits .f32 0x00000000#32) := by
  unfold k1_pay1
  simp only [shapeCast_self]
  have e2 : broadcastTo S10000x128 v2 broadcasts_S1x128_S10000x128 (ix2 p j) = v2 (ix2 0 j) :=
    broadcastTo_1b_ab_apply v2 _ p j
  have e4 : broadcastTo S10000x128 v4 broadcasts_S1x128_S10000x128 (ix2 p j) = v4 (ix2 0 j) :=
    broadcastTo_1b_ab_apply v4 _ p j
  have e17 : broadcastTo S10000x128 v17 broadcasts_S1x128_S10000x128 (ix2 p j) = v17 (ix2 0 j) :=
    broadcastTo_1b_ab_apply v17 _ p j
  have e14 : broadcastTo S10000x128
        (rsqrt (addf v10 (broadcast S1x128 (Scalar.ofBits (F := Ideal) .f32 0x3727C5AC#32)))) broadcasts_S1x128_S10000x128 (ix2 p j)
      = Ideal.rsqrt (v10 (ix2 0 j) + Ideal.ofBits .f32 0x3727C5AC#32) :=
    broadcastTo_1b_ab_apply _ _ p j
  show max (((broadcastTo S10000x128 v2 broadcasts_S1x128_S10000x128 (ix2 p j))
        * (v0 (ix2 p j) - broadcastTo S10000x128 v4 broadcasts_S1x128_S10000x128 (ix2 p j)))
        * broadcastTo S10000x128
            (rsqrt (addf v10 (broadcast S1x128 (Scalar.ofBits (F := Ideal) .f32 0x3727C5AC#32)))) broadcasts_S1x128_S10000x128 (ix2 p j)
      + broadcastTo S10000x128 v17 broadcasts_S1x128_S10000x128 (ix2 p j)) (Ideal.ofBits .f32 0x00000000#32) = _
  rw [e2, e4, e14, e17]

/-- The first projection at `(p, o)`: the activation's row `p` against column `o` of the first weight matrix. -/
theorem proj_apply (v0 : Vec Ideal S10000x128 .f32) (v2 v4 v10 v17 : Vec Ideal S1x128 .f32) (v23 : Vec Ideal S128x47 .f32)
    (p : Fin 10000) (o : Fin 47) :
    k1_pay2 (F := Ideal) v0 v2 v4 v10 v17 v23 (ix2 p o)
      = ∑ j : Fin 128, k1_pay1 (F := Ideal) v0 v2 v4 v10 v17 (ix2 p j) * v23 (ix2 j o) := by
  unfold k1_pay2
  rw [shapeCast_self]
  exact Cert.Lib.MatDot.matmul_zero_apply _ none _ _ p o

/-- The second projection at `(p, o)`: the same row against column `o` of the second weight matrix. -/
theorem proj2_apply (v0 : Vec Ideal S10000x128 .f32) (v2 v4 v10 v17 : Vec Ideal S1x128 .f32) (v27 : Vec Ideal S128x47 .f32)
    (p : Fin 10000) (o : Fin 47) :
    k1_pay3 (F := Ideal) v0 v2 v4 v10 v17 v27 (ix2 p o)
      = ∑ j : Fin 128, k1_pay1 (F := Ideal) v0 v2 v4 v10 v17 (ix2 p j) * v27 (ix2 j o) := by
  unfold k1_pay3
  rw [shapeCast_self]
  exact Cert.Lib.MatDot.matmul_zero_apply _ none _ _ p o

/-! ## The third kernel: the mean of the neighbours' projections, the offset, the row's own projection; normalised -/

/-- The combined row before it is normalised, at `(p, o)`: the aggregated projection divided by the degree clamped below
    at one, plus the offset, plus the row's own projection. -/
def comb_out (v0 : Vec Ideal S10000x47 .f32) (v2 : Vec Ideal S10000x1 .f32) (v8 : Vec Ideal S1x47 .f32)
    (v12 : Vec Ideal S10000x47 .f32) (p : Fin 10000) (o : Fin 47) : EReal :=
  ((Ideal.div (v0 (ix2 p o)) (max (v2 (ix2 p 0)) (Ideal.ofBits .f32 0x3F800000#32))) + v8 (ix2 0 o)) + v12 (ix2 p o)

/-- The same as the matrix the kernel forms. -/
def combVec (v0 : Vec Ideal S10000x47 .f32) (v2 : Vec Ideal S10000x1 .f32) (v8 : Vec Ideal S1x47 .f32)
    (v12 : Vec Ideal S10000x47 .f32) : FVec Ideal S10000x47 .f32 :=
  addf (addf (divf v0 (broadcastTo S10000x47 (maximumf v2 (broadcast S10000x1 (Scalar.ofBits (F := Ideal) .f32 0x3F800000#32)))
      broadcasts_S10000x1_S10000x47)) (broadcastTo S10000x47 v8 broadcasts_S1x47_S10000x47)) v12

theorem combVec_apply (v0 : Vec Ideal S10000x47 .f32) (v2 : Vec Ideal S10000x1 .f32) (v8 : Vec Ideal S1x47 .f32)
    (v12 : Vec Ideal S10000x47 .f32) (p : Fin 10000) (o : Fin 47) :
    combVec v0 v2 v8 v12 (ix2 p o) = comb_out v0 v2 v8 v12 p o := by
  have e2 : broadcastTo S10000x47 (maximumf v2 (broadcast S10000x1 (Scalar.ofBits (F := Ideal) .f32 0x3F800000#32)))
        broadcasts_S10000x1_S10000x47 (ix2 p o) = max (v2 (ix2 p 0)) (Ideal.ofBits .f32 0x3F800000#32) :=
    Cert.Lib.MatDot.broadcastTo_col_apply _ _ p o
  have e8 : broadcastTo S10000x47 v8 broadcasts_S1x47_S10000x47 (ix2 p o) = v8 (ix2 0 o) :=
    broadcastTo_1b_ab_apply v8 _ p o
  show (Ideal.div (v0 (ix2 p o)) (broadcastTo S10000x47 (maximumf v2 (broadcast S10000x1 (Scalar.ofBits (F := Ideal) .f32 0x3F800000#32)))
        broadcasts_S10000x1_S10000x47 (ix2 p o)) + broadcastTo S10000x47 v8 broadcasts_S1x47_S10000x47 (ix2 p o)) + v12 (ix2 p o) = _
  rw [e2, e8]
  rfl

/-- The third kernel's output at `(p, o)`: the combined row's entry over the row's length, the length clamped below. -/
theorem comb_apply (v0 : Vec Ideal S10000x47 .f32) (v2 : Vec Ideal S10000x1 .f32) (v8 : Vec Ideal S1x47 .f32)
    (v12 : Vec Ideal S10000x47 .f32) (p : Fin 10000) (o : Fin 47) :
    k2_pay1 (F := Ideal) v0 v2 v8 v12 (ix2 p o)
      = Ideal.div (comb_out v0 v2 v8 v12 p o)
          (max (Ideal.sqrt (∑ o' : Fin 47, comb_out v0 v2 v8 v12 p o' * comb_out v0 v2 v8 v12 p o')) (Ideal.ofBits .f32 0x2B8CBCCC#32)) := by
  unfold k2_pay1
  simp only [shapeCast_self]
  refine (rowNormalize_apply (combVec v0 v2 v8 v12) _ _ _ _ _ _ p o).trans ?_
  simp only [combVec_apply]

end Cert.KernelIdeal.Pay

end
-- ==== Proof.KVal0.lean ====
import proofs.«162611_j39075612459051_2_alg».proof.Proof.LaunchKernelIdeal
import proofs.«162611_j39075612459051_2_alg».proof.Proof.Gen.KernelIdeal.Skeleton
import proofs.«162611_j39075612459051_2_alg».proof.Proof.Gen.KernelIdeal.Points
import proofs.«162611_j39075612459051_2_alg».proof.Proof.KBlocks
import proofs.«162611_j39075612459051_2_alg».proof.Proof.KernelPayloads
import Idealize.ShloMosaic.Lib.ValueIdx
import Idealize.ShloMosaic.PureOps.Ideal.Laws
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! # What the first kernel region leaves in its three output arrays, at the exact instance

Row `n` of the first output is the row-normalised sum of the two matrix products and the bias; the second and third
outputs are the column sums, over all rows, of those normalised rows and of their squares — accumulated a block of
10000 rows at a time. -/

/-- Before the normalisation: entry `(n, j)` from the aggregated rows, the degrees, the rows themselves, the two
    weight matrices (contracted feature first) and the bias row. -/
def rowsU (A : S100000x128.Idx → EReal) (D : S100000x1.Idx → EReal) (X : S100000x128.Idx → EReal)
    (Wl : S128x128.Idx → EReal) (B : S1x128.Idx → EReal) (Wr : S128x128.Idx → EReal) (n : Fin 100000) (j : Fin 128) : EReal :=
  ((∑ k : Fin 128, Ideal.div (A (ix2 n k)) (max (D (ix2 n 0)) (Ideal.ofBits .f32 0x3F800000#32)) * Wl (ix2 k j)) + B (ix2 0 j))
    + ∑ k : Fin 128, X (ix2 n k) * Wr (ix2 k j)

/-- The row-normalised rows. -/
def rowsA (A : S100000x128.Idx → EReal) (D : S100000x1.Idx → EReal) (X : S100000x128.Idx → EReal)
    (Wl : S128x128.Idx → EReal) (B : S1x128.Idx → EReal) (Wr : S128x128.Idx → EReal) : S100000x128.Idx → EReal :=
  fun i => Ideal.div (rowsU A D X Wl B Wr (i 0) (i 1))
    (max (Ideal.sqrt (∑ j' : Fin 128, rowsU A D X Wl B Wr (i 0) j' * rowsU A D X Wl B Wr (i 0) j')) (Ideal.ofBits .f32 0x2B8CBCCC#32))

/-- The sum window is its whole one-row array at every point. -/
theorem embc0_7 (t : Fin cfg0.N) (y : S1x128.Idx) : ((cfg0.win 7).blk t).view.emb y = y := by
  funext a; apply Fin.ext
  match a with
  | ⟨0, _⟩ => show win0_7.index t (0 : Fin 2) * 1 + 1 * (y 0).val = (y 0).val; rw [(idx0_facts t).2.2.2.2.2.2.2.2.2.2.2.2.2.2.1]; omega
  | ⟨1, _⟩ => show win0_7.index t (1 : Fin 2) * 128 + 1 * (y 1).val = (y 1).val; rw [(idx0_facts t).2.2.2.2.2.2.2.2.2.2.2.2.2.2.2.1]; omega
theorem memc0_7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v22_1).slice (win0_7.rect t)).set ↔ _
  rw [View.set_slice_whole, Rect.mem_set_unit]
  exact Iff.rfl
/-- The last point writes the window back, and its block is the whole array. -/
theorem coverc0_7 (i : S1x128.Idx) : ∃ t : Fin cfg0.N, (cfg0.win 7).flush t = true ∧ i ∈ ((cfg0.win 7).blk t).view.set := by
  have hi0 : (i 0).val < 1 := (i 0).isLt
  have hi1 : (i 1).val < 128 := (i 1).isLt
  have hN : cfg0.N = 10 := N_0
  refine ⟨⟨9, by rw [hN]; omega⟩, (flush0_7 _).mpr (by rfl), ?_⟩
  rw [memc0_7]
  intro a
  match a with
  | ⟨0, _⟩ =>
    show win0_7.index _ (0 : Fin 2) * 1 ≤ (i 0).val ∧ (i 0).val < win0_7.index _ (0 : Fin 2) * 1 + 1
    rw [(idx0_facts _).2.2.2.2.2.2.2.2.2.2.2.2.2.2.1]; omega
  | ⟨1, _⟩ =>
    show win0_7.index _ (1 : Fin 2) * 128 ≤ (i 1).val ∧ (i 1).val < win0_7.index _ (1 : Fin 2) * 128 + 128
    rw [(idx0_facts _).2.2.2.2.2.2.2.2.2.2.2.2.2.2.2.1]; omega

/-- The sum-of-squares window is its whole one-row array at every point. -/
theorem embc0_8 (t : Fin cfg0.N) (y : S1x128.Idx) : ((cfg0.win 8).blk t).view.emb y = y := by
  funext a; apply Fin.ext
  match a with
  | ⟨0, _⟩ => show win0_8.index t (0 : Fin 2) * 1 + 1 * (y 0).val = (y 0).val; rw [(idx0_facts t).2.2.2.2.2.2.2.2.2.2.2.2.2.2.2.2.1]; omega
  | ⟨1, _⟩ => show win0_8.index t (1 : Fin 2) * 128 + 1 * (y 1).val = (y 1).val; rw [(idx0_facts t).2.2.2.2.2.2.2.2.2.2.2.2.2.2.2.2.2]; omega
theorem memc0_8 (t : Fin cfg0.N) (i : S1x128.Idx) :
    i ∈ ((cfg0.win 8).blk t).view.set ↔ ∀ a : Fin 2, win0_8.index t a * S1x128.size a ≤ (i a).val ∧ (i a).val < win0_8.index t a * S1x128.size a + S1x128.size a := by
  show i ∈ ((View.whole main_v22_2).slice (win0_8.rect t)).set ↔ _
  rw [View.set_slice_whole, Rect.mem_set_unit]
  exact Iff.rfl
/-- The last point writes the window back, and its block is the whole array. -/
theorem coverc0_8 (i : S1x128.Idx) : ∃ t : Fin cfg0.N, (cfg0.win 8).flush t = true ∧ i ∈ ((cfg0.win 8).blk t).view.set := by
  have hi0 : (i 0).val < 1 := (i 0).isLt
  have hi1 : (i 1).val < 128 := (i 1).isLt
  have hN : cfg0.N = 10 := N_0
  refine ⟨⟨9, by rw [hN]; omega⟩, (flush0_8 _).mpr (by rfl), ?_⟩
  rw [memc0_8]
  intro a
  match a with
  | ⟨0, _⟩ =>
    show win0_8.index _ (0 : Fin 2) * 1 ≤ (i 0).val ∧ (i 0).val < win0_8.index _ (0 : Fin 2) * 1 + 1
    rw [(idx0_facts _).2.2.2.2.2.2.2.2.2.2.2.2.2.2.2.2.1]; omega
  | ⟨1, _⟩ =>
    show win0_8.index _ (1 : Fin 2) * 128 ≤ (i 1).val ∧ (i 1).val < win0_8.index _ (1 : Fin 2) * 128 + 128
    rw [(idx0_facts _).2.2.2.2.2.2.2.2.2.2.2.2.2.2.2.2.2]; omega

section
variable (V : (c : Dev nD) → (b : Ref sig .tc) → Buf (Elt Ideal) ((c : Thread nD τ).loc b))

/-- Row `10000 t + p` of the array. -/
abbrev rowOf (t : Fin cfg0.N) (p : Fin 10000) : Fin 100000 :=
  ⟨t.val * 10000 + p.val, by have := t.isLt; have : cfg0.N = 10 := N_0; have := p.isLt; omega⟩

/-- The normalised rows of block `t` are rows `10000 t …` of the normalised rows of the arrays. -/
theorem hAt_apply (c : Dev nD) (t : Fin cfg0.N) (p : Fin 10000) (j : Fin 128) :
    hAt V c t (ix2 p j) = rowsA (V c main_v18) (V c main_v8) (V c main_arg0) (V c main_v19) (V c main_v21) (V c main_v20) (ix2 (rowOf t p) j) := by
  unfold hAt hrow
  rw [Cert.KernelIdeal.Pay.pay5_apply]
  have hu : ∀ j' : Fin 128, Cert.KernelIdeal.Pay.pay5_out (blk0 V c 0 t) (blk0 V c 1 t) (blk0 V c 3 t) (blk0 V c 4 t) (blk0 V c 2 t) (blk0 V c 5 t) p j'
      = rowsU (V c main_v18) (V c main_v8) (V c main_arg0) (V c main_v19) (V c main_v21) (V c main_v20) (rowOf t p) j' := by
    intro j'
    unfold Cert.KernelIdeal.Pay.pay5_out rowsU
    simp only [blk0_0_apply, blk0_1_apply, blk0_2_apply, blk0_3_apply, blk0_4_apply, blk0_5_apply]
  simp only [hu]
  rfl

/-- What point `t` writes back into the first output is block `t` of the normalised rows. -/
theorem flushed0_6 (c : Dev nD) (t : Fin cfg0.N) :
    (dat0 V c).flushed 6 t = ((cfg0.win 6).blk t).view.read (Elt Ideal) (rowsA (V c main_v18) (V c main_v8) (V c main_arg0) (V c main_v19) (V c main_v21) (V c main_v20)) := by
  show (cfg0.win 6).cut (grid0.coords t) ((dat0 V c).after 6 t) = _
  rw [dat0_after6]
  funext y
  obtain ⟨p, j, rfl⟩ : ∃ (p : Fin 10000) (j : Fin 128), y = ix2 p j := ⟨y 0, y 1, eq_ix2 y⟩
  show hAt V c t (ix2 p j) = rowsA (V c main_v18) (V c main_v8) (V c main_arg0) (V c main_v19) (V c main_v21) (V c main_v20) (((cfg0.win 6).blk t).view.emb (ix2 p j))
  rw [emb0_6]
  exact hAt_apply V c t p j

/-- The first output array after the region. -/
theorem final0_6 (c : Dev nD) : (dat0 V c).arrAt 6 cfg0.N = rowsA (V c main_v18) (V c main_v8) (V c main_arg0) (V c main_v19) (V c main_v21) (V c main_v20) :=
  (dat0 V c).arrAt_eq_of_cover 6 _ (fun t _ => flushed0_6 V c t) cover0_6

theorem nine_lt : 9 < cfg0.N := by have : cfg0.N = 10 := N_0; omega

/-- The two sum outputs are written back once, at the last point, at the running sums of all ten blocks. -/
theorem final0_7 (c : Dev nD) : (dat0 V c).arrAt 7 cfg0.N = sumAt V c 9 nine_lt := by
  refine (dat0 V c).arrAt_eq_of_cover 7 _ (fun t hf => ?_) coverc0_7
  have ht : t.val = 9 := by have := (flush0_7 t).mp hf; have := t.isLt; have : cfg0.N = 10 := N_0; omega
  obtain rfl : t = ⟨9, nine_lt⟩ := Fin.ext ht
  show (cfg0.win 7).cut (grid0.coords _) ((dat0 V c).after 7 _) = _
  rw [dat0_after7]
  funext y
  show sumAt V c 9 nine_lt y = sumAt V c 9 nine_lt (((cfg0.win 7).blk _).view.emb y)
  rw [embc0_7]
theorem final0_8 (c : Dev nD) : (dat0 V c).arrAt 8 cfg0.N = sqAt V c 9 nine_lt := by
  refine (dat0 V c).arrAt_eq_of_cover 8 _ (fun t hf => ?_) coverc0_8
  have ht : t.val = 9 := by have := (flush0_8 t).mp hf; have := t.isLt; have : cfg0.N = 10 := N_0; omega
  obtain rfl : t = ⟨9, nine_lt⟩ := Fin.ext ht
  show (cfg0.win 8).cut (grid0.coords _) ((dat0 V c).after 8 _) = _
  rw [dat0_after8]
  funext y
  show sqAt V c 9 nine_lt y = sqAt V c 9 nine_lt (((cfg0.win 8).blk _).view.emb y)
  rw [embc0_8]

/-- The column sum of block `t`'s normalised rows (zero past the grid). -/
def blockSum (c : Dev nD) (j : Fin 128) (t : ℕ) : EReal :=
  if h : t < cfg0.N then ∑ p : Fin 10000, hAt V c ⟨t, h⟩ (ix2 p j) else 0
/-- The same for the squares. -/
def blockSq (c : Dev nD) (j : Fin 128) (t : ℕ) : EReal :=
  if h : t < cfg0.N then ∑ p : Fin 10000, hAt V c ⟨t, h⟩ (ix2 p j) * hAt V c ⟨t, h⟩ (ix2 p j) else 0

/-- The running sum after point `n` is the sum of the first `n + 1` block sums. -/
theorem sumAt_apply (c : Dev nD) (j : Fin 128) : ∀ (n : ℕ) (hn : n < cfg0.N),
    sumAt V c n hn (ix2 0 j) = ∑ t ∈ Finset.range (n + 1), blockSum V c j t
  | 0, hn => by
    show k0_pay1 (F := Ideal) (hAt V c ⟨0, hn⟩) (k0_pay3 (F := Ideal)) (ix2 0 j) = _
    rw [Cert.KernelIdeal.Pay.pay1_apply, Cert.KernelIdeal.Pay.pay3_apply, zero_add, Finset.sum_range_one]
    unfold blockSum; rw [dif_pos hn]
  | n + 1, hn => by
    show k0_pay1 (F := Ideal) (hAt V c ⟨n + 1, hn⟩) (sumAt V c n (Nat.lt_of_succ_lt hn)) (ix2 0 j) = _
    rw [Cert.KernelIdeal.Pay.pay1_apply, sumAt_apply c j n (Nat.lt_of_succ_lt hn), Finset.sum_range_succ _ (n + 1)]
    congr 1
    unfold blockSum; rw [dif_pos hn]
theorem sqAt_apply (c : Dev nD) (j : Fin 128) : ∀ (n : ℕ) (hn : n < cfg0.N),
    sqAt V c n hn (ix2 0 j) = ∑ t ∈ Finset.range (n + 1), blockSq V c j t
  | 0, hn => by
    show k0_pay2 (F := Ideal) (hAt V c ⟨0, hn⟩) (k0_pay4 (F := Ideal)) (ix2 0 j) = _
    rw [Cert.KernelIdeal.Pay.pay2_apply, Cert.KernelIdeal.Pay.pay4_apply, zero_add, Finset.sum_range_one]
    unfold blockSq; rw [dif_pos hn]
  | n + 1, hn => by
    show k0_pay2 (F := Ideal) (hAt V c ⟨n + 1, hn⟩) (sqAt V c n (Nat.lt_of_succ_lt hn)) (ix2 0 j) = _
    rw [Cert.KernelIdeal.Pay.pay2_apply, sqAt_apply c j n (Nat.lt_of_succ_lt hn), Finset.sum_range_succ _ (n + 1)]
    congr 1
    unfold blockSq; rw [dif_pos hn]

end

end Cert.KernelIdeal.Hand

end
-- ==== Proof.KVal1.lean ====
import proofs.«162611_j39075612459051_2_alg».proof.Proof.LaunchKernelIdeal
import proofs.«162611_j39075612459051_2_alg».proof.Proof.Gen.KernelIdeal.Skeleton
import proofs.«162611_j39075612459051_2_alg».proof.Proof.Gen.KernelIdeal.Points
import proofs.«162611_j39075612459051_2_alg».proof.Proof.KBlocks
import proofs.«162611_j39075612459051_2_alg».proof.Proof.KernelPayloads
import Idealize.ShloMosaic.Lib.ValueIdx
import Idealize.ShloMosaic.PureOps.Ideal.Laws
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! # What the second kernel region leaves in its two output arrays, at the exact instance

Row `n` of the first output is the activations of row `n` — the batch-normalised row, scaled, shifted and rectified —
against the neighbour weights; row `n` of the second is the same activations against the self weights. -/

/-- The activation of row `n`, feature `j`: from the rows `H`, the mean, variance, scale and shift rows. -/
def actA (H : S100000x128.Idx → EReal) (mean var gam bet : S1x128.Idx → EReal) (n : Fin 100000) (j : Fin 128) : EReal :=
  max (((gam (ix2 0 j) * (H (ix2 n j) - mean (ix2 0 j))) * Ideal.rsqrt (var (ix2 0 j) + Ideal.ofBits .f32 0x3727C5AC#32)) + bet (ix2 0 j)) (Ideal.ofBits .f32 0x00000000#32)

/-- Rows of activations against a weight matrix given with the contracted feature first. -/
def projA (act : Fin 100000 → Fin 128 → EReal) (Wt : S128x47.Idx → EReal) : S100000x47.Idx → EReal :=
  fun i => ∑ j : Fin 128, act (i 0) j * Wt (ix2 j (i 1))

section
variable (V : (c : Dev nD) → (b : Ref sig .tc) → Buf (Elt Ideal) ((c : Thread nD τ).loc b))

/-- The activations the region computes, from the arrays it is entered with. -/
abbrev act1 (c : Dev nD) : Fin 100000 → Fin 128 → EReal :=
  actA (V c main_v22_0) (V c main_v35) (V c main_v36) (V c main_v37) (V c main_v38)

/-- What point `t` writes back into the first output is block `t` of the projected activations. -/
theorem flushed1_7 (c : Dev nD) (t : Fin cfg1.N) :
    (dat1 V c).flushed 7 t = ((cfg1.win 7).blk t).view.read (Elt Ideal) (projA (act1 V c) (V c main_v33)) := by
  show (cfg1.win 7).cut (grid1.coords t) ((dat1 V c).after 7 t) = _
  rw [dat1_after7]
  unfold res1z
  rw [View.canon_unit_zero off2]
  simp only [View.ld_unit_zero (S := S10000x128) off2, View.ld_unit_zero (S := S1x128) off2, View.ld_unit_zero (S := S128x47) off2]
  funext y
  obtain ⟨p, o, rfl⟩ : ∃ (p : Fin 10000) (o : Fin 47), y = ix2 p o := ⟨y 0, y 1, eq_ix2 y⟩
  show k1_pay2 (F := Ideal) (blk1 V c 0 t) (blk1 V c 3 t) (blk1 V c 1 t) (blk1 V c 2 t) (blk1 V c 4 t) (blk1 V c 5 t) (ix2 p o)
    = projA (act1 V c) (V c main_v33) (((cfg1.win 7).blk t).view.emb (ix2 p o))
  rw [Cert.KernelIdeal.Pay.proj_apply, emb1_7]
  unfold projA
  refine Finset.sum_congr rfl fun j _ => ?_
  rw [Cert.KernelIdeal.Pay.act_apply, blk1_0_apply, blk1_1_apply, blk1_2_apply, blk1_3_apply, blk1_4_apply, blk1_5_apply]
  rfl

/-- The same for the second output and the self weights. -/
theorem flushed1_8 (c : Dev nD) (t : Fin cfg1.N) :
    (dat1 V c).flushed 8 t = ((cfg1.win 8).blk t).view.read (Elt Ideal) (projA (act1 V c) (V c main_v34)) := by
  show (cfg1.win 8).cut (grid1.coords t) ((dat1 V c).after 8 t) = _
  rw [dat1_after8]
  unfold res1r
  rw [View.canon_unit_zero off2]
  simp only [View.ld_unit_zero (S := S10000x128) off2, View.ld_unit_zero (S := S1x128) off2, View.ld_unit_zero (S := S128x47) off2]
  funext y
  obtain ⟨p, o, rfl⟩ : ∃ (p : Fin 10000) (o : Fin 47), y = ix2 p o := ⟨y 0, y 1, eq_ix2 y⟩
  show k1_pay3 (F := Ideal) (blk1 V c 0 t) (blk1 V c 3 t) (blk1 V c 1 t) (blk1 V c 2 t) (blk1 V c 4 t) (blk1 V c 6 t) (ix2 p o)
    = projA (act1 V c) (V c main_v34) (((cfg1.win 8).blk t).view.emb (ix2 p o))
  rw [Cert.KernelIdeal.Pay.proj2_apply, emb1_8]
  unfold projA
  refine Finset.sum_congr rfl fun j _ => ?_
  rw [Cert.KernelIdeal.Pay.act_apply, blk1_0_apply, blk1_1_apply, blk1_2_apply, blk1_3_apply, blk1_4_apply, blk1_6_apply]
  rfl

/-- The first output array after the region. -/
theorem final1_7 (c : Dev nD) : (dat1 V c).arrAt 7 cfg1.N = projA (act1 V c) (V c main_v33) :=
  (dat1 V c).arrAt_eq_of_cover 7 _ (fun t _ => flushed1_7 V c t) cover1_7
/-- The second output array after the region. -/
theorem final1_8 (c : Dev nD) : (dat1 V c).arrAt 8 cfg1.N = projA (act1 V c) (V c main_v34) :=
  (dat1 V c).arrAt_eq_of_cover 8 _ (fun t _ => flushed1_8 V c t) cover1_8

end

end Cert.KernelIdeal.Hand

end
-- ==== Proof.KVal2.lean ====
import proofs.«162611_j39075612459051_2_alg».proof.Proof.LaunchKernelIdeal
import proofs.«162611_j39075612459051_2_alg».proof.Proof.Gen.KernelIdeal.Skeleton
import proofs.«162611_j39075612459051_2_alg».proof.Proof.Gen.KernelIdeal.Points
import proofs.«162611_j39075612459051_2_alg».proof.Proof.KBlocks
import proofs.«162611_j39075612459051_2_alg».proof.Proof.KernelPayloads
import Idealize.ShloMosaic.Lib.ValueIdx
import Idealize.ShloMosaic.PureOps.Ideal.Laws
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! # What the third kernel region leaves in its output array, at the exact instance

Row `n` of the output is the row-normalised combination: the aggregated projections of row `n` over the clipped degree,
plus the bias, plus the self term of row `n`, divided by its clipped Euclidean norm. -/

/-- Before the normalisation: entry `(n, o)` from the aggregated projections, the degrees, the bias row and the self term. -/
def combU (A : S100000x47.Idx → EReal) (D : S100000x1.Idx → EReal) (B : S1x47.Idx → EReal) (Rs : S100000x47.Idx → EReal)
    (n : Fin 100000) (o : Fin 47) : EReal :=
  ((Ideal.div (A (ix2 n o)) (max (D (ix2 n 0)) (Ideal.ofBits .f32 0x3F800000#32))) + B (ix2 0 o)) + Rs (ix2 n o)

/-- The row-normalised combination. -/
def combA (A : S100000x47.Idx → EReal) (D : S100000x1.Idx → EReal) (B : S1x47.Idx → EReal) (Rs : S100000x47.Idx → EReal) :
    S100000x47.Idx → EReal :=
  fun i => Ideal.div (combU A D B Rs (i 0) (i 1))
    (max (Ideal.sqrt (∑ o' : Fin 47, combU A D B Rs (i 0) o' * combU A D B Rs (i 0) o')) (Ideal.ofBits .f32 0x2B8CBCCC#32))

section
variable (V : (c : Dev nD) → (b : Ref sig .tc) → Buf (Elt Ideal) ((c : Thread nD τ).loc b))

/-- What point `t` writes back is block `t` of the combination of the arrays the region is entered with. -/
theorem flushed2_4 (c : Dev nD) (t : Fin cfg2.N) :
    (dat2 V c).flushed 4 t = ((cfg2.win 4).blk t).view.read (Elt Ideal) (combA (V c main_v49) (V c main_v8) (V c main_v50) (V c main_v39_1)) := by
  show (cfg2.win 4).cut (grid2.coords t) ((dat2 V c).after 4 t) = _
  rw [dat2_after4]
  unfold res2
  rw [View.canon_unit_zero off2]
  simp only [View.ld_unit_zero (S := S10000x47) off2, View.ld_unit_zero (S := S10000x1) off2, View.ld_unit_zero (S := S1x47) off2]
  funext y
  obtain ⟨p, o, rfl⟩ : ∃ (p : Fin 10000) (o : Fin 47), y = ix2 p o := ⟨y 0, y 1, eq_ix2 y⟩
  show k2_pay1 (F := Ideal) (blk2 V c 0 t) (blk2 V c 1 t) (blk2 V c 2 t) (blk2 V c 3 t) (ix2 p o)
    = combA (V c main_v49) (V c main_v8) (V c main_v50) (V c main_v39_1) (((cfg2.win 4).blk t).view.emb (ix2 p o))
  rw [Cert.KernelIdeal.Pay.comb_apply, emb2_4]
  have hu : ∀ o' : Fin 47, Cert.KernelIdeal.Pay.comb_out (blk2 V c 0 t) (blk2 V c 1 t) (blk2 V c 2 t) (blk2 V c 3 t) p o'
      = combU (V c main_v49) (V c main_v8) (V c main_v50) (V c main_v39_1)
          (⟨t.val * 10000 + p.val, by have := t.isLt; have : cfg2.N = 10 := N_2; have := p.isLt; omega⟩ : Fin 100000) o' := by
    intro o'
    unfold Cert.KernelIdeal.Pay.comb_out
    rw [blk2_0_apply, blk2_1_apply, blk2_2_apply, blk2_3_apply]
    rfl
  simp only [hu]
  rfl

/-- The output array after the region. -/
theorem final2_4 (c : Dev nD) :
    (dat2 V c).arrAt 4 cfg2.N = combA (V c main_v49) (V c main_v8) (V c main_v50) (V c main_v39_1) :=
  (dat2 V c).arrAt_eq_of_cover 4 _ (fun t _ => flushed2_4 V c t) cover2_4

end

end Cert.KernelIdeal.Hand

end
-- ==== Proof.EdgeRows.lean ====
import Idealize.ShloMosaic.PureOps.Ideal
import Idealize.ShloMosaic.Lib.ValueIdx

/-!
# The graph read off an array of edge ends

An array of 32-bit words with two rows and 800000 columns lists the edges of a graph on 100000 nodes: column
`e` holds, in row 0, the node edge `e` reads and, in row 1, the node it lands on.

* `srcRow a1 e`: the node edge `e` reads. The word in row 0 is read as a signed integer; a negative one has
  `100000` added to it (in 32-bit arithmetic, by a comparison with `0`, an addition and a selection); the
  result, read as a signed integer, is clamped into `[0, 99999]`, as a gather of rows clamps its row numbers.
* `dstEdges a1 n`: the edges that land on node `n`: those whose word in row 1, read as a signed integer,
  is `n` (a row number outside `[0, 100000)` lands nowhere), as a scatter of rows reads its row numbers.
* `mat`, `vec`: a two-axis (one-axis) array of extended reals as a function of its coordinates.
-/

noncomputable section

namespace Cert.EdgeRows

open Idealize.ShloMosaic Idealize.ShloMosaic.ValueIdx

/-- A two-axis array of extended reals as a function of its two coordinates. -/
abbrev mat {a b : Nat} (v : (⟨2, ![a, b]⟩ : Shape).Idx → EReal) : Fin a → Fin b → EReal :=
  fun p q => v (ix2 p q)

/-- A one-axis array of extended reals as a function of its coordinate. -/
abbrev vec {a : Nat} (v : (⟨1, ![a]⟩ : Shape).Idx → EReal) : Fin a → EReal := fun p => v (ix1 p)

/-- The word naming the node edge `e` reads: row 0 of the array of edge ends at `e`, with `100000` added
    (in 32-bit arithmetic) when it is negative as a signed integer. -/
def srcWord (a1 : IVec ⟨2, ![2, 800000]⟩ 32) (e : Fin 800000) : BitVec 32 :=
  Scalar.select (IntOp.cmpi .slt (a1 (ix2 (0 : Fin 2) e)) 0#32)
    (IntOp.addi (a1 (ix2 (0 : Fin 2) e)) 100000#32) (a1 (ix2 (0 : Fin 2) e))

/-- The node edge `e` reads: that word as a signed integer, clamped into `[0, 99999]`. -/
def srcRow (a1 : IVec ⟨2, ![2, 800000]⟩ 32) (e : Fin 800000) : Fin 100000 :=
  ⟨min (srcWord a1 e).toInt.toNat (100000 - 1), by omega⟩

/-- The edges that land on node `n`: those whose entry in row 1 of the array of edge ends, read as a signed
    integer, is `n`. -/
def dstEdges (a1 : IVec ⟨2, ![2, 800000]⟩ 32) (n : Fin 100000) : Finset (Fin 800000) :=
  Finset.univ.filter (fun e : Fin 800000 => (a1 (ix2 (1 : Fin 2) e)).toInt = (n.val : Int))

end Cert.EdgeRows

end
-- ==== Proof.LibGatherScatter.lean ====
/-
  Row gathers and a row scatter-add, read at an index.

  Three instances of the `gather` / `scatter` operations' dimension numbers that select whole rows of an array by a
  column `idx : [E, 1]` of row numbers, generic in the extents `N` (rows), `C` (columns), `E` (how many row
  numbers) and in the width `w` of the integer words:

  * `gather_rows1_apply`: from `x : [N]`, entry `e` of the result is `x` at row `idx[e, 0]`, read signed and
    clamped into `[0, N − 1]`;
  * `gather_rows2_apply`: from `x : [N, C]`, entry `(e, c)` of the result is `x` at row `idx[e, 0]` (read signed,
    clamped into `[0, N − 1]`) and column `c`;
  * `scatterAdd_rows2_apply`: adding the rows of `upd : [E, C]` into `x : [N, C]`, entry `(n, c)` of the result is
    `x[n, c]` plus the sum of `upd[e, c]` over those `e` whose row number `idx[e, 0]`, read signed and NOT clamped,
    equals `n` (a row number outside `[0, N)` contributes nowhere).
-/
import Idealize.ShloMosaic.PureOps.Ideal
import Idealize.ShloMosaic.PureOps.Ideal.Laws
import Idealize.ShloMosaic.Lib.ValueIdx

noncomputable section

open scoped BigOperators

namespace Cert.GatherScatter

open Idealize.ShloMosaic Idealize.ShloMosaic.ValueIdx

/-! ## A scatter's landing index, for any dimension numbers -/

/-- An update index `j` lands on the operand index `i` exactly when, on every operand axis, the signed start plus
    the window coordinate equals `i`'s coordinate. (The landing index exists only when that sum is inside the
    operand on every axis; a coordinate of `i` always is, so the in-range condition is implied by the equations.) -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro hs a
      have h1 := congrArg Fin.val (congrFun (Option.some.inj hs) a)
      simp only at h1
      have := h a
      omega
    · intro hs
      congr 1
      funext a
      refine Fin.ext ?_
      have := hs a
      simp only
      omega
  · rename_i h
    constructor
    · intro hs; exact absurd hs (by simp)
    · intro hs
      exfalso
      apply h
      intro a
      have := hs a
      have := (i a).isLt
      omega

/-! ## Adding rows `upd : [E, C]` into `x : [N, C]` at the row numbers `idx : [E, 1]`

The scatter's dimension numbers: update_window_dims `[1]` (an update's column is the window), inserted_window_dims
`[0]` (the operand's row axis carries no window), scatter_dims_to_operand_dims `[0]` (the one component of a scatter
index is a row number) and index_vector_dim `1`. Update `(e, c')` lands on row `idx[e, 0]`, read signed and not
clamped, and column `c'`; it is dropped when that row is outside `[0, N)`. -/

/-- Those dimension numbers for an operand `[N, C]`, scatter indices `[E, 1]` and updates `[E, C]`; their conditions
    `wf` are decided on a program's literal shapes. -/
abbrev addDims2 (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N C E w : Nat} (wf : ScatterDims.WF ⟨2, ![N, C]⟩ ⟨2, ![E, 1]⟩ ⟨2, ![E, C]⟩ [1] [0] [0] 1)

/-- On the row axis the start of update `(e, c')` is the row number `idx[e, 0]`, read signed. -/
theorem addDims2_start0 (idx : IVec ⟨2, ![E, 1]⟩ w) (e : Fin E) (c' : Fin C) :
    (addDims2 N C E wf).start (ix2 e c') idx 0 = (idx (ix2 e (0 : Fin 1))).toInt := by
  unfold ScatterDims.start
  rw [dif_pos (show (0 : Fin 2) ∈ (addDims2 N C E wf).scatterDimsToOperandDims from List.mem_singleton.mpr rfl)]
  have hsi : (addDims2 N C E wf).siIdx (ix2 e c') ⟨List.idxOf (0 : Fin 2) (addDims2 N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter indices do not address, the start is `0`. -/
theorem addDims2_start1 (idx : IVec ⟨2, ![E, 1]⟩ w) (e : Fin E) (c' : Fin C) :
    (addDims2 N C E wf).start (ix2 e c') idx 1 = 0 := by
  unfold ScatterDims.start
  rw [dif_neg (show (1 : Fin 2) ∉ ([0] : List (Fin 2)) by decide)]

/-- The row axis is an inserted one: its window coordinate is `0`. -/
theorem addDims2_window0 (e : Fin E) (c' : Fin C) :
    (addDims2 N C E wf).window (ix2 e c') 0 = 0 := by
  unfold ScatterDims.window
  have h0 : (0 : Fin 2) ∉ (addDims2 N C E wf).sKept :=
    show (0 : Fin 2) ∉ (List.finRange 2).filter (· ∉ ([0] : List (Fin 2))) by decide
  rw [dif_neg h0]

/-- The column axis carries the window: its window coordinate is the update's column `c'`. -/
theorem addDims2_window1 (e : Fin E) (c' : Fin C) :
    (addDims2 N C E wf).window (ix2 e c') 1 = c'.val := by
  unfold ScatterDims.window
  have h1 : (1 : Fin 2) ∈ (addDims2 N C E wf).sKept :=
    show (1 : Fin 2) ∈ (List.finRange 2).filter (· ∉ ([0] : List (Fin 2))) by decide
  rw [dif_pos h1]
  rfl

/-- Update `(e, c')` lands on `(n, c)` exactly when the columns agree and the row number `idx[e, 0]`, read signed,
    is `n`. -/
theorem addDims2_resultIdx?_iff (idx : IVec ⟨2, ![E, 1]⟩ w) (e : Fin E) (c' c : Fin C) (n : Fin N) :
    (addDims2 N C E wf).resultIdx? (ix2 e c') idx = some (ix2 n c) ↔
      c' = c ∧ (idx (ix2 e (0 : Fin 1))).toInt = (n.val : Int) := by
  rw [resultIdx?_eq_some_iff, Fin.forall_fin_two, addDims2_start0, addDims2_start1, addDims2_window0, addDims2_window1]
  show (idx (ix2 e (0 : Fin 1))).toInt + ((0 : Nat) : Int) = (n.val : Int) ∧ (0 : Int) + (c'.val : Int) = (c.val : Int) ↔ _
  constructor
  · rintro ⟨h1, h2⟩
    exact ⟨Fin.ext (by omega), by omega⟩
  · rintro ⟨rfl, h2⟩
    exact ⟨by omega, by omega⟩

/-- THE SCATTER-ADD READ AT `(n, c)`: the operand's entry plus the sum of the updates `upd[e, c]` over the `e` whose
    row number `idx[e, 0]`, read signed and not clamped, is `n`. The sum over the update indices `(e, c')` landing on
    `(n, c)` is split by coordinates; for each `e` the inner sum over `c'` has the single term `c' = c`. -/
theorem scatterAdd_rows2_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (addDims2 N C E wf) x idx upd (ix2 n c) =
      x (ix2 n c) + ∑ e ∈ Finset.univ.filter (fun e : Fin E => (idx (ix2 e (0 : Fin 1))).toInt = (n.val : Int)),
        upd (ix2 e c) := by
  unfold Ideal.hostScatterAdd
  congr 1
  rw [Finset.sum_filter, Finset.sum_filter, sum_idx2]
  refine Finset.sum_congr rfl fun e _ => ?_
  simp only [addDims2_resultIdx?_iff]
  by_cases h : (idx (ix2 e (0 : Fin 1))).toInt = (n.val : Int)
  · simp only [h, and_true, if_true]
    exact (Finset.sum_ite_eq' Finset.univ c _).trans (by simp)
  · simp only [h, and_false, if_false]
    exact Finset.sum_const_zero

end Scatter

/-! ## Reading rows of `x : [N, C]` at the row numbers `idx : [E, 1]`

The gather's dimension numbers: offset_dims `[1]` (the result's column axis runs over a slice), collapsed_slice_dims
`[0]` (a slice is one row), start_index_map `[0]` (the one component of a start index is a row number),
index_vector_dim `1`, slice_sizes `[1, C]`. Result element `(e, c)` is `x` at row `idx[e, 0]`, read as a signed integer
and clamped into `[0, N − 1]` (a gather clamps every start index so that the slice stays inside the operand), and
column `c`. -/

section Rows2
variable {α : Type}

/-- Those dimension numbers for an operand `[N, C]`, start indices `[E, 1]` and result `[E, C]`; their conditions `wf`
    are decided on a program's literal shapes. -/
abbrev rowsDims2 (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into `[0, N − 1]`, and
    column `c`. On the row axis the operand index is the clamped start alone (the axis is collapsed: no offset); on
    the column axis it is the offset `c` alone (the start index does not address it). -/
theorem gather_rows2_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims2 N C E wf) x idx (ix2 e c) =
      x (ix2 ⟨min (idx (ix2 e (0 : Fin 1))).toInt.toNat (N - 1), by omega⟩ c) := by
  unfold Host.gather
  congr 1
  funext a
  refine Fin.ext ?_
  match a with
  | ⟨0, _⟩ =>
    show (rowsDims2 N C E wf).start (ix2 e c) idx 0 + (rowsDims2 N C E wf).batchCoord (ix2 e c) 0
      + (rowsDims2 N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims2 N C E wf).startIndexMap from List.mem_singleton.mpr rfl)]
    have hsi : (rowsDims2 N C E wf).siIdx (ix2 e c) ⟨List.idxOf (0 : Fin 2) (rowsDims2 N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims2 N C E wf).start (ix2 e c) idx 1 + (rowsDims2 N C E wf).batchCoord (ix2 e c) 1
      + (rowsDims2 N C E wf).offCoord (ix2 e c) 1 = c.val
    have hs : (rowsDims2 N C E wf).start (ix2 e c) idx 1 = 0 := by
      unfold GatherDims.start
      rw [dif_neg (show (1 : Fin 2) ∉ ([0] : List (Fin 2)) by decide)]
    have ho : (rowsDims2 N C E wf).offCoord (ix2 e c) 1 = c.val := by
      unfold GatherDims.offCoord
      have h1' : (1 : Fin 2) ∈ (List.finRange 2).filter (· ∉ ([0] ++ [] : List (Fin 2))) := by decide
      have h1 : (1 : Fin 2) ∈ (rowsDims2 N C E wf).sKept := h1'
      rw [dif_pos h1]
      rfl
    rw [GatherDims.batchCoord_eq_zero _ _ _ List.not_mem_nil, hs, ho]
    omega

end Rows2

/-! ## Reading entries of `x : [N]` at the row numbers `idx : [E, 1]`

The same gather of a flat operand: offset_dims `[]`, collapsed_slice_dims `[0]`, start_index_map `[0]`,
index_vector_dim `1`, slice_sizes `[1]`. Result element `e` is `x` at `idx[e, 0]`, read signed and clamped into
`[0, N − 1]`. -/

section Rows1
variable {α : Type}

/-- Those dimension numbers for an operand `[N]`, start indices `[E, 1]` and result `[E]`; their conditions `wf` are
    decided on a program's literal shapes. -/
abbrev rowsDims1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the start index `idx[e, 0]`, read signed and clamped into
    `[0, N − 1]`. The operand's one axis is collapsed, so the operand index is the clamped start alone. -/
theorem gather_rows1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (rowsDims1 N E wf) x idx (ix1 e) =
      x (ix1 ⟨min (idx (ix2 e (0 : Fin 1))).toInt.toNat (N - 1), by omega⟩) := by
  unfold Host.gather
  congr 1
  funext a
  obtain rfl : a = 0 := Subsingleton.elim _ _
  refine Fin.ext ?_
  show (rowsDims1 N E wf).start (ix1 e) idx 0 + (rowsDims1 N E wf).batchCoord (ix1 e) 0
    + (rowsDims1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowsDims1 N E wf).startIndexMap from List.mem_singleton.mpr rfl)]
  have hsi : (rowsDims1 N E wf).siIdx (ix1 e) ⟨List.idxOf (0 : Fin 1) (rowsDims1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Rows1

/-! ## The same scatter-add as the host operation states it -/

section HostScatter
variable {N C E w : Nat} (wf : ScatterDims.WF ⟨2, ![N, C]⟩ ⟨2, ![E, 1]⟩ ⟨2, ![E, C]⟩ [1] [0] [0] 1)

/-- THE HOST'S SCATTER-ADD READ AT `(n, c)`, on the extended reals: the host's accumulating float scatter is the exact
    sum, so this is `scatterAdd_rows2_apply` stated at the host operation. Stated at generic extents, where passing from
    the host operation to the exact sum is a definitional unfolding; a use at literal extents matches it as it is
    written. -/
theorem Host_scatterAdd_rows2_apply (x : FVec Ideal ⟨2, ![N, C]⟩ .f32) (idx : IVec ⟨2, ![E, 1]⟩ w)
    (upd : FVec Ideal ⟨2, ![E, C]⟩ .f32) (n : Fin N) (c : Fin C) :
    Host.scatterAdd (F := Ideal) (addDims2 N C E wf) x idx upd (ix2 n c) =
      x (ix2 n c) + ∑ e ∈ Finset.univ.filter (fun e : Fin E => (idx (ix2 e (0 : Fin 1))).toInt = (n.val : Int)),
        upd (ix2 e c) :=
  scatterAdd_rows2_apply wf x idx upd n c

end HostScatter

end Cert.GatherScatter

end
-- ==== Proof.LibScatterCount.lean ====
import Idealize.ShloMosaic.PureOps.Ideal
import Idealize.ShloMosaic.PureOps.Ideal.Laws
import Idealize.ShloMosaic.Lib.ValueIdx
import proofs.«162611_j39075612459051_2_alg».proof.Proof.LibGatherScatter

/-!
# A scatter-add of entries into a flat array, read at an index

The `scatter` operation's dimension numbers that add the entries of `upd : [E]` into `x : [N]` at the
positions named by a column `idx : [E, 1]` of integer words, generic in the extents `N`, `E` and in the
width `w` of the words: update_window_dims `[]` (an update is a single entry: no window),
inserted_window_dims `[0]`, scatter_dims_to_operand_dims `[0]` (the one component of a scatter index is a
position), index_vector_dim `1`.

* `scatterAdd_rows1_apply`: entry `n` of the result is `x[n]` plus the sum of `upd[e]` over those `e` whose
  position `idx[e, 0]`, read signed and NOT clamped, equals `n` (a position outside `[0, N)` contributes
  nowhere). With every update `1` this counts the `e` that name `n`.
* `Host_scatterAdd_rows1_apply`: the same, stated at the host's accumulating float scatter on the extended
  reals.
-/

noncomputable section

open scoped BigOperators

namespace Cert.ScatterCount

open Idealize.ShloMosaic Idealize.ShloMosaic.ValueIdx

/-- A one-axis index set is its coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Those dimension numbers for an operand `[N]`, scatter indices `[E, 1]` and updates `[E]`; their
    conditions `wf` are decided on a program's literal shapes. -/
abbrev addDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Scatter
variable {N E w : Nat} (wf : ScatterDims.WF ⟨1, ![N]⟩ ⟨2, ![E, 1]⟩ ⟨1, ![E]⟩ [] [0] [0] 1)

/-- On the operand's one axis the start of update `e` is the position `idx[e, 0]`, read signed. -/
theorem addDims1_start0 (idx : IVec ⟨2, ![E, 1]⟩ w) (e : Fin E) :
    (addDims1 N E wf).start (ix1 e) idx 0 = (idx (ix2 e (0 : Fin 1))).toInt := by
  unfold ScatterDims.start
  rw [dif_pos (show (0 : Fin 1) ∈ (addDims1 N E wf).scatterDimsToOperandDims from List.mem_singleton.mpr rfl)]
  have hsi : (addDims1 N E wf).siIdx (ix1 e) ⟨List.idxOf (0 : Fin 1) (addDims1 N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted one: its window coordinate is `0`. -/
theorem addDims1_window0 (e : Fin E) : (addDims1 N E wf).window (ix1 e) 0 = 0 := by
  unfold ScatterDims.window
  have h0 : (0 : Fin 1) ∉ (addDims1 N E wf).sKept :=
    show (0 : Fin 1) ∉ (List.finRange 1).filter (· ∉ ([0] : List (Fin 1))) by decide
  rw [dif_neg h0]

/-- Update `e` lands on `n` exactly when the position `idx[e, 0]`, read signed, is `n`. -/
theorem addDims1_resultIdx?_iff (idx : IVec ⟨2, ![E, 1]⟩ w) (e : Fin E) (n : Fin N) :
    (addDims1 N E wf).resultIdx? (ix1 e) idx = some (ix1 n) ↔
      (idx (ix2 e (0 : Fin 1))).toInt = (n.val : Int) := by
  rw [GatherScatter.resultIdx?_eq_some_iff]
  constructor
  · intro hs
    have h0 := hs 0
    rw [addDims1_start0, addDims1_window0] at h0
    have h1 : (idx (ix2 e (0 : Fin 1))).toInt + ((0 : Nat) : Int) = (n.val : Int) := h0
    omega
  · intro hs a
    obtain rfl : a = 0 := Subsingleton.elim _ _
    rw [addDims1_start0, addDims1_window0]
    show (idx (ix2 e (0 : Fin 1))).toInt + ((0 : Nat) : Int) = (n.val : Int)
    omega

/-- THE SCATTER-ADD READ AT `n`: the operand's entry plus the sum of the updates `upd[e]` over the `e` whose
    position `idx[e, 0]`, read signed and not clamped, is `n`. -/
theorem scatterAdd_rows1_apply (x : (⟨1, ![N]⟩ : Shape).Idx → EReal) (idx : IVec ⟨2, ![E, 1]⟩ w)
    (upd : (⟨1, ![E]⟩ : Shape).Idx → EReal) (n : Fin N) :
    Ideal.hostScatterAdd (addDims1 N E wf) x idx upd (ix1 n) =
      x (ix1 n) + ∑ e ∈ Finset.univ.filter (fun e : Fin E => (idx (ix2 e (0 : Fin 1))).toInt = (n.val : Int)),
        upd (ix1 e) := by
  unfold Ideal.hostScatterAdd
  congr 1
  rw [Finset.sum_filter, Finset.sum_filter, sum_idx1]
  refine Finset.sum_congr rfl fun e _ => ?_
  simp only [addDims1_resultIdx?_iff]

end Scatter

section HostScatter
variable {N E w : Nat} (wf : ScatterDims.WF ⟨1, ![N]⟩ ⟨2, ![E, 1]⟩ ⟨1, ![E]⟩ [] [0] [0] 1)

/-- THE HOST'S SCATTER-ADD READ AT `n`, on the extended reals: the host's accumulating float scatter is the
    exact sum, so this is `scatterAdd_rows1_apply` stated at the host operation. -/
theorem Host_scatterAdd_rows1_apply (x : FVec Ideal ⟨1, ![N]⟩ .f32) (idx : IVec ⟨2, ![E, 1]⟩ w)
    (upd : FVec Ideal ⟨1, ![E]⟩ .f32) (n : Fin N) :
    Host.scatterAdd (F := Ideal) (addDims1 N E wf) x idx upd (ix1 n) =
      x (ix1 n) + ∑ e ∈ Finset.univ.filter (fun e : Fin E => (idx (ix2 e (0 : Fin 1))).toInt = (n.val : Int)),
        upd (ix1 e) :=
  scatterAdd_rows1_apply wf x idx upd n

end HostScatter

end Cert.ScatterCount

end
-- ==== Proof.LibExtendedReals.lean ====
import Idealize.ShloMosaic.PureOps.Ideal
import Idealize.ShloMosaic.PureOps.Ideal.Laws

/-!
# Real numbers among the extended reals

The exact reading of a float computation takes its values in the extended reals. Most of its algebra
holds only where no `∞ - ∞` or `0 * ∞` can occur, that is, on the entries that are real numbers. This
module names those entries and carries the property through the operations of the exact reading.

* `IsReal x`, `IsPos x`, `IsNonneg x`: the extended real `x` is a real number, a positive one, a
  nonnegative one.
* Closure: sums, products, negations, maxima, minima, absolute values and finite sums of reals are
  reals; a square of a real and a finite sum of nonnegative reals are nonnegative reals; a nonnegative
  real plus a positive real is a positive real; the exact quotient of a real (nonnegative real,
  positive real) by a positive real is a real (nonnegative real, positive real); the reciprocal square
  root of a positive real and the logistic function of a real are reals; whatever is clamped between two
  reals is a real; anything below `+∞` kept above a positive real is a positive real; an extended real
  strictly between `0` (or `-∞`) and `+∞` is a positive real (a real).
* `ste_collapse`: `h + (q - h) = q` for a real `h` and any extended real `q` (at `h = ±∞` it fails).
* `fold_max_lt_top`: a fold of `max` over reals, started below `+∞`, stays below `+∞`.
* The 32-bit float words the programs use, as the reals they denote: `2048`, `8192`, `2^25`, `2^24`,
  `1e-8`, `1e-5`, `127` and `1` are positive reals, `-128` and `-1` are reals, the word of `-∞` is
  below `+∞`, and the word of `1.0` is the extended real `1`.
-/

noncomputable section

open scoped BigOperators

namespace Cert.ExtendedReals

open Idealize.ShloMosaic

/-! ## Real entries among the extended reals -/

/-- An extended real that is (the coercion of) a real number. -/
def IsReal (x : EReal) : Prop := ∃ r : ℝ, x = (r : EReal)

/-- An extended real that is a positive real number. -/
def IsPos (x : EReal) : Prop := ∃ r : ℝ, 0 < r ∧ x = (r : EReal)

/-- An extended real that is a nonnegative real number. -/
def IsNonneg (x : EReal) : Prop := ∃ r : ℝ, 0 ≤ r ∧ x = (r : EReal)

theorem IsReal.coe (r : ℝ) : IsReal (r : EReal) := ⟨r, rfl⟩
theorem IsPos.isReal {x : EReal} (h : IsPos x) : IsReal x := let ⟨r, _, e⟩ := h; ⟨r, e⟩
theorem IsNonneg.isReal {x : EReal} (h : IsNonneg x) : IsReal x := let ⟨r, _, e⟩ := h; ⟨r, e⟩

theorem IsReal.ne_top {x : EReal} (h : IsReal x) : x ≠ ⊤ := by obtain ⟨r, rfl⟩ := h; exact EReal.coe_ne_top r
theorem IsReal.lt_top {x : EReal} (h : IsReal x) : x < ⊤ := lt_top_iff_ne_top.2 h.ne_top

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.maxr {x y : EReal} (hx : IsReal x) (hy : IsReal y) : IsReal (max x y) := by
  rcases le_total x y with h | h
  · rw [max_eq_right h]; exact hy
  · rw [max_eq_left h]; exact hx
theorem IsReal.minr {x y : EReal} (hx : IsReal x) (hy : IsReal y) : IsReal (min x y) := by
  rcases le_total x y with h | h
  · rw [min_eq_left h]; exact hx
  · rw [min_eq_right h]; exact hy
/-- The absolute value, as the exact instance reads it, of a real is a real. -/
theorem IsReal.abs {x : EReal} (hx : IsReal x) : IsReal (max x (-x)) := hx.maxr hx.neg

/-- A finite sum of reals is a real. -/
theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem IsNonneg.add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
/-- A finite sum of nonnegative reals is a nonnegative real. -/
theorem IsNonneg.sum {ι : Type*} (s : Finset ι) (f : ι → EReal) (h : ∀ i ∈ s, IsNonneg (f i)) : IsNonneg (∑ i ∈ s, f i) := by
  classical
  induction s using Finset.induction_on with
  | empty => exact ⟨0, le_refl 0, by simp⟩
  | insert a s ha ih =>
    rw [Finset.sum_insert ha]
    exact (h a (Finset.mem_insert_self a s)).add (ih fun i hi => h i (Finset.mem_insert_of_mem hi))
/-- The square of a real is a nonnegative real. -/
theorem IsReal.mul_self {x : EReal} (hx : IsReal x) : IsNonneg (x * x) := by
  obtain ⟨a, rfl⟩ := hx; exact ⟨a * a, mul_self_nonneg a, (EReal.coe_mul a a).symm⟩
theorem IsNonneg.add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩

/-- The exact instance's quotient of a real by a positive real is a real … -/
theorem IsReal.div {x y : EReal} (hx : IsReal x) (hy : IsPos y) : IsReal (Ideal.div x y) := by
  obtain ⟨b, hb, rfl⟩ := hy
  rw [Ideal.div_coe hb.ne' x]; exact hx.mul (IsReal.coe _)
/-- … of a nonnegative real, a nonnegative real … -/
theorem IsNonneg.div {x y : EReal} (hx : IsNonneg x) (hy : IsPos y) : IsNonneg (Ideal.div x y) := by
  obtain ⟨a, ha, rfl⟩ := hx; obtain ⟨b, hb, rfl⟩ := hy
  rw [Ideal.div_coe hb.ne' (a : EReal), ← EReal.coe_mul]
  exact ⟨a * (1 / b), mul_nonneg ha (by positivity), rfl⟩
/-- … and of a positive real, a positive real. -/
theorem IsPos.div {x y : EReal} (hx : IsPos x) (hy : IsPos y) : IsPos (Ideal.div x y) := by
  obtain ⟨a, ha, rfl⟩ := hx; obtain ⟨b, hb, rfl⟩ := hy
  rw [Ideal.div_coe hb.ne' (a : EReal), ← EReal.coe_mul]
  exact ⟨a * (1 / b), mul_pos ha (by positivity), rfl⟩

/-- The reciprocal square root of a positive real is a real. -/
theorem IsPos.rsqrt {x : EReal} (hx : IsPos x) : IsReal (Ideal.rsqrt x) := by
  obtain ⟨a, ha, rfl⟩ := hx
  rw [Ideal.rsqrt_coe, if_neg (not_lt.2 ha.le), if_neg ha.ne']; exact IsReal.coe _

/-- The logistic function of a real is a real. -/
theorem IsReal.logistic {x : EReal} (hx : IsReal x) : IsReal (Ideal.logistic x) := by
  obtain ⟨a, rfl⟩ := hx; rw [Ideal.logistic_coe]; exact IsReal.coe _

/-- Whatever is clamped between two reals is a real. -/
theorem isReal_clamp {lo hi : EReal} (hlo : IsReal lo) (hhi : IsReal hi) (t : EReal) : IsReal (min hi (max lo t)) := by
  induction t using EReal.rec with
  | bot => rw [max_eq_left bot_le]; exact hhi.minr hlo
  | top => rw [max_eq_right le_top, min_eq_left le_top]; exact hhi
  | coe r => exact hhi.minr (hlo.maxr (IsReal.coe r))

/-- Anything below `+∞`, kept above a positive real, is a positive real. -/
theorem isPos_max_of_lt_top {t e : EReal} (ht : t < ⊤) (he : IsPos e) : IsPos (max t e) := by
  obtain ⟨b, hb, rfl⟩ := he
  induction t using EReal.rec with
  | bot => rw [max_eq_right bot_le]; exact ⟨b, hb, rfl⟩
  | top => exact absurd ht (lt_irrefl _)
  | coe r =>
    rcases le_total (r : EReal) (b : EReal) with h | h
    · rw [max_eq_right h]; exact ⟨b, hb, rfl⟩
    · rw [max_eq_left h]; exact ⟨r, lt_of_lt_of_le hb (EReal.coe_le_coe_iff.1 h), rfl⟩

/-- An extended real strictly between `0` and `+∞` is a positive real. -/
theorem isPos_of_lt {x : EReal} (h0 : 0 < x) (ht : x < ⊤) : IsPos x := by
  induction x using EReal.rec with
  | bot => exact absurd h0 (not_lt.2 bot_le)
  | top => exact absurd ht (lt_irrefl _)
  | coe r => exact ⟨r, EReal.coe_pos.1 h0, rfl⟩

/-- An extended real strictly between `-∞` and `+∞` is a real. -/
theorem isReal_of_lt {x : EReal} (hb : ⊥ < x) (ht : x < ⊤) : IsReal x := by
  induction x using EReal.rec with
  | bot => exact absurd hb (lt_irrefl _)
  | top => exact absurd ht (lt_irrefl _)
  | coe r => exact ⟨r, rfl⟩

/-- The straight-through form collapses at a real: `h + (q - h) = q` for a real `h` and ANY `q`
    (at `q = ±∞` both sides are that infinity). -/
theorem ste_collapse {h : EReal} (hh : IsReal h) (q : EReal) : h + (q - h) = q := by
  obtain ⟨a, rfl⟩ := hh
  induction q using EReal.rec with
  | bot => simp
  | top => simp
  | coe r => rw [← EReal.coe_sub, ← EReal.coe_add]; exact congrArg _ (by ring)

/-- The maximum from the word of `-∞` of reals is below `+∞`. -/
theorem fold_max_lt_top {ι : Type*} (s : Finset ι) (f : ι → EReal) (b : EReal) (hb : b < ⊤) (h : ∀ i ∈ s, IsReal (f i)) :
    s.fold max b f < ⊤ :=
  (Finset.fold_max_lt _).2 ⟨hb, fun i hi => (h i hi).lt_top⟩

/-! ## The literal words -/

theorem word_n2048 : IsPos (Ideal.ofBits .f32 0x45000000#32) := by
  refine isPos_of_lt ?_ ?_ <;> simp [Ideal.ofBits, Ideal.ieee, -EReal.coe_mul] <;> norm_num
theorem word_n8192 : IsPos (Ideal.ofBits .f32 0x46000000#32) := by
  refine isPos_of_lt ?_ ?_ <;> simp [Ideal.ofBits, Ideal.ieee, -EReal.coe_mul] <;> norm_num
theorem word_N25 : IsPos (Ideal.ofBits .f32 0x4C000000#32) := by
  refine isPos_of_lt ?_ ?_ <;> simp [Ideal.ofBits, Ideal.ieee, -EReal.coe_mul] <;> norm_num
theorem word_N24 : IsPos (Ideal.ofBits .f32 0x4B800000#32) := by
  refine isPos_of_lt ?_ ?_ <;> simp [Ideal.ofBits, Ideal.ieee, -EReal.coe_mul] <;> norm_num
theorem word_eps8 : IsPos (Ideal.ofBits .f32 0x322BCC77#32) := by
  refine isPos_of_lt ?_ ?_ <;> simp [Ideal.ofBits, Ideal.ieee, -EReal.coe_mul] <;> norm_num
theorem word_eps5 : IsPos (Ideal.ofBits .f32 0x3727C5AC#32) := by
  refine isPos_of_lt ?_ ?_ <;> simp [Ideal.ofBits, Ideal.ieee, -EReal.coe_mul] <;> norm_num
theorem word_127 : IsPos (Ideal.ofBits .f32 0x42FE0000#32) := by
  refine isPos_of_lt ?_ ?_ <;> simp [Ideal.ofBits, Ideal.ieee, -EReal.coe_mul] <;> norm_num
theorem word_one : IsPos (Ideal.ofBits .f32 0x3F800000#32) := by
  refine isPos_of_lt ?_ ?_ <;> simp [Ideal.ofBits, Ideal.ieee, -EReal.coe_mul] <;> norm_num
theorem word_m128 : IsReal (Ideal.ofBits .f32 0xC3000000#32) :=
  ⟨-128, by simp [Ideal.ofBits, Ideal.ieee, -EReal.coe_mul]; norm_num⟩
theorem word_mone : IsReal (Ideal.ofBits .f32 0xBF800000#32) :=
  ⟨-1, by simp [Ideal.ofBits, Ideal.ieee, -EReal.coe_mul]; norm_num⟩
theorem word_ninf_lt_top : Ideal.ofBits .f32 0xFF800000#32 < (⊤ : EReal) := by
  simp [Ideal.ofBits, Ideal.ieee]
/-- The word of `1.0` is the extended real `1`. -/
theorem word_one_eq : Ideal.ofBits .f32 0x3F800000#32 = (1 : EReal) := by
  simp [Ideal.ofBits, Ideal.ieee, -EReal.coe_mul]; norm_num

end Cert.ExtendedReals

end
-- ==== Proof.SageAlgebra.lean ====
import Idealize.ShloMosaic.PureOps.Ideal
import Idealize.ShloMosaic.PureOps.Ideal.Laws
import proofs.«162611_j39075612459051_2_alg».proof.Proof.LibExtendedReals

/-!
# The algebra of a two-layer mean-aggregating graph convolution

Pure mathematics over the extended reals, on the entries that are real numbers.

* `var_eq`: the mean of the squares minus the square of the mean, kept above `0`, is the mean of the
  squared deviations from the mean.
* `mean_linear`: a mean over a finite set commutes with a linear map applied entry by entry.
* Every intermediate value of the convolution built from real inputs is a real number.
* `resK_eq_resR`: the two ways of computing the convolution agree.
-/

noncomputable section

open scoped BigOperators

namespace Cert.SageAlgebra

open Idealize.ShloMosaic Cert.ExtendedReals

/-! ## Coercions and finite sums -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The difference of two reals is a real. -/
theorem isReal_sub {x y : EReal} (hx : IsReal x) (hy : IsReal y) : IsReal (x - y) := by
  obtain ⟨a, rfl⟩ := hx; obtain ⟨b, rfl⟩ := hy; exact ⟨a - b, (EReal.coe_sub a b).symm⟩

/-! ## The variance -/

section Variance

variable {Nd : Type} [Fintype Nd]

/-- Over the reals: with `μ` the mean of `r` over `N` points, the mean of `r²` minus `μ²` is the mean of
    `(r - μ)²`. (Expand the square; `∑ r = N μ`.) -/
theorem real_var (r : Nd → ℝ) (N : ℝ) (hN : N = (Fintype.card Nd : ℝ)) (hN0 : N ≠ 0) :
    (∑ n, r n * r n) * (1 / N) - ((∑ n, r n) * (1 / N)) * ((∑ n, r n) * (1 / N))
      = (∑ n, (r n - (∑ n, r n) * (1 / N)) * (r n - (∑ n, r n) * (1 / N))) * (1 / N) := by
  set s : ℝ := ∑ n, r n with hs
  set q : ℝ := ∑ n, r n * r n with hq
  have hexp : ∑ n, (r n - s * (1 / N)) * (r n - s * (1 / N))
      = q - 2 * (s * (1 / N)) * s + N * ((s * (1 / N)) * (s * (1 / N))) := by
    have h1 : ∀ n, (r n - s * (1 / N)) * (r n - s * (1 / N))
        = r n * r n - 2 * (s * (1 / N)) * r n + (s * (1 / N)) * (s * (1 / N)) := fun n => by ring
    rw [Finset.sum_congr rfl (fun n _ => h1 n), Finset.sum_add_distrib, Finset.sum_sub_distrib,
      ← Finset.mul_sum, Finset.sum_const, Finset.card_univ, nsmul_eq_mul, ← hN]
  rw [hexp]
  field_simp
  ring

/-- The mean of the squares minus the square of the mean, kept above `0`, is the mean of the squared
    deviations from the mean: for real `f n` and `N` the number of points,
    `max ((1/N) ∑ f² - μ²) 0 = (1/N) ∑ (f - μ)²` with `μ = (1/N) ∑ f`. The right side is a mean of
    squares, hence nonnegative, so the maximum is its left argument. -/
theorem var_eq (f : Nd → EReal) (hf : ∀ n, IsReal (f n)) (nN : EReal)
    (hN : nN = ((Fintype.card Nd : ℝ) : EReal)) (hpos : 0 < Fintype.card Nd) :
    max (Ideal.div (∑ n, f n * f n) nN - Ideal.div (∑ n, f n) nN * Ideal.div (∑ n, f n) nN) 0
      = Ideal.div (∑ n, (f n - Ideal.div (∑ n, f n) nN) * (f n - Ideal.div (∑ n, f n) nN)) nN := by
  choose r hr using hf
  obtain rfl : f = fun n => (r n : EReal) := funext hr
  subst hN
  have hN0 : (Fintype.card Nd : ℝ) ≠ 0 := Nat.cast_ne_zero.2 hpos.ne'
  simp only [Ideal.div_coe hN0]
  simp only [← EReal.coe_mul, ← coe_sum, ← EReal.coe_sub]
  rw [real_var r _ rfl hN0, max_eq_left]
  refine EReal.coe_nonneg.2 (mul_nonneg (Finset.sum_nonneg fun n _ => mul_self_nonneg _) ?_)
  positivity

end Variance

/-! ## A mean commutes with a linear map -/

/-- A mean over a finite set commutes with a linear map applied entry by entry: for real `a e j`, real
    `W j` and a positive real `c`, `(∑ e ∈ T, ∑ j, a e j * W j) / c = ∑ j, ((∑ e ∈ T, a e j) / c) * W j`.
    (Exchange the two finite sums and pull the constant factors out.) -/
theorem mean_linear {E J : Type} [Fintype J] (T : Finset E) (a : E → J → EReal) (W : J → EReal)
    (ha : ∀ e j, IsReal (a e j)) (hW : ∀ j, IsReal (W j)) (c : EReal) (hc : IsPos c) :
    Ideal.div (∑ e ∈ T, ∑ j, a e j * W j) c = ∑ j, Ideal.div (∑ e ∈ T, a e j) c * W j := by
  choose ar har using ha
  choose Wr hWr using hW
  obtain rfl : a = fun e j => (ar e j : EReal) := funext fun e => funext fun j => har e j
  obtain rfl : W = fun j => (Wr j : EReal) := funext hWr
  obtain ⟨cr, hcr, rfl⟩ := hc
  simp only [Ideal.div_coe hcr.ne']
  simp only [← EReal.coe_mul, ← coe_sum]
  refine congrArg _ ?_
  rw [Finset.sum_comm, Finset.sum_mul]
  refine Finset.sum_congr rfl fun j _ => ?_
  rw [← Finset.sum_mul]
  ring

/-! ## Real entries through a square root and a normalisation -/

/-- The exact square root of a nonnegative real is a nonnegative real. -/
theorem isNonneg_sqrt {t : EReal} (ht : IsNonneg t) : IsNonneg (Ideal.sqrt t) := by
  obtain ⟨a, ha, rfl⟩ := ht
  rw [Ideal.sqrt_coe, if_neg (not_lt.2 ha)]
  exact ⟨Real.sqrt a, Real.sqrt_nonneg a, rfl⟩

/-- A real kept above `0` is a nonnegative real. -/
theorem isNonneg_max_zero {t : EReal} (ht : IsReal t) : IsNonneg (max t 0) := by
  obtain ⟨a, rfl⟩ := ht
  rcases le_total (a : EReal) 0 with h0 | h0
  · rw [max_eq_right h0]; exact ⟨0, le_refl 0, EReal.coe_zero.symm⟩
  · rw [max_eq_left h0]; exact ⟨a, EReal.coe_nonneg.1 h0, rfl⟩

/-- The Euclidean norm of a real vector, kept above a positive real, is a positive real. -/
theorem isPos_norm {ι : Type} [Fintype ι] (u : ι → EReal) (hu : ∀ i, IsReal (u i)) {e : EReal}
    (he : IsPos e) : IsPos (max (Ideal.sqrt (∑ i, u i * u i)) e) :=
  isPos_max_of_lt_top
    (isNonneg_sqrt (IsNonneg.sum _ _ fun i _ => (hu i).mul_self)).isReal.lt_top he

/-- Every entry of a real vector divided by its Euclidean norm kept above a positive real is a real. -/
theorem isReal_normalize {ι : Type} [Fintype ι] (u : ι → EReal) (hu : ∀ i, IsReal (u i)) {e : EReal}
    (he : IsPos e) (i : ι) : IsReal (Ideal.div (u i) (max (Ideal.sqrt (∑ i, u i * u i)) e)) :=
  (hu i).div (isPos_norm u hu he)

/-! ## The convolution -/

section Conv

variable {Nd E K J O : Type} [Fintype Nd] [Fintype K] [Fintype J] [Fintype O]
variable (x : Nd → K → EReal) (g : E → Nd) (S : Nd → Finset E)
  (w1l w1r : J → K → EReal) (b1l gam bet : J → EReal)
  (w2l w2r : O → J → EReal) (b2l : O → EReal) (one e12 e5 nN zero : EReal)

/-- The number of edges that land on node `n`, counted by adding `one` per edge. -/
def cnt (n : Nd) : EReal := ∑ _e ∈ S n, one

/-- The sum of input feature `k` over the edges that land on node `n`. -/
def agg1 (n : Nd) (k : K) : EReal := ∑ e ∈ S n, x (g e) k

/-- The mean of input feature `k` over the edges that land on node `n` (divided by at least `one`). -/
def m1 (n : Nd) (k : K) : EReal := Ideal.div (agg1 x g S n k) (max (cnt S one n) one)

/-- The first layer before normalisation: the aggregated features through `w1l`, plus the bias, plus
    the node's own features through `w1r`. -/
def out1 (n : Nd) (j : J) : EReal :=
  ((∑ k, m1 x g S one n k * w1l j k) + b1l j) + ∑ k, x n k * w1r j k

/-- The first layer: each node's row divided by its Euclidean norm kept above `e12`. -/
def h (n : Nd) (j : J) : EReal :=
  Ideal.div (out1 x g S w1l w1r b1l one n j)
    (max (Ideal.sqrt (∑ j', out1 x g S w1l w1r b1l one n j' * out1 x g S w1l w1r b1l one n j')) e12)

/-- The mean of hidden feature `j` over the nodes. -/
def mu (j : J) : EReal := Ideal.div (∑ n, h x g S w1l w1r b1l one e12 n j) nN

/-- The variance of hidden feature `j` as the mean of the squared deviations from the mean. -/
def varR (j : J) : EReal :=
  Ideal.div (∑ n, (h x g S w1l w1r b1l one e12 n j - mu x g S w1l w1r b1l one e12 nN j)
    * (h x g S w1l w1r b1l one e12 n j - mu x g S w1l w1r b1l one e12 nN j)) nN

/-- The variance of hidden feature `j` as the mean of the squares minus the square of the mean, kept
    above `zero`. -/
def varK (j : J) : EReal :=
  max (Ideal.div (∑ n, h x g S w1l w1r b1l one e12 n j * h x g S w1l w1r b1l one e12 n j) nN
    - mu x g S w1l w1r b1l one e12 nN j * mu x g S w1l w1r b1l one e12 nN j) zero

/-- The batch-normalised, rectified hidden activations, for a given variance `v`. -/
def act (v : J → EReal) (n : Nd) (j : J) : EReal :=
  max (((gam j * (h x g S w1l w1r b1l one e12 n j - mu x g S w1l w1r b1l one e12 nN j))
    * Ideal.rsqrt (v j + e5)) + bet j) zero

local notation "𝔥" => h x g S w1l w1r b1l one e12
local notation "𝔪" => mu x g S w1l w1r b1l one e12 nN
local notation "𝔳R" => varR x g S w1l w1r b1l one e12 nN
local notation "𝔳K" => varK x g S w1l w1r b1l one e12 nN zero
local notation "𝔞" => act x g S w1l w1r b1l gam bet one e12 e5 nN zero

/-! ### The second layer, aggregating and then projecting (with the variance `varR`) -/

/-- The sum of activation `j` over the edges that land on node `n`. -/
def agg2 (n : Nd) (j : J) : EReal := ∑ e ∈ S n, 𝔞 𝔳R (g e) j

/-- The mean of activation `j` over the edges that land on node `n`. -/
def m2 (n : Nd) (j : J) : EReal :=
  Ideal.div (agg2 x g S w1l w1r b1l gam bet one e12 e5 nN zero n j) (max (cnt S one n) one)

/-- The second layer before normalisation: the mean activations through `w2l`, plus the bias, plus
    the node's own activations through `w2r`. -/
def out2R (n : Nd) (o : O) : EReal :=
  ((∑ j, m2 x g S w1l w1r b1l gam bet one e12 e5 nN zero n j * w2l o j) + b2l o)
    + ∑ j, 𝔞 𝔳R n j * w2r o j

/-! ### The second layer, projecting and then aggregating (with the variance `varK`) -/

/-- The activations of node `n` through `w2l`. -/
def z (n : Nd) (o : O) : EReal := ∑ j, 𝔞 𝔳K n j * w2l o j

/-- The activations of node `n` through `w2r`. -/
def r (n : Nd) (o : O) : EReal := ∑ j, 𝔞 𝔳K n j * w2r o j

/-- The sum of the projected activations over the edges that land on node `n`. -/
def aggz (n : Nd) (o : O) : EReal :=
  ∑ e ∈ S n, z x g S w1l w1r b1l gam bet w2l one e12 e5 nN zero (g e) o

/-- The second layer before normalisation: the mean of the projected activations, plus the bias, plus
    the node's own activations through `w2r`. -/
def out2K (n : Nd) (o : O) : EReal :=
  ((Ideal.div (aggz x g S w1l w1r b1l gam bet w2l one e12 e5 nN zero n o) (max (cnt S one n) one))
    + b2l o) + r x g S w1l w1r b1l gam bet w2r one e12 e5 nN zero n o

local notation "𝔬R" => out2R x g S w1l w1r b1l gam bet w2l w2r b2l one e12 e5 nN zero
local notation "𝔬K" => out2K x g S w1l w1r b1l gam bet w2l w2r b2l one e12 e5 nN zero

/-- The result, aggregating first: each node's row divided by its Euclidean norm kept above `e12`. -/
def resR (n : Nd) (o : O) : EReal :=
  Ideal.div (𝔬R n o) (max (Ideal.sqrt (∑ o', 𝔬R n o' * 𝔬R n o')) e12)

/-- The result, projecting first: each node's row divided by its Euclidean norm kept above `e12`. -/
def resK (n : Nd) (o : O) : EReal :=
  Ideal.div (𝔬K n o) (max (Ideal.sqrt (∑ o', 𝔬K n o' * 𝔬K n o')) e12)

/-! ### The standing assumptions -/

/-- The standing assumptions: every input entry and every weight is a real number, `one` and `zero`
    are `1` and `0`, the two small constants are positive reals, and `nN` is the (positive) number of
    nodes. -/
structure Hyp : Prop where
  x_real : ∀ n k, IsReal (x n k)
  w1l_real : ∀ j k, IsReal (w1l j k)
  w1r_real : ∀ j k, IsReal (w1r j k)
  b1l_real : ∀ j, IsReal (b1l j)
  gam_real : ∀ j, IsReal (gam j)
  bet_real : ∀ j, IsReal (bet j)
  w2l_real : ∀ o j, IsReal (w2l o j)
  w2r_real : ∀ o j, IsReal (w2r o j)
  b2l_real : ∀ o, IsReal (b2l o)
  one_eq : one = 1
  zero_eq : zero = 0
  e12_pos : IsPos e12
  e5_pos : IsPos e5
  nN_eq : nN = ((Fintype.card Nd : ℝ) : EReal)
  card_pos : 0 < Fintype.card Nd

local notation "ℌ" => Hyp x w1l w1r b1l gam bet w2l w2r b2l one e12 e5 nN zero

variable {x w1l w1r b1l gam bet w2l w2r b2l one e12 e5 nN zero}

/-! ### Every intermediate value is a real number -/

/-- The number of nodes is a positive real. -/
theorem Hyp.nN_pos (hyp : ℌ) : IsPos nN := by
  rw [hyp.nN_eq]; exact ⟨_, Nat.cast_pos.2 hyp.card_pos, rfl⟩

/-- The number of edges that land on a node, kept above `1`, is a positive real. -/
theorem isPos_cnt (hyp : ℌ) (n : Nd) : IsPos (max (cnt S one n) one) := by
  have h1 : IsPos one := by rw [hyp.one_eq]; exact ⟨1, one_pos, EReal.coe_one.symm⟩
  unfold cnt
  exact isPos_max_of_lt_top (IsReal.sum _ _ fun _ _ => h1.isReal).lt_top h1

/-- The mean input features are reals. -/
theorem isReal_m1 (hyp : ℌ) (n : Nd) (k : K) : IsReal (m1 x g S one n k) := by
  unfold m1 agg1
  exact IsReal.div (IsReal.sum _ _ fun e _ => hyp.x_real (g e) k) (isPos_cnt S hyp n)

/-- The first layer before normalisation is real. -/
theorem isReal_out1 (hyp : ℌ) (n : Nd) (j : J) : IsReal (out1 x g S w1l w1r b1l one n j) := by
  unfold out1
  exact ((IsReal.sum _ _ fun k _ => (isReal_m1 g S hyp n k).mul (hyp.w1l_real j k)).add
    (hyp.b1l_real j)).add (IsReal.sum _ _ fun k _ => (hyp.x_real n k).mul (hyp.w1r_real j k))

/-- The first layer is real: a real row divided by its norm kept above a positive real. -/
theorem isReal_h (hyp : ℌ) (n : Nd) (j : J) : IsReal (𝔥 n j) :=
  isReal_normalize (fun j => out1 x g S w1l w1r b1l one n j) (isReal_out1 g S hyp n) hyp.e12_pos j

/-- The mean of a hidden feature is real. -/
theorem isReal_mu (hyp : ℌ) (j : J) : IsReal (𝔪 j) := by
  unfold mu
  exact IsReal.div (IsReal.sum _ _ fun n _ => isReal_h g S hyp n j) hyp.nN_pos

/-- The mean of the squared deviations is a nonnegative real. -/
theorem isNonneg_varR (hyp : ℌ) (j : J) : IsNonneg (𝔳R j) := by
  unfold varR
  exact IsNonneg.div (IsNonneg.sum _ _ fun n _ =>
    (isReal_sub (isReal_h g S hyp n j) (isReal_mu g S hyp j)).mul_self) hyp.nN_pos

/-- The mean of the squares minus the square of the mean, kept above `0`, is a nonnegative real. -/
theorem isNonneg_varK (hyp : ℌ) (j : J) : IsNonneg (𝔳K j) := by
  unfold varK
  rw [hyp.zero_eq]
  exact isNonneg_max_zero (isReal_sub ((IsReal.sum _ _ fun n _ =>
    (isReal_h g S hyp n j).mul (isReal_h g S hyp n j)).div hyp.nN_pos)
      ((isReal_mu g S hyp j).mul (isReal_mu g S hyp j)))

/-- A nonnegative variance plus the positive `e5` is a positive real. -/
theorem isPos_var_add (hyp : ℌ) (v : J → EReal) (hv : ∀ j, IsNonneg (v j)) (j : J) :
    IsPos (v j + e5) := (hv j).add_pos hyp.e5_pos

/-- The activations are real, for any nonnegative real variance. -/
theorem isReal_act (hyp : ℌ) (v : J → EReal) (hv : ∀ j, IsNonneg (v j)) (n : Nd) (j : J) :
    IsReal (𝔞 v n j) := by
  unfold act
  rw [hyp.zero_eq]
  exact (isNonneg_max_zero ((((hyp.gam_real j).mul (isReal_sub (isReal_h g S hyp n j)
    (isReal_mu g S hyp j))).mul ((hv j).add_pos hyp.e5_pos).rsqrt).add (hyp.bet_real j))).isReal

/-! ### The two computations agree -/

/-- The two variances agree: the mean of the squares minus the square of the mean is the mean of the
    squared deviations, which is nonnegative. -/
theorem varK_eq_varR (hyp : ℌ) : 𝔳K = 𝔳R := by
  funext j
  unfold varK varR mu
  rw [hyp.zero_eq]
  exact var_eq (fun n => 𝔥 n j) (fun n => isReal_h g S hyp n j) nN hyp.nN_eq hyp.card_pos

/-- Before the last normalisation the two second layers agree: the variances agree, and the mean over
    the edges commutes with the projection through `w2l`. -/
theorem out2K_eq_out2R (hyp : ℌ) (n : Nd) (o : O) : 𝔬K n o = 𝔬R n o := by
  unfold out2K out2R aggz z r m2 agg2
  rw [varK_eq_varR g S hyp]
  rw [mean_linear (S n) (fun e j => 𝔞 𝔳R (g e) j) (fun j => w2l o j)
    (fun e j => isReal_act g S hyp _ (isNonneg_varR g S hyp) (g e) j)
    (fun j => hyp.w2l_real o j) _ (isPos_cnt S hyp n)]

/-- The two computations of the convolution agree. -/
theorem resK_eq_resR (hyp : ℌ) :
    resK x g S w1l w1r b1l gam bet w2l w2r b2l one e12 e5 nN zero
      = resR x g S w1l w1r b1l gam bet w2l w2r b2l one e12 e5 nN zero := by
  have ho : 𝔬K = 𝔬R := funext fun n => funext fun o => out2K_eq_out2R g S hyp n o
  funext n o
  unfold resK resR
  rw [ho]

end Conv

end Cert.SageAlgebra

end
-- ==== Proof.KHost.lean ====
import proofs.«162611_j39075612459051_2_alg».proof.Proof.LaunchKernelIdeal
import proofs.«162611_j39075612459051_2_alg».proof.Proof.EdgeRows
import proofs.«162611_j39075612459051_2_alg».proof.Proof.LibScatterCount
import proofs.«162611_j39075612459051_2_alg».proof.Proof.LibGatherScatter
import proofs.«162611_j39075612459051_2_alg».proof.Proof.SageAlgebra
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

/-!
# The three stretches of host operations of the kernel program, read at an index

Between its kernel regions the program runs three stretches of host operations. Each result the kernels read is
computed here, at an index, from the contents the stretch starts from, on the extended reals:

* the first stretch: the two rows of the array of edge ends; the count of the edges landing on a node; the input
  rows of the nodes the edges read, added onto the nodes the edges land on; the first layer's two weight matrices
  transposed and its bias as a row;
* the second stretch: the mean and the variance over the nodes from the column sums and the column sums of squares;
  the scale and the shift as rows; the second layer's two weight matrices transposed;
* the third stretch: the second layer's projected rows of the nodes the edges read, added onto the nodes the edges
  land on; the second layer's bias as a row.
-/

noncomputable section

open scoped BigOperators

namespace Cert.KernelIdeal.HostRead

open Cert.KernelIdeal Cert.KernelIdeal.Gen Cert.KernelIdeal.GenP Idealize.ShloMosaic Idealize.ShloMosaic.ValueIdx
  Cert.EdgeRows

/-- The word of `1.0`. -/
abbrev one : EReal := Ideal.ofBits .f32 0x3F800000#32
/-- The word of `0.0`. -/
abbrev zero : EReal := Ideal.ofBits .f32 0x00000000#32
/-- The word of `100000.0`. -/
abbrev nN : EReal := Ideal.ofBits .f32 0x47C35000#32

variable (W : Valuation τ sig (Elt Ideal))

/-! ## Layout operations read at an index given by coordinates -/

/-- A scalar laid over any shape reads the scalar everywhere. -/
theorem bcast0_apply {t : Shape} {α : Type} (h : S_.BroadcastsInDim t (![] : Fin 0 → Fin t.rank)) (x : S_.Idx → α)
    (j : t.Idx) : broadcastInDim t ![] h x j = x ix0 :=
  broadcastInDim_apply _ h x j ix0 (fun a => a.elim0)

/-- A flat array laid as a column reads, at `(i, 0)`, the array at `i`. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A flat array of more than one entry laid as a column by a broadcast reads, at `(i, 0)`, the array at `i`. -/
theorem bcastCol_apply {a : ℕ} {α : Type} (ha : a ≠ 1)
    (h : (⟨1, ![a]⟩ : Shape).BroadcastsInDim ⟨2, ![a, 1]⟩ (![0] : Fin 1 → Fin 2)) (x : (⟨1, ![a]⟩ : Shape).Idx → α)
    (i : Fin a) (u : Fin 1) : broadcastInDim ⟨2, ![a, 1]⟩ ![0] h x (ix2 i u) = x (ix1 i) :=
  broadcastInDim_apply _ h x _ _ (fun b => match b with
    | ⟨0, _⟩ => by show i.val = if a = 1 then 0 else i.val; rw [if_neg ha])

/-! ## The first stretch of host operations -/

section First

/-- Row 0 of an array of edge ends, flattened. -/
abbrev edgeRow0 (a : IVec S2x800000 32) : IVec S800000 32 :=
  shapeCast S800000 (extractStridedSlice S1x800000 ![0, 0] a slices_S2x800000_S1x800000_0_0)
    shapeCasts_S1x800000_S800000

/-- Row 1 of an array of edge ends, flattened. -/
abbrev edgeRow1 (a : IVec S2x800000 32) : IVec S800000 32 :=
  shapeCast S800000 (extractStridedSlice S1x800000 ![1, 0] a slices_S2x800000_S1x800000_1_0)
    shapeCasts_S1x800000_S800000

/-- Row 0, flattened, at edge `e`. -/
theorem edgeRow0_at (a : IVec S2x800000 32) (e : Fin 800000) : edgeRow0 a (ix1 e) = a (ix2 (0 : Fin 2) e) := by
  show shapeCast S800000 _ shapeCasts_S1x800000_S800000 (ix1 e) = _
  rw [shapeCast_1a_a_apply]
  exact slice2_axis0_apply 0 a slices_S2x800000_S1x800000_0_0 (0 : Fin 1) e (0 : Fin 2) rfl

/-- Row 1, flattened, at edge `e`. -/
theorem edgeRow1_at (a : IVec S2x800000 32) (e : Fin 800000) : edgeRow1 a (ix1 e) = a (ix2 (1 : Fin 2) e) := by
  show shapeCast S800000 _ shapeCasts_S1x800000_S800000 (ix1 e) = _
  rw [shapeCast_1a_a_apply]
  exact slice2_axis0_apply 1 a slices_S2x800000_S1x800000_1_0 (0 : Fin 1) e (1 : Fin 2) rfl

/-- Row 0 of the array of edge ends, flattened. -/
theorem h0_v1 (e : Fin 800000) :
    StableHlo.after hostOps0 W (Proc.devRef .tc main_v1) (ix1 e)
      = (W (Proc.devRef .tc main_arg1) : IVec S2x800000 32) (ix2 (0 : Fin 2) e) := by
  have t : (StableHlo.after hostOps0 W (Proc.devRef .tc main_v1) : IVec S800000 32)
      = edgeRow0 (W (Proc.devRef .tc main_arg1)) := by
    show StableHlo.after hostOps0 W (Proc.devRef .tc main_v1) = _
    after_results
    rfl
  rw [t, edgeRow0_at]

/-- Row 1 of the array of edge ends, flattened. -/
theorem h0_v3 (e : Fin 800000) :
    StableHlo.after hostOps0 W (Proc.devRef .tc main_v3) (ix1 e)
      = (W (Proc.devRef .tc main_arg1) : IVec S2x800000 32) (ix2 (1 : Fin 2) e) := by
  have t : (StableHlo.after hostOps0 W (Proc.devRef .tc main_v3) : IVec S800000 32)
      = edgeRow1 (W (Proc.devRef .tc main_arg1)) := by
    show StableHlo.after hostOps0 W (Proc.devRef .tc main_v3) = _
    after_results
    rfl
  rw [t, edgeRow1_at]

/-- The first layer's first weight matrix, transposed. -/
theorem h0_wl (k j : Fin 128) :
    StableHlo.after hostOps0 W (Proc.devRef .tc main_v19) (ix2 k j)
      = W (Proc.devRef .tc main_arg2) (ix2 j k) := by
  have t : (StableHlo.after hostOps0 W (Proc.devRef .tc main_v19) : S128x128.Idx → EReal)
      = transpose S128x128 [1, 0] (W (Proc.devRef .tc main_arg2) : S128x128.Idx → EReal)
          transposes_S128x128_S128x128_1_0 := by
    show StableHlo.after hostOps0 W (Proc.devRef .tc main_v19) = _
    after_results
  rw [t, transpose_ix2_apply]

/-- The first layer's second weight matrix, transposed. -/
theorem h0_wr (k j : Fin 128) :
    StableHlo.after hostOps0 W (Proc.devRef .tc main_v20) (ix2 k j)
      = W (Proc.devRef .tc main_arg4) (ix2 j k) := by
  have t : (StableHlo.after hostOps0 W (Proc.devRef .tc main_v20) : S128x128.Idx → EReal)
      = transpose S128x128 [1, 0] (W (Proc.devRef .tc main_arg4) : S128x128.Idx → EReal)
          transposes_S128x128_S128x128_1_0 := by
    show StableHlo.after hostOps0 W (Proc.devRef .tc main_v20) = _
    after_results
  rw [t, transpose_ix2_apply]

/-- The first layer's bias, as a row. -/
theorem h0_b (j : Fin 128) :
    StableHlo.after hostOps0 W (Proc.devRef .tc main_v21) (ix2 (0 : Fin 1) j)
      = W (Proc.devRef .tc main_arg3) (ix1 j) := by
  have t : (StableHlo.after hostOps0 W (Proc.devRef .tc main_v21) : S1x128.Idx → EReal)
      = shapeCast S1x128 (W (Proc.devRef .tc main_arg3) : S128.Idx → EReal) shapeCasts_S128_S1x128 := by
    show StableHlo.after hostOps0 W (Proc.devRef .tc main_v21) = _
    after_results
    rfl
  rw [t, shapeCast_a_1a_apply]

/-- The column of nodes the edges land on: row 1 of the array of edge ends, flattened, as a column. -/
abbrev dstCol (r : IVec S800000 32) : IVec S800000x1 32 :=
  broadcastInDim S800000x1 ![0] bcast_S800000_S800000x1_0 r

/-- The words naming the nodes the edges read: row 0 of the array of edge ends, flattened, with `100000` added
    to the negative words. -/
abbrev srcWords (r : IVec S800000 32) : IVec S800000 32 :=
  select (cmpi .slt r (broadcastInDim S800000 ![] bcast_S_S800000 (constantI S_ 32 0#32)))
    (addi r (broadcastInDim S800000 ![] bcast_S_S800000 (constantI S_ 32 100000#32))) r

/-- Those words as a column. -/
abbrev srcCol (r : IVec S800000 32) : IVec S800000x1 32 :=
  broadcastInDim S800000x1 ![0] bcast_S800000_S800000x1_0 (srcWords r)

section Columns
variable (r : IVec S800000 32) (a : IVec ⟨2, ![2, 800000]⟩ 32)

/-- The column of nodes landed on, at edge `e`. -/
theorem dstCol_at (hr : ∀ e, r (ix1 e) = a (ix2 (1 : Fin 2) e)) (e : Fin 800000) :
    dstCol r (ix2 e (0 : Fin 1)) = a (ix2 (1 : Fin 2) e) := by
  show broadcastInDim S800000x1 ![0] bcast_S800000_S800000x1_0 r (ix2 e (0 : Fin 1)) = _
  rw [bcastCol_apply (a := 800000) (by decide), hr]

/-- The column of nodes read, at edge `e`: the word `srcWord`. -/
theorem srcCol_at (hr : ∀ e, r (ix1 e) = a (ix2 (0 : Fin 2) e)) (e : Fin 800000) :
    srcCol r (ix2 e (0 : Fin 1)) = srcWord a e := by
  show broadcastInDim S800000x1 ![0] bcast_S800000_S800000x1_0 (srcWords r) (ix2 e (0 : Fin 1)) = _
  rw [bcastCol_apply (a := 800000) (by decide)]
  show Scalar.select
      (IntOp.cmpi .slt (r (ix1 e)) (broadcastInDim S800000 ![] bcast_S_S800000 (constantI S_ 32 0#32) (ix1 e)))
      (IntOp.addi (r (ix1 e)) (broadcastInDim S800000 ![] bcast_S_S800000 (constantI S_ 32 100000#32) (ix1 e)))
      (r (ix1 e)) = _
  rw [bcast0_apply, bcast0_apply, hr]
  rfl

/-- The rows gathered at the column of nodes read: edge `e` carries the row of the node it reads. -/
theorem gather128_at (x : S100000x128.Idx → EReal) (hr : ∀ e, r (ix1 e) = a (ix2 (0 : Fin 2) e)) (e : Fin 800000)
    (k : Fin 128) :
    Host.gather gather_S100000x128_S800000x1_S800000x128_1_0_n_n_0_1_1128 x (srcCol r) (ix2 e k)
      = x (ix2 (srcRow a e) k) := by
  refine (GatherScatter.gather_rows2_apply (N := 100000) (C := 128) (E := 800000) (by decide)
    gather_S100000x128_S800000x1_S800000x128_1_0_n_n_0_1_1128_wf x (srcCol r) e k).trans ?_
  exact congrArg (fun p => x (ix2 p k))
    (Fin.ext (congrArg (fun w : BitVec 32 => min w.toInt.toNat (100000 - 1)) (srcCol_at r a hr e)))

/-- The same for rows of 47 entries. -/
theorem gather47_at (x : S100000x47.Idx → EReal) (hr : ∀ e, r (ix1 e) = a (ix2 (0 : Fin 2) e)) (e : Fin 800000)
    (o : Fin 47) :
    Host.gather gather_S100000x47_S800000x1_S800000x47_1_0_n_n_0_1_147 x (srcCol r) (ix2 e o)
      = x (ix2 (srcRow a e) o) := by
  refine (GatherScatter.gather_rows2_apply (N := 100000) (C := 47) (E := 800000) (by decide)
    gather_S100000x47_S800000x1_S800000x47_1_0_n_n_0_1_147_wf x (srcCol r) e o).trans ?_
  exact congrArg (fun p => x (ix2 p o))
    (Fin.ext (congrArg (fun w : BitVec 32 => min w.toInt.toNat (100000 - 1)) (srcCol_at r a hr e)))

end Columns

/-- The count of the edges landing on a node: `1` added once per edge landing on `n`. -/
theorem h0_cnt (n : Fin 100000) :
    StableHlo.after hostOps0 W (Proc.devRef .tc main_v8) (ix2 n (0 : Fin 1))
      = Cert.SageAlgebra.cnt (dstEdges (W (Proc.devRef .tc main_arg1))) one n := by
  have t : (StableHlo.after hostOps0 W (Proc.devRef .tc main_v8) : S100000x1.Idx → EReal)
      = shapeCast S100000x1
          (Host.scatterAdd (F := Ideal) scatter_S100000_S800000x1_S800000_n_0_0_1
            (broadcastInDim S100000 ![] bcast_S_S100000 (constant (F := Ideal) S_ .f32 0x00000000#32))
            (dstCol (edgeRow1 (W (Proc.devRef .tc main_arg1))))
            (broadcastInDim S800000 ![] bcast_S_S800000 (constant (F := Ideal) S_ .f32 0x3F800000#32)))
          shapeCasts_S100000_S100000x1 := by
    show StableHlo.after hostOps0 W (Proc.devRef .tc main_v8) = _
    after_results
    all_goals rfl
  rw [t, shapeCast_a_a1_apply]
  refine (ScatterCount.Host_scatterAdd_rows1_apply (N := 100000) (E := 800000)
    scatter_S100000_S800000x1_S800000_n_0_0_1_wf _ _ _ n).trans ?_
  rw [bcast0_apply]
  refine (congrArg (· + _) Ideal.ofBits_zero_f32).trans ((zero_add _).trans ?_)
  simp only [dstCol_at _ _ (edgeRow1_at (W (Proc.devRef .tc main_arg1))), bcast0_apply]
  rfl

/-- The input rows of the nodes the edges read, added onto the nodes the edges land on. -/
theorem h0_agg (n : Fin 100000) (k : Fin 128) :
    StableHlo.after hostOps0 W (Proc.devRef .tc main_v18) (ix2 n k)
      = Cert.SageAlgebra.agg1 (mat (W (Proc.devRef .tc main_arg0))) (srcRow (W (Proc.devRef .tc main_arg1)))
          (dstEdges (W (Proc.devRef .tc main_arg1))) n k := by
  have t : (StableHlo.after hostOps0 W (Proc.devRef .tc main_v18) : S100000x128.Idx → EReal)
      = Host.scatterAdd (F := Ideal) scatter_S100000x128_S800000x1_S800000x128_1_0_0_1
          (broadcastInDim S100000x128 ![] bcast_S_S100000x128 (constant (F := Ideal) S_ .f32 0x00000000#32))
          (dstCol (edgeRow1 (W (Proc.devRef .tc main_arg1))))
          (Host.gather gather_S100000x128_S800000x1_S800000x128_1_0_n_n_0_1_1128
            (W (Proc.devRef .tc main_arg0) : S100000x128.Idx → EReal)
            (srcCol (edgeRow0 (W (Proc.devRef .tc main_arg1))))) := by
    show StableHlo.after hostOps0 W (Proc.devRef .tc main_v18) = _
    after_results
    all_goals rfl
  rw [t]
  refine (GatherScatter.Host_scatterAdd_rows2_apply (N := 100000) (C := 128) (E := 800000)
    scatter_S100000x128_S800000x1_S800000x128_1_0_0_1_wf _ _ _ n k).trans ?_
  rw [bcast0_apply]
  refine (congrArg (· + _) Ideal.ofBits_zero_f32).trans ((zero_add _).trans ?_)
  simp only [dstCol_at _ _ (edgeRow1_at (W (Proc.devRef .tc main_arg1))),
    gather128_at _ _ _ (edgeRow0_at (W (Proc.devRef .tc main_arg1)))]
  rfl

end First

/-! ## The second stretch of host operations: the mean and the variance over the nodes, the scale and the shift,
the second layer's two weight matrices transposed -/

section Second

/-- A row of column sums divided by the number of nodes. -/
abbrev colMean (s : S1x128.Idx → EReal) : S128.Idx → EReal :=
  Host.divf (F := Ideal) (shapeCast S128 s shapeCasts_S1x128_S128)
    (broadcastInDim S128 ![] bcast_S_S128 (constant (F := Ideal) S_ .f32 0x47C35000#32))

/-- That quotient at a column. -/
theorem colMean_at (s : S1x128.Idx → EReal) (j : Fin 128) :
    colMean s (ix1 j) = Ideal.div (s (ix2 (0 : Fin 1) j)) nN := by
  show Ideal.div (shapeCast S128 s shapeCasts_S1x128_S128 (ix1 j))
    (broadcastInDim S128 ![] bcast_S_S128 (constant (F := Ideal) S_ .f32 0x47C35000#32) (ix1 j)) = _
  rw [shapeCast_1a_a_apply, bcast0_apply]
  rfl

/-- The mean over the nodes: the column sums divided by the number of nodes. -/
theorem h1_mean (j : Fin 128) :
    StableHlo.after hostOps1 W (Proc.devRef .tc main_v35) (ix2 (0 : Fin 1) j)
      = Ideal.div (W (Proc.devRef .tc main_v22_1) (ix2 (0 : Fin 1) j)) nN := by
  have e : (StableHlo.after hostOps1 W (Proc.devRef .tc main_v35) : S1x128.Idx → EReal)
      = shapeCast S1x128 (colMean (W (Proc.devRef .tc main_v22_1))) shapeCasts_S128_S1x128 := by
    show StableHlo.after hostOps1 W (Proc.devRef .tc main_v35) = _
    after_results
    rfl
  rw [e, shapeCast_a_1a_apply, colMean_at]

/-- The variance over the nodes: the mean of the squares less the square of the mean, kept above zero. -/
theorem h1_var (j : Fin 128) :
    StableHlo.after hostOps1 W (Proc.devRef .tc main_v36) (ix2 (0 : Fin 1) j)
      = max (Ideal.div (W (Proc.devRef .tc main_v22_2) (ix2 (0 : Fin 1) j)) nN
          - Ideal.div (W (Proc.devRef .tc main_v22_1) (ix2 (0 : Fin 1) j)) nN
            * Ideal.div (W (Proc.devRef .tc main_v22_1) (ix2 (0 : Fin 1) j)) nN) zero := by
  have e : (StableHlo.after hostOps1 W (Proc.devRef .tc main_v36) : S1x128.Idx → EReal)
      = shapeCast S1x128
          (maximumf (F := Ideal)
            (subf (colMean (W (Proc.devRef .tc main_v22_2)))
              (mulf (colMean (W (Proc.devRef .tc main_v22_1))) (colMean (W (Proc.devRef .tc main_v22_1)))))
            (broadcastInDim S128 ![] bcast_S_S128 (constant (F := Ideal) S_ .f32 0x00000000#32)))
          shapeCasts_S128_S1x128 := by
    show StableHlo.after hostOps1 W (Proc.devRef .tc main_v36) = _
    after_results
    rfl
  rw [e, shapeCast_a_1a_apply, maximumf_apply, subf_apply, mulf_apply, colMean_at, colMean_at, bcast0_apply]
  rfl

/-- The scale, as a row. -/
theorem h1_gam (j : Fin 128) :
    StableHlo.after hostOps1 W (Proc.devRef .tc main_v37) (ix2 (0 : Fin 1) j)
      = W (Proc.devRef .tc main_arg5) (ix1 j) := by
  have e : (StableHlo.after hostOps1 W (Proc.devRef .tc main_v37) : S1x128.Idx → EReal)
      = shapeCast S1x128 (W (Proc.devRef .tc main_arg5) : S128.Idx → EReal) shapeCasts_S128_S1x128 := by
    show StableHlo.after hostOps1 W (Proc.devRef .tc main_v37) = _
    after_results
    rfl
  rw [e, shapeCast_a_1a_apply]

/-- The shift, as a row. -/
theorem h1_bet (j : Fin 128) :
    StableHlo.after hostOps1 W (Proc.devRef .tc main_v38) (ix2 (0 : Fin 1) j)
      = W (Proc.devRef .tc main_arg6) (ix1 j) := by
  have e : (StableHlo.after hostOps1 W (Proc.devRef .tc main_v38) : S1x128.Idx → EReal)
      = shapeCast S1x128 (W (Proc.devRef .tc main_arg6) : S128.Idx → EReal) shapeCasts_S128_S1x128 := by
    show StableHlo.after hostOps1 W (Proc.devRef .tc main_v38) = _
    after_results
    rfl
  rw [e, shapeCast_a_1a_apply]

/-- The second layer's first weight matrix, transposed. -/
theorem h1_w2l (j : Fin 128) (o : Fin 47) :
    StableHlo.after hostOps1 W (Proc.devRef .tc main_v33) (ix2 j o)
      = W (Proc.devRef .tc main_arg7) (ix2 o j) := by
  have e : (StableHlo.after hostOps1 W (Proc.devRef .tc main_v33) : S128x47.Idx → EReal)
      = transpose S128x47 [1, 0] (W (Proc.devRef .tc main_arg7) : S47x128.Idx → EReal)
          transposes_S47x128_S128x47_1_0 := by
    show StableHlo.after hostOps1 W (Proc.devRef .tc main_v33) = _
    after_results
  rw [e, transpose_ix2_apply]

/-- The second layer's second weight matrix, transposed. -/
theorem h1_w2r (j : Fin 128) (o : Fin 47) :
    StableHlo.after hostOps1 W (Proc.devRef .tc main_v34) (ix2 j o)
      = W (Proc.devRef .tc main_arg9) (ix2 o j) := by
  have e : (StableHlo.after hostOps1 W (Proc.devRef .tc main_v34) : S128x47.Idx → EReal)
      = transpose S128x47 [1, 0] (W (Proc.devRef .tc main_arg9) : S47x128.Idx → EReal)
          transposes_S47x128_S128x47_1_0 := by
    show StableHlo.after hostOps1 W (Proc.devRef .tc main_v34) = _
    after_results
  rw [e, transpose_ix2_apply]

end Second

end Cert.KernelIdeal.HostRead

end
-- ==== Proof.SageConsts.lean ====
import Idealize.ShloMosaic.PureOps.Ideal
import Idealize.ShloMosaic.PureOps.Ideal.Laws
import proofs.«162611_j39075612459051_2_alg».proof.Proof.LibExtendedReals

/-!
# The float constants of the convolution, as the reals they denote

The five 32-bit float words the two programs share — `1.0`, `0.0`, `1e-12`, `1e-5` and `100000.0` —
named, with what the algebra of the convolution needs of each: the first two are the extended reals `1` and
`0`, the next two are positive reals, and the last is the number of nodes.
-/

noncomputable section

namespace Cert.SageConsts

open Idealize.ShloMosaic Cert.ExtendedReals

/-- The word of `1.0`. -/
abbrev one : EReal := Ideal.ofBits .f32 0x3F800000#32
/-- The word of `0.0`. -/
abbrev zero : EReal := Ideal.ofBits .f32 0x00000000#32
/-- The word of `1e-12`. -/
abbrev e12 : EReal := Ideal.ofBits .f32 0x2B8CBCCC#32
/-- The word of `1e-5`. -/
abbrev e5 : EReal := Ideal.ofBits .f32 0x3727C5AC#32
/-- The word of `100000.0`. -/
abbrev nN : EReal := Ideal.ofBits .f32 0x47C35000#32

/-- The word of `1.0` is the extended real `1`. -/
theorem one_eq : one = 1 := word_one_eq
/-- The word of `0.0` is the extended real `0`. -/
theorem zero_eq : zero = 0 := Ideal.ofBits_zero_f32
/-- The word of `1e-12` is a positive real. -/
theorem e12_pos : IsPos e12 := by
  refine isPos_of_lt ?_ ?_ <;> simp [Ideal.ofBits, Ideal.ieee, -EReal.coe_mul] <;> norm_num
/-- The word of `1e-5` is a positive real. -/
theorem e5_pos : IsPos e5 := word_eps5
/-- The word of `100000.0` is the number of nodes. -/
theorem nN_eq : nN = ((Fintype.card (Fin 100000) : ℝ) : EReal) := by
  rw [Fintype.card_fin]
  simp [Ideal.ofBits, Ideal.ieee, -EReal.coe_mul]; norm_num
/-- There is at least one node. -/
theorem card_pos : 0 < Fintype.card (Fin 100000) := by rw [Fintype.card_fin]; decide

end Cert.SageConsts

end
-- ==== Proof.KHost2.lean ====
import proofs.«162611_j39075612459051_2_alg».proof.Proof.LaunchKernelIdeal
import proofs.«162611_j39075612459051_2_alg».proof.Proof.EdgeRows
import proofs.«162611_j39075612459051_2_alg».proof.Proof.LibGatherScatter
import proofs.«162611_j39075612459051_2_alg».proof.Proof.SageConsts
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

/-!
# The third stretch of host operations of the kernel program, read at an index

After its second kernel region the program runs a last stretch of host operations: the words naming the nodes the
edges read are wrapped (a negative one has `100000` added); the second layer's projected rows of those nodes are
gathered, one per edge, and added onto the nodes the edges land on, starting from zero; and the second layer's bias is
laid out as a row. Each of the two results the last kernel region reads is computed here, at an index, from the
contents the stretch starts from, on the extended reals.
-/

noncomputable section

open scoped BigOperators

namespace Cert.KernelIdeal.HostRead2

open Cert.KernelIdeal Cert.KernelIdeal.Gen Cert.KernelIdeal.GenP Idealize.ShloMosaic Idealize.ShloMosaic.ValueIdx
  Cert.EdgeRows

variable (W : Valuation τ sig (Elt Ideal))

/-! ## Two layout operations read at an index -/

/-- A scalar laid over any shape reads the scalar everywhere. -/
theorem bcast0_apply {t : Shape} {α : Type} (h : S_.BroadcastsInDim t (![] : Fin 0 → Fin t.rank)) (x : S_.Idx → α)
    (j : t.Idx) : broadcastInDim t ![] h x j = x ix0 :=
  broadcastInDim_apply _ h x j ix0 (fun a => a.elim0)

/-- A flat array of one entry per edge laid out as a column reads, at row `e`, its entry `e`. -/
theorem bcastCol_apply {α : Type} (y : S800000.Idx → α) (e : Fin 800000) :
    broadcastInDim S800000x1 ![0] bcast_S800000_S800000x1_0 y (ix2 e (0 : Fin 1)) = y (ix1 e) :=
  broadcastInDim_apply _ bcast_S800000_S800000x1_0 y (ix2 e (0 : Fin 1)) (ix1 e) (fun a => match a with
    | ⟨0, _⟩ => by show e.val = if (800000 : Nat) = 1 then 0 else e.val; rw [if_neg (by decide)])

/-! ## The wrapped words of the nodes the edges read -/

/-- The words naming the nodes the edges read, a negative one with `100000` added (in 32-bit arithmetic). -/
abbrev wrapped (v1 : S800000.Idx → BitVec 32) : S800000.Idx → BitVec 32 :=
  select (cmpi .slt v1 (broadcastInDim S800000 ![] bcast_S_S800000 (constantI S_ 32 0#32)))
    (addi v1 (broadcastInDim S800000 ![] bcast_S_S800000 (constantI S_ 32 100000#32))) v1

/-- At edge `e` that is the word `srcWord` of the array of edge ends whose row 0 the flat array is. -/
theorem wrapped_at (v1 : S800000.Idx → BitVec 32) (a1' : IVec ⟨2, ![2, 800000]⟩ 32)
    (hv1 : ∀ e : Fin 800000, v1 (ix1 e) = a1' (ix2 (0 : Fin 2) e)) (e : Fin 800000) :
    wrapped v1 (ix1 e) = srcWord a1' e := by
  show Scalar.select
      (IntOp.cmpi .slt (v1 (ix1 e)) (broadcastInDim S800000 ![] bcast_S_S800000 (constantI S_ 32 0#32) (ix1 e)))
      (IntOp.addi (v1 (ix1 e)) (broadcastInDim S800000 ![] bcast_S_S800000 (constantI S_ 32 100000#32) (ix1 e)))
      (v1 (ix1 e)) = _
  rw [bcast0_apply, bcast0_apply, hv1]
  rfl

/-! ## The projected rows added onto the nodes the edges land on -/

/-- THE AGGREGATED PROJECTIONS at node `n` and output feature `o`: the sum, over the edges landing on `n`, of the
    projected rows of the nodes they read. -/
theorem h2_aggz (a1' : IVec ⟨2, ![2, 800000]⟩ 32)
    (hv1 : ∀ e : Fin 800000, W (Proc.devRef .tc main_v1) (ix1 e) = a1' (ix2 (0 : Fin 2) e))
    (hv3 : ∀ e : Fin 800000, W (Proc.devRef .tc main_v3) (ix1 e) = a1' (ix2 (1 : Fin 2) e))
    (n : Fin 100000) (o : Fin 47) :
    StableHlo.after hostOps2 W (Proc.devRef .tc main_v49) (ix2 n o)
      = ∑ e ∈ dstEdges a1' n, mat (W (Proc.devRef .tc main_v39_0)) (srcRow a1' e) o := by
  have e : (StableHlo.after hostOps2 W (Proc.devRef .tc main_v49) : S100000x47.Idx → EReal)
      = Host.scatterAdd (F := Ideal) scatter_S100000x47_S800000x1_S800000x47_1_0_0_1
          (broadcastInDim S100000x47 ![] bcast_S_S100000x47 (constant (F := Ideal) S_ .f32 0x00000000#32))
          (broadcastInDim S800000x1 ![0] bcast_S800000_S800000x1_0
            (W (Proc.devRef .tc main_v3) : S800000.Idx → BitVec 32))
          (Host.gather gather_S100000x47_S800000x1_S800000x47_1_0_n_n_0_1_147
            (W (Proc.devRef .tc main_v39_0) : S100000x47.Idx → EReal)
            (broadcastInDim S800000x1 ![0] bcast_S800000_S800000x1_0
              (wrapped (W (Proc.devRef .tc main_v1))))) := by
    show StableHlo.after hostOps2 W (Proc.devRef .tc main_v49) = _
    after_results_simp
  rw [e]
  refine (GatherScatter.Host_scatterAdd_rows2_apply (N := 100000) (C := 47) (E := 800000)
    scatter_S100000x47_S800000x1_S800000x47_1_0_0_1_wf _ _ _ n o).trans ?_
  rw [bcast0_apply]
  refine (congrArg (· + _) Ideal.ofBits_zero_f32).trans ((zero_add _).trans ?_)
  refine Finset.sum_congr ?_ fun e _ => ?_
  · unfold dstEdges
    refine Finset.filter_congr fun e _ => ?_
    rw [bcastCol_apply, hv3]
  · refine (GatherScatter.gather_rows2_apply (N := 100000) (C := 47) (E := 800000) (by decide)
      gather_S100000x47_S800000x1_S800000x47_1_0_n_n_0_1_147_wf _ _ e o).trans ?_
    have hw : broadcastInDim S800000x1 ![0] bcast_S800000_S800000x1_0 (wrapped (W (Proc.devRef .tc main_v1)))
        (ix2 e (0 : Fin 1)) = srcWord a1' e := by
      rw [bcastCol_apply]
      exact wrapped_at _ a1' hv1 e
    exact congrArg (fun p => mat (W (Proc.devRef .tc main_v39_0)) p o)
      (Fin.ext (congrArg (fun w : BitVec 32 => min w.toInt.toNat (100000 - 1)) hw))

/-! ## The second layer's bias as a row -/

/-- THE BIAS ROW at output feature `o`. -/
theorem h2_b (o : Fin 47) :
    StableHlo.after hostOps2 W (Proc.devRef .tc main_v50) (ix2 (0 : Fin 1) o)
      = vec (W (Proc.devRef .tc main_arg8)) o := by
  have e : (StableHlo.after hostOps2 W (Proc.devRef .tc main_v50) : S1x47.Idx → EReal)
      = shapeCast S1x47 (W (Proc.devRef .tc main_arg8) : S47.Idx → EReal) shapeCasts_S47_S1x47 := by
    show StableHlo.after hostOps2 W (Proc.devRef .tc main_v50) = _
    after_results_simp
    rfl
  rw [e, shapeCast_a_1a_apply]

end Cert.KernelIdeal.HostRead2

end
-- ==== Proof.LibBlockSum.lean ====
/-
  Sums over rows taken block by block, and running sums. A sum over `N = A · B` rows is the sum, over the `A` blocks of
  `B` consecutive rows, of each block's sum: row `t · B + p` is row `p` of block `t`. A sequence that starts at the
  first term and adds one more term at each step is, at step `n`, the sum of the terms up to `n`. A sum over the
  naturals below `N` is the sum over `Fin N`.
-/
import Mathlib.Algebra.BigOperators.Fin
import Mathlib.Data.Fintype.BigOperators
import Mathlib.Logic.Equiv.Fin.Basic

open scoped BigOperators

namespace Cert.BlockSum

/-- Row `p` of block `t`, of `A` blocks of `B` rows each, is one of the `N = A · B` rows. -/
theorem row_lt {A B N : ℕ} (hN : A * B = N) (t : Fin A) (p : Fin B) : t.val * B + p.val < N := by
  have h2 : (t.val + 1) * B ≤ A * B := Nat.mul_le_mul_right B (Nat.succ_le_of_lt t.isLt)
  rw [Nat.add_mul, Nat.one_mul] at h2
  have h3 := p.isLt
  omega

/-- A sum over `N = A · B` rows, taken block of `B` rows by block, is the sum over all the rows. -/
theorem blockSum {M : Type*} [AddCommMonoid M] (A B N : ℕ) (hN : A * B = N) (f : Fin N → M) :
    (∑ t : Fin A, ∑ p : Fin B, f ⟨t.val * B + p.val, row_lt hN t p⟩) = ∑ n : Fin N, f n := by
  subst hN
  refine (Fintype.sum_prod_type' fun (t : Fin A) (p : Fin B) => f ⟨t.val * B + p.val, row_lt rfl t p⟩).symm.trans ?_
  refine Eq.trans ?_ (Equiv.sum_comp finProdFinEquiv f)
  refine Finset.sum_congr rfl fun x _ => congrArg f (Fin.ext ?_)
  show x.1.val * B + x.2.val = x.2.val + B * x.1.val
  rw [Nat.mul_comm, Nat.add_comm]

/-- A running sum started from zero: if `s 0` is zero plus the first term and each later `s (n + 1)` adds the next term to
    `s n`, then below `N` the value `s n` is the sum of the terms up to and including `n`. -/
theorem accSum {M : Type*} [AddCommMonoid M] (N : ℕ) (a : ℕ → M) (s : ℕ → M) (h0 : s 0 = 0 + a 0)
    (hs : ∀ n, n + 1 < N → s (n + 1) = s n + a (n + 1)) :
    ∀ n, n < N → s n = ∑ t ∈ Finset.range (n + 1), a t := by
  intro n
  induction n with
  | zero =>
    intro _
    show s 0 = ∑ t ∈ Finset.range 1, a t
    rw [Finset.sum_range_one, h0, zero_add]
  | succ n ih =>
    intro hn
    rw [hs n hn, ih (Nat.lt_of_succ_lt hn)]
    exact (Finset.sum_range_succ a (n + 1)).symm

/-- A sum over the naturals below `N` is the sum over `Fin N` of the terms at the values. -/
theorem range_to_fin {M : Type*} [AddCommMonoid M] (N : ℕ) (a : ℕ → M) :
    ∑ t ∈ Finset.range N, a t = ∑ t : Fin N, a t.val :=
  Finset.sum_range a

end Cert.BlockSum
-- ==== Proof.KSpec.lean ====
import proofs.«162611_j39075612459051_2_alg».proof.Proof.LaunchKernelIdeal
import proofs.«162611_j39075612459051_2_alg».proof.Proof.Gen.KernelIdeal.Skeleton
import proofs.«162611_j39075612459051_2_alg».proof.Proof.Gen.KernelIdeal.Points
import proofs.«162611_j39075612459051_2_alg».proof.Proof.KKeep
import proofs.«162611_j39075612459051_2_alg».proof.Proof.KVal0
import proofs.«162611_j39075612459051_2_alg».proof.Proof.KVal1
import proofs.«162611_j39075612459051_2_alg».proof.Proof.KVal2
import proofs.«162611_j39075612459051_2_alg».proof.Proof.KHost
import proofs.«162611_j39075612459051_2_alg».proof.Proof.KHost2
import proofs.«162611_j39075612459051_2_alg».proof.Proof.SageAlgebra
import proofs.«162611_j39075612459051_2_alg».proof.Proof.SageConsts
import proofs.«162611_j39075612459051_2_alg».proof.Proof.EdgeRows
import proofs.«162611_j39075612459051_2_alg».proof.Proof.LibBlockSum
import Idealize.ShloMosaic.Lib.ValueIdx
import Idealize.ShloMosaic.PureOps.Ideal.Laws
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! # The kernel program's result is the specification's kernel form

Following the arrays through the run: the first stretch of host operations computes the degrees, the aggregated rows
and the transposed weights; the first region the normalised rows and their column sums; the second stretch the mean
and the clipped variance; the second region the two projections of the activations; the third stretch the
aggregated projections; the third region the row-normalised combination. Each is the specification's term. -/

open Cert.EdgeRows Cert.SageConsts

variable (m : (ℓ : Loc nD τ sig) → Buf (Elt Ideal) ℓ) (ρ : Dev nD → PrngReg) (c : Dev nD)

/-- The ten argument arrays of core `c`. -/
abbrev A0 : S100000x128.Idx → EReal := m ((c : Thread nD τ).loc main_arg0)
abbrev A1 : IVec ⟨2, ![2, 800000]⟩ 32 := m ((c : Thread nD τ).loc main_arg1)
abbrev A2 : S128x128.Idx → EReal := m ((c : Thread nD τ).loc main_arg2)
abbrev A3 : S128.Idx → EReal := m ((c : Thread nD τ).loc main_arg3)
abbrev A4 : S128x128.Idx → EReal := m ((c : Thread nD τ).loc main_arg4)
abbrev A5 : S128.Idx → EReal := m ((c : Thread nD τ).loc main_arg5)
abbrev A6 : S128.Idx → EReal := m ((c : Thread nD τ).loc main_arg6)
abbrev A7 : S47x128.Idx → EReal := m ((c : Thread nD τ).loc main_arg7)
abbrev A8 : S47.Idx → EReal := m ((c : Thread nD τ).loc main_arg8)
abbrev A9 : S47x128.Idx → EReal := m ((c : Thread nD τ).loc main_arg9)

/-! ## The first stretch of host operations -/

theorem s_cnt (n : Fin 100000) : V1 m ρ c main_v8 (ix2 n (0 : Fin 1)) = Cert.SageAlgebra.cnt (dstEdges (A1 m c)) one n :=
  Cert.KernelIdeal.HostRead.h0_cnt (W0 m ρ c) n
theorem s_agg (n : Fin 100000) (k : Fin 128) :
    V1 m ρ c main_v18 (ix2 n k) = Cert.SageAlgebra.agg1 (mat (A0 m c)) (srcRow (A1 m c)) (dstEdges (A1 m c)) n k :=
  Cert.KernelIdeal.HostRead.h0_agg (W0 m ρ c) n k
theorem s_wl (k j : Fin 128) : V1 m ρ c main_v19 (ix2 k j) = A2 m c (ix2 j k) := Cert.KernelIdeal.HostRead.h0_wl (W0 m ρ c) k j
theorem s_wr (k j : Fin 128) : V1 m ρ c main_v20 (ix2 k j) = A4 m c (ix2 j k) := Cert.KernelIdeal.HostRead.h0_wr (W0 m ρ c) k j
theorem s_b (j : Fin 128) : V1 m ρ c main_v21 (ix2 (0 : Fin 1) j) = A3 m c (ix1 j) := Cert.KernelIdeal.HostRead.h0_b (W0 m ρ c) j
theorem s_x : (V1 m ρ c main_arg0 : S100000x128.Idx → EReal) = A0 m c := W1_arg0 m ρ c

/-! ## The first region -/

theorem s_out1 (n : Fin 100000) (j : Fin 128) :
    rowsU (V1 m ρ c main_v18) (V1 m ρ c main_v8) (V1 m ρ c main_arg0) (V1 m ρ c main_v19) (V1 m ρ c main_v21) (V1 m ρ c main_v20) n j = Cert.SageAlgebra.out1 (mat (A0 m c)) (srcRow (A1 m c)) (dstEdges (A1 m c)) (mat (A2 m c)) (mat (A4 m c)) (vec (A3 m c)) one n j := by
  unfold rowsU Cert.SageAlgebra.out1
  refine congrArg₂ (· + ·) (congrArg₂ (· + ·) (Finset.sum_congr rfl fun k _ => ?_) ?_) (Finset.sum_congr rfl fun k _ => ?_)
  · rw [s_agg, s_cnt, s_wl]; rfl
  · exact s_b m ρ c j
  · rw [s_wr, s_x]

theorem s_h (n : Fin 100000) (j : Fin 128) :
    rowsA (V1 m ρ c main_v18) (V1 m ρ c main_v8) (V1 m ρ c main_arg0) (V1 m ρ c main_v19) (V1 m ρ c main_v21) (V1 m ρ c main_v20) (ix2 n j) = Cert.SageAlgebra.h (mat (A0 m c)) (srcRow (A1 m c)) (dstEdges (A1 m c)) (mat (A2 m c)) (mat (A4 m c)) (vec (A3 m c)) one e12 n j := by
  have hu : ∀ j' : Fin 128, rowsU (V1 m ρ c main_v18) (V1 m ρ c main_v8) (V1 m ρ c main_arg0) (V1 m ρ c main_v19) (V1 m ρ c main_v21) (V1 m ρ c main_v20) n j' = Cert.SageAlgebra.out1 (mat (A0 m c)) (srcRow (A1 m c)) (dstEdges (A1 m c)) (mat (A2 m c)) (mat (A4 m c)) (vec (A3 m c)) one n j' :=
    fun j' => s_out1 m ρ c n j'
  show Ideal.div (rowsU (V1 m ρ c main_v18) (V1 m ρ c main_v8) (V1 m ρ c main_arg0) (V1 m ρ c main_v19) (V1 m ρ c main_v21) (V1 m ρ c main_v20) n j)
      (max (Ideal.sqrt (∑ j' : Fin 128, rowsU (V1 m ρ c main_v18) (V1 m ρ c main_v8) (V1 m ρ c main_arg0) (V1 m ρ c main_v19) (V1 m ρ c main_v21) (V1 m ρ c main_v20) n j' * rowsU (V1 m ρ c main_v18) (V1 m ρ c main_v8) (V1 m ρ c main_arg0) (V1 m ρ c main_v19) (V1 m ρ c main_v21) (V1 m ρ c main_v20) n j')) (Ideal.ofBits .f32 0x2B8CBCCC#32)) = _
  simp only [hu]
  rfl

/-- The first region's row output, as the second region finds it. -/
theorem s_h3 (n : Fin 100000) (j : Fin 128) :
    V3 m ρ c main_v22_0 (ix2 n j) = Cert.SageAlgebra.h (mat (A0 m c)) (srcRow (A1 m c)) (dstEdges (A1 m c)) (mat (A2 m c)) (mat (A4 m c)) (vec (A3 m c)) one e12 n j := by
  rw [show (V3 m ρ c main_v22_0) = (dat0 (V1 m ρ) c).arrAt 6 cfg0.N from W3_v22_0 m ρ c, final0_6]
  exact s_h m ρ c n j

theorem ten_lt (t : Fin 10) : t.val < cfg0.N := by have : cfg0.N = 10 := N_0; omega

/-- The column sums of the normalised rows over all hundred thousand rows, taken ten blocks of ten thousand. -/
theorem s_sum (j : Fin 128) :
    @Eq EReal (W2 m ρ c (Proc.devRef .tc main_v22_1) (ix2 (0 : Fin 1) j)) (∑ n : Fin 100000, Cert.SageAlgebra.h (mat (A0 m c)) (srcRow (A1 m c)) (dstEdges (A1 m c)) (mat (A2 m c)) (mat (A4 m c)) (vec (A3 m c)) one e12 n j) := by
  rw [W2_v22_1, final0_7, sumAt_apply (V1 m ρ) c j 9 nine_lt, Cert.BlockSum.range_to_fin 10 (blockSum (V1 m ρ) c j),
    ← Cert.BlockSum.blockSum 10 10000 100000 (by norm_num) (fun n => Cert.SageAlgebra.h (mat (A0 m c)) (srcRow (A1 m c)) (dstEdges (A1 m c)) (mat (A2 m c)) (mat (A4 m c)) (vec (A3 m c)) one e12 n j)]
  refine Finset.sum_congr rfl fun t _ => ?_
  unfold blockSum
  rw [dif_pos (ten_lt t)]
  refine Finset.sum_congr rfl fun p _ => ?_
  rw [hAt_apply]
  exact s_h m ρ c _ j
theorem s_sq (j : Fin 128) :
    @Eq EReal (W2 m ρ c (Proc.devRef .tc main_v22_2) (ix2 (0 : Fin 1) j))
      (∑ n : Fin 100000, Cert.SageAlgebra.h (mat (A0 m c)) (srcRow (A1 m c)) (dstEdges (A1 m c)) (mat (A2 m c)) (mat (A4 m c)) (vec (A3 m c)) one e12 n j * Cert.SageAlgebra.h (mat (A0 m c)) (srcRow (A1 m c)) (dstEdges (A1 m c)) (mat (A2 m c)) (mat (A4 m c)) (vec (A3 m c)) one e12 n j) := by
  rw [W2_v22_2, final0_8, sqAt_apply (V1 m ρ) c j 9 nine_lt, Cert.BlockSum.range_to_fin 10 (blockSq (V1 m ρ) c j),
    ← Cert.BlockSum.blockSum 10 10000 100000 (by norm_num) (fun n => Cert.SageAlgebra.h (mat (A0 m c)) (srcRow (A1 m c)) (dstEdges (A1 m c)) (mat (A2 m c)) (mat (A4 m c)) (vec (A3 m c)) one e12 n j * Cert.SageAlgebra.h (mat (A0 m c)) (srcRow (A1 m c)) (dstEdges (A1 m c)) (mat (A2 m c)) (mat (A4 m c)) (vec (A3 m c)) one e12 n j)]
  refine Finset.sum_congr rfl fun t _ => ?_
  unfold blockSq
  rw [dif_pos (ten_lt t)]
  refine Finset.sum_congr rfl fun p _ => ?_
  rw [hAt_apply]
  exact congrArg₂ (· * ·) (s_h m ρ c _ j) (s_h m ρ c _ j)

/-! ## The second stretch of host operations -/

theorem s_mu (j : Fin 128) : V3 m ρ c main_v35 (ix2 (0 : Fin 1) j) = Cert.SageAlgebra.mu (mat (A0 m c)) (srcRow (A1 m c)) (dstEdges (A1 m c)) (mat (A2 m c)) (mat (A4 m c)) (vec (A3 m c)) one e12 nN j := by
  rw [show V3 m ρ c main_v35 (ix2 (0 : Fin 1) j) = _ from Cert.KernelIdeal.HostRead.h1_mean (W2 m ρ c) j, s_sum]
  rfl
theorem s_var (j : Fin 128) : V3 m ρ c main_v36 (ix2 (0 : Fin 1) j) = Cert.SageAlgebra.varK (mat (A0 m c)) (srcRow (A1 m c)) (dstEdges (A1 m c)) (mat (A2 m c)) (mat (A4 m c)) (vec (A3 m c)) one e12 nN zero j := by
  rw [show V3 m ρ c main_v36 (ix2 (0 : Fin 1) j) = _ from Cert.KernelIdeal.HostRead.h1_var (W2 m ρ c) j, s_sum, s_sq]
  rfl
theorem s_gam (j : Fin 128) : V3 m ρ c main_v37 (ix2 (0 : Fin 1) j) = A5 m c (ix1 j) := by
  rw [show V3 m ρ c main_v37 (ix2 (0 : Fin 1) j) = _ from Cert.KernelIdeal.HostRead.h1_gam (W2 m ρ c) j, W2_arg5]
theorem s_bet (j : Fin 128) : V3 m ρ c main_v38 (ix2 (0 : Fin 1) j) = A6 m c (ix1 j) := by
  rw [show V3 m ρ c main_v38 (ix2 (0 : Fin 1) j) = _ from Cert.KernelIdeal.HostRead.h1_bet (W2 m ρ c) j, W2_arg6]
theorem s_w2l (j : Fin 128) (o : Fin 47) : V3 m ρ c main_v33 (ix2 j o) = A7 m c (ix2 o j) := by
  rw [show V3 m ρ c main_v33 (ix2 j o) = _ from Cert.KernelIdeal.HostRead.h1_w2l (W2 m ρ c) j o, W2_arg7]
theorem s_w2r (j : Fin 128) (o : Fin 47) : V3 m ρ c main_v34 (ix2 j o) = A9 m c (ix2 o j) := by
  rw [show V3 m ρ c main_v34 (ix2 j o) = _ from Cert.KernelIdeal.HostRead.h1_w2r (W2 m ρ c) j o, W2_arg9]

/-! ## The second region -/

theorem s_act (n : Fin 100000) (j : Fin 128) :
    act1 (V3 m ρ) c n j = Cert.SageAlgebra.act (mat (A0 m c)) (srcRow (A1 m c)) (dstEdges (A1 m c)) (mat (A2 m c)) (mat (A4 m c)) (vec (A3 m c)) (vec (A5 m c)) (vec (A6 m c)) one e12 e5 nN zero
      (Cert.SageAlgebra.varK (mat (A0 m c)) (srcRow (A1 m c)) (dstEdges (A1 m c)) (mat (A2 m c)) (mat (A4 m c)) (vec (A3 m c)) one e12 nN zero) n j := by
  unfold act1 actA Cert.SageAlgebra.act
  rw [s_h3, s_mu, s_var, s_gam, s_bet]
  try rfl

theorem s_z (n : Fin 100000) (o : Fin 47) :
    @Eq EReal (W4 m ρ c (Proc.devRef .tc main_v39_0) (ix2 n o)) <| Cert.SageAlgebra.z (mat (A0 m c)) (srcRow (A1 m c)) (dstEdges (A1 m c)) (mat (A2 m c)) (mat (A4 m c)) (vec (A3 m c)) (vec (A5 m c)) (vec (A6 m c)) (mat (A7 m c)) one e12 e5 nN zero n o := by
  rw [W4_v39_0, final1_7]
  show ∑ j : Fin 128, act1 (V3 m ρ) c n j * V3 m ρ c main_v33 (ix2 j o) = _
  refine Finset.sum_congr rfl fun j _ => ?_
  rw [s_act, s_w2l]
theorem s_r (n : Fin 100000) (o : Fin 47) :
    V5 m ρ c main_v39_1 (ix2 n o) = Cert.SageAlgebra.r (mat (A0 m c)) (srcRow (A1 m c)) (dstEdges (A1 m c)) (mat (A2 m c)) (mat (A4 m c)) (vec (A3 m c)) (vec (A5 m c)) (vec (A6 m c)) (mat (A9 m c)) one e12 e5 nN zero n o := by
  rw [show (V5 m ρ c main_v39_1) = (dat1 (V3 m ρ) c).arrAt 8 cfg1.N from W5_v39_1 m ρ c, final1_8]
  show ∑ j : Fin 128, act1 (V3 m ρ) c n j * V3 m ρ c main_v34 (ix2 j o) = _
  refine Finset.sum_congr rfl fun j _ => ?_
  rw [s_act, s_w2r]

/-! ## The third stretch of host operations -/

theorem s_aggz (n : Fin 100000) (o : Fin 47) :
    @Eq EReal (V5 m ρ c main_v49 (ix2 n o)) (Cert.SageAlgebra.aggz (mat (A0 m c)) (srcRow (A1 m c)) (dstEdges (A1 m c)) (mat (A2 m c)) (mat (A4 m c)) (vec (A3 m c)) (vec (A5 m c)) (vec (A6 m c)) (mat (A7 m c)) one e12 e5 nN zero n o) := by
  have h := Cert.KernelIdeal.HostRead2.h2_aggz (W4 m ρ c) (A1 m c)
    (fun e => by rw [W4_v1]; exact Cert.KernelIdeal.HostRead.h0_v1 (W0 m ρ c) e)
    (fun e => by rw [W4_v3]; exact Cert.KernelIdeal.HostRead.h0_v3 (W0 m ρ c) e) n o
  refine @Eq.trans EReal _ _ _ h ?_
  unfold Cert.SageAlgebra.aggz
  refine Finset.sum_congr rfl fun e _ => ?_
  exact s_z m ρ c _ o
theorem s_b2 (o : Fin 47) : V5 m ρ c main_v50 (ix2 (0 : Fin 1) o) = A8 m c (ix1 o) := by
  rw [show V5 m ρ c main_v50 (ix2 (0 : Fin 1) o) = _ from Cert.KernelIdeal.HostRead2.h2_b (W4 m ρ c) o, W4_arg8]
theorem s_cnt5 (n : Fin 100000) : V5 m ρ c main_v8 (ix2 n (0 : Fin 1)) = Cert.SageAlgebra.cnt (dstEdges (A1 m c)) one n := by
  rw [show (V5 m ρ c main_v8) = V1 m ρ c main_v8 from W5_v8 m ρ c]
  exact s_cnt m ρ c n

/-! ## The third region -/

theorem s_out2 (n : Fin 100000) (o : Fin 47) :
    combU (V5 m ρ c main_v49) (V5 m ρ c main_v8) (V5 m ρ c main_v50) (V5 m ρ c main_v39_1) n o
      = Cert.SageAlgebra.out2K (mat (A0 m c)) (srcRow (A1 m c)) (dstEdges (A1 m c)) (mat (A2 m c)) (mat (A4 m c)) (vec (A3 m c)) (vec (A5 m c)) (vec (A6 m c)) (mat (A7 m c)) (mat (A9 m c)) (vec (A8 m c)) one e12 e5 nN zero n o := by
  unfold combU Cert.SageAlgebra.out2K
  rw [s_aggz, s_cnt5, s_b2, s_r]
  try rfl

/-- THE KERNEL PROGRAM'S RESULT, entry by entry, is the specification's kernel form of the argument arrays. -/
theorem kernel_value (n : Fin 100000) (o : Fin 47) :
    (dat2 (V5 m ρ) c).arrAt 4 cfg2.N (ix2 n o) = Cert.SageAlgebra.resK (mat (A0 m c)) (srcRow (A1 m c)) (dstEdges (A1 m c)) (mat (A2 m c)) (mat (A4 m c)) (vec (A3 m c)) (vec (A5 m c)) (vec (A6 m c)) (mat (A7 m c)) (mat (A9 m c)) (vec (A8 m c)) one e12 e5 nN zero n o := by
  rw [final2_4]
  have hu : ∀ o' : Fin 47, combU (V5 m ρ c main_v49) (V5 m ρ c main_v8) (V5 m ρ c main_v50) (V5 m ρ c main_v39_1) n o' = Cert.SageAlgebra.out2K (mat (A0 m c)) (srcRow (A1 m c)) (dstEdges (A1 m c)) (mat (A2 m c)) (mat (A4 m c)) (vec (A3 m c)) (vec (A5 m c)) (vec (A6 m c)) (mat (A7 m c)) (mat (A9 m c)) (vec (A8 m c)) one e12 e5 nN zero n o' :=
    fun o' => s_out2 m ρ c n o'
  show Ideal.div (combU (V5 m ρ c main_v49) (V5 m ρ c main_v8) (V5 m ρ c main_v50) (V5 m ρ c main_v39_1) n o)
      (max (Ideal.sqrt (∑ o' : Fin 47, combU (V5 m ρ c main_v49) (V5 m ρ c main_v8) (V5 m ρ c main_v50) (V5 m ρ c main_v39_1) n o' * combU (V5 m ρ c main_v49) (V5 m ρ c main_v8) (V5 m ρ c main_v50) (V5 m ρ c main_v39_1) n o')) (Ideal.ofBits .f32 0x2B8CBCCC#32)) = _
  simp only [hu]
  rfl

end Cert.KernelIdeal.Hand

end
-- ==== Proof.RefIsSpec.lean ====
import proofs.«162611_j39075612459051_2_alg».proof.Proof.Gen.ReferenceIdeal.Read
import proofs.«162611_j39075612459051_2_alg».proof.Proof.SageAlgebra
import proofs.«162611_j39075612459051_2_alg».proof.Proof.EdgeRows
import proofs.«162611_j39075612459051_2_alg».proof.Proof.SageConsts
import proofs.«162611_j39075612459051_2_alg».proof.Proof.LibGatherScatter
import proofs.«162611_j39075612459051_2_alg».proof.Proof.LibScatterCount
import proofs.«162611_j39075612459051_2_alg».proof.Proof.LibMatDot
import Idealize.ShloMosaic.Lib.ValueIdx
import Idealize.ShloMosaic.Lib.Pipeline.Value
import Idealize.ShloMosaic.Lib.ValueLayout
import Idealize.ShloMosaic.PureOps.Ideal.Laws

/-!
# The reference program computes the convolution, index by index

The reference program's operations are read one block at a time, each block at an index, against the
definitions of the two-layer mean-aggregating graph convolution: the rows of the array of edge ends; the
gather of the rows the edges read and their scatter-add onto the nodes the edges land on; the count of the
edges landing on a node; the mean; the two matrix products and the bias; the division of a row by its
Euclidean norm; the mean and the variance over the nodes; the normalised, rectified activations; and the same
aggregation, products and normalisation for the second layer.
-/

noncomputable section

open scoped BigOperators

namespace Cert.ReferenceIdeal.RefSpec

open Cert.ReferenceIdeal Cert.ReferenceIdeal.Gen Cert.ReferenceIdeal.Read Idealize.ShloMosaic
  Idealize.ShloMosaic.ValueIdx Cert.ExtendedReals Cert.EdgeRows Cert.SageConsts

/-- Two indices of a two-axis shape agree when their coordinates do, each by computation. -/
local macro "idx2" : tactic => `(tactic| (funext a; match a with | ⟨0, _⟩ => rfl | ⟨1, _⟩ => rfl))
/-- Two indices of a one-axis shape agree when their coordinate does, by computation. -/
local macro "idx1" : tactic => `(tactic| (funext a; match a with | ⟨0, _⟩ => rfl))

variable (a0 : (⟨S100000x128, .f32⟩ : BufTy).Contents (Elt Ideal))
  (a1 : (⟨S2x800000, .i32⟩ : BufTy).Contents (Elt Ideal))
  (a2 : (⟨S128x128, .f32⟩ : BufTy).Contents (Elt Ideal))
  (a3 : (⟨S128, .f32⟩ : BufTy).Contents (Elt Ideal))
  (a4 : (⟨S128x128, .f32⟩ : BufTy).Contents (Elt Ideal))
  (a5 a6 : (⟨S128, .f32⟩ : BufTy).Contents (Elt Ideal))
  (a7 : (⟨S47x128, .f32⟩ : BufTy).Contents (Elt Ideal))
  (a8 : (⟨S47, .f32⟩ : BufTy).Contents (Elt Ideal))
  (a9 : (⟨S47x128, .f32⟩ : BufTy).Contents (Elt Ideal))

/-! ## The two rows of the array of edge ends -/

/-- Row 0 of the array of edge ends, flattened. -/
theorem v1_at (e : Fin 800000) : val_main_v1 (F := Ideal) a1 (ix1 e) = a1 (ix2 (0 : Fin 2) e) := by
  rw [val_main_v1_apply, val_main_v0_apply]
  refine congrArg a1 (funext fun a => Fin.ext ?_)
  match a with
  | ⟨0, _⟩ => rfl
  | ⟨1, _⟩ => show e.val % 800000 = e.val; omega

/-- Row 1 of the array of edge ends, flattened. -/
theorem v3_at (e : Fin 800000) : val_main_v3 (F := Ideal) a1 (ix1 e) = a1 (ix2 (1 : Fin 2) e) := by
  rw [val_main_v3_apply, val_main_v2_apply]
  refine congrArg a1 (funext fun a => Fin.ext ?_)
  match a with
  | ⟨0, _⟩ => rfl
  | ⟨1, _⟩ => show e.val % 800000 = e.val; omega

/-- The column of nodes read: at edge `e`, the word `srcWord`. -/
theorem v9_at (e : Fin 800000) : val_main_v9 (F := Ideal) a1 (ix2 e (0 : Fin 1)) = srcWord a1 e := by
  rw [val_main_v9_apply]
  have hi : idx_main_v9 (ix2 e (0 : Fin 1)) = ix1 e := by idx1
  rw [hi, val_main_v8_apply, val_main_v5_apply, val_main_v7_apply, val_main_v4_apply, val_main_v6_apply,
    val_main_c_apply, val_main_c_0_apply, v1_at]
  rfl

/-- The column of nodes landed on: at edge `e`, row 1 of the array of edge ends. -/
theorem v12_at (e : Fin 800000) : val_main_v12 (F := Ideal) a1 (ix2 e (0 : Fin 1)) = a1 (ix2 (1 : Fin 2) e) := by
  rw [val_main_v12_apply]
  have hi : idx_main_v12 (ix2 e (0 : Fin 1)) = ix1 e := by idx1
  rw [hi, v3_at]

/-- The same column, as the count reads it. -/
theorem v16_at (e : Fin 800000) : val_main_v16 (F := Ideal) a1 (ix2 e (0 : Fin 1)) = a1 (ix2 (1 : Fin 2) e) := by
  rw [val_main_v16_apply]
  have hi : idx_main_v16 (ix2 e (0 : Fin 1)) = ix1 e := by idx1
  rw [hi, v3_at]

/-! ## The first aggregation -/

/-- The gathered rows: edge `e` carries the input row of the node it reads. -/
theorem v10_at (e : Fin 800000) (k : Fin 128) :
    val_main_v10 (F := Ideal) a0 a1 (ix2 e k) = a0 (ix2 (srcRow a1 e) k) := by
  unfold val_main_v10
  refine (GatherScatter.gather_rows2_apply (N := 100000) (C := 128) (E := 800000) (by decide)
    gather_S100000x128_S800000x1_S800000x128_1_0_n_n_0_1_1128_wf a0 (val_main_v9 (F := Ideal) a1) e k).trans ?_
  exact congrArg (fun p => a0 (ix2 p k))
    (Fin.ext (congrArg (fun w : BitVec 32 => min w.toInt.toNat (100000 - 1)) (v9_at a1 e)))

/-- The array the rows are added into is zero. -/
theorem v11_at (i : S100000x128.Idx) : val_main_v11 (F := Ideal) i = 0 := by
  rw [val_main_v11_apply, val_main_cst_apply]; exact Ideal.ofBits_zero_f32

/-- The rows added onto the nodes the edges land on: the sum, over the edges landing on `n`, of the input
    rows of the nodes they read. -/
theorem v13_at (n : Fin 100000) (k : Fin 128) :
    val_main_v13 (F := Ideal) a0 a1 (ix2 n k)
      = SageAlgebra.agg1 (mat a0) (srcRow a1) (dstEdges a1) n k := by
  unfold val_main_v13
  refine (GatherScatter.Host_scatterAdd_rows2_apply (N := 100000) (C := 128) (E := 800000)
    scatter_S100000x128_S800000x1_S800000x128_1_0_0_1_wf (val_main_v11 (F := Ideal))
    (val_main_v12 (F := Ideal) a1) (val_main_v10 (F := Ideal) a0 a1) n k).trans ?_
  rw [v11_at, zero_add]
  simp only [v12_at, v10_at]
  rfl

/-! ## The count of the edges landing on a node -/

/-- Every update of the count is `1`. -/
theorem v14_at (i : S800000.Idx) : val_main_v14 (F := Ideal) i = one := by
  rw [val_main_v14_apply, val_main_cst_1_apply]; rfl

/-- The array the count is added into is zero. -/
theorem v15_at (i : S100000.Idx) : val_main_v15 (F := Ideal) i = 0 := by
  rw [val_main_v15_apply, val_main_cst_2_apply]; exact Ideal.ofBits_zero_f32

/-- The count: `1` added once per edge landing on `n`. -/
theorem v17_at (n : Fin 100000) :
    val_main_v17 (F := Ideal) a1 (ix1 n) = SageAlgebra.cnt (dstEdges a1) one n := by
  unfold val_main_v17
  refine (ScatterCount.Host_scatterAdd_rows1_apply (N := 100000) (E := 800000)
    scatter_S100000_S800000x1_S800000_n_0_0_1_wf (val_main_v15 (F := Ideal))
    (val_main_v16 (F := Ideal) a1) (val_main_v14 (F := Ideal)) n).trans ?_
  rw [v15_at, zero_add]
  simp only [v16_at, v14_at]
  rfl

/-- The count kept above `1`. -/
theorem v19_at (n : Fin 100000) :
    val_main_v19 (F := Ideal) a1 (ix1 n) = max (SageAlgebra.cnt (dstEdges a1) one n) one := by
  rw [val_main_v19_apply, v17_at, val_main_v18_apply, val_main_cst_3_apply]; rfl

/-- The same, laid along the rows. -/
theorem v21_at (n : Fin 100000) (k : Fin 128) :
    val_main_v21 (F := Ideal) a1 (ix2 n k) = max (SageAlgebra.cnt (dstEdges a1) one n) one := by
  rw [val_main_v21_apply]
  have h1 : idx_main_v21 (ix2 n k) = ix2 n (0 : Fin 1) := by idx2
  rw [h1, val_main_v20_apply]
  have h2 : idx_main_v20 (ix2 n (0 : Fin 1)) = ix1 n := by idx1
  rw [h2, v19_at]

/-- The mean of the input rows over the edges landing on a node. -/
theorem v22_at (n : Fin 100000) (k : Fin 128) :
    val_main_v22 (F := Ideal) a0 a1 (ix2 n k)
      = SageAlgebra.m1 (mat a0) (srcRow a1) (dstEdges a1) one n k := by
  rw [val_main_v22_apply, v13_at, v21_at]; rfl

/-! ## The first layer before normalisation -/

/-- The first weight matrix, transposed. -/
theorem v23_at (k j : Fin 128) : val_main_v23 (F := Ideal) a2 (ix2 k j) = a2 (ix2 j k) := by
  rw [val_main_v23_apply]
  exact congrArg a2 (by idx2)

/-- The aggregated features through `w1l`. -/
theorem v24_at (n : Fin 100000) (j : Fin 128) :
    val_main_v24 (F := Ideal) a0 a1 a2 (ix2 n j)
      = ∑ k, SageAlgebra.m1 (mat a0) (srcRow a1) (dstEdges a1) one n k * mat a2 j k := by
  rw [val_main_v24_apply]
  refine Finset.sum_congr rfl fun k _ => ?_
  have hl : lidx_main_v24 (ix2 n j) k = ix2 n k := by idx2
  have hr : ridx_main_v24 (ix2 n j) k = ix2 k j := by idx2
  rw [hl, hr, v22_at, v23_at]

/-- The bias, laid along the rows. -/
theorem v26_at (n : Fin 100000) (j : Fin 128) : val_main_v26 (F := Ideal) a3 (ix2 n j) = a3 (ix1 j) := by
  rw [val_main_v26_apply]
  have h1 : idx_main_v26 (ix2 n j) = ix2 (0 : Fin 1) j := by idx2
  rw [h1, val_main_v25_apply]
  exact congrArg a3 (by idx1)

/-- The second weight matrix, transposed. -/
theorem v28_at (k j : Fin 128) : val_main_v28 (F := Ideal) a4 (ix2 k j) = a4 (ix2 j k) := by
  rw [val_main_v28_apply]
  exact congrArg a4 (by idx2)

/-- The node's own features through `w1r`. -/
theorem v29_at (n : Fin 100000) (j : Fin 128) :
    val_main_v29 (F := Ideal) a0 a4 (ix2 n j) = ∑ k, mat a0 n k * mat a4 j k := by
  rw [val_main_v29_apply]
  refine Finset.sum_congr rfl fun k _ => ?_
  have hl : lidx_main_v29 (ix2 n j) k = ix2 n k := by idx2
  have hr : ridx_main_v29 (ix2 n j) k = ix2 k j := by idx2
  rw [hl, hr, v28_at]

/-- The first layer before normalisation. -/
theorem v30_at (n : Fin 100000) (j : Fin 128) :
    val_main_v30 (F := Ideal) a0 a1 a2 a3 a4 (ix2 n j)
      = SageAlgebra.out1 (mat a0) (srcRow a1) (dstEdges a1) (mat a2) (mat a4) (vec a3) one n j := by
  rw [val_main_v30_apply, val_main_v27_apply, v24_at, v26_at, v29_at]; rfl

/-! ## The division of a row by its Euclidean norm -/

/-- The sum of the squares of a row. -/
theorem v32_at (n : Fin 100000) :
    val_main_v32 (F := Ideal) a0 a1 a2 a3 a4 (ix1 n)
      = ∑ j, SageAlgebra.out1 (mat a0) (srcRow a1) (dstEdges a1) (mat a2) (mat a4) (vec a3) one n j
          * SageAlgebra.out1 (mat a0) (srcRow a1) (dstEdges a1) (mat a2) (mat a4) (vec a3) one n j := by
  rw [val_main_v32_apply, val_main_cst_4_apply]
  refine (congrArg (· + _) Ideal.ofBits_zero_f32).trans ((zero_add _).trans ?_)
  refine Finset.sum_congr rfl fun j _ => ?_
  have hi : idx_main_v32 (ix1 n) j = ix2 n j := by idx2
  rw [hi, val_main_v31_apply, v30_at]; rfl

/-- The norm of a row kept above `e12`, laid along the row. -/
theorem v37_at (n : Fin 100000) (j : Fin 128) :
    val_main_v37 (F := Ideal) a0 a1 a2 a3 a4 (ix2 n j)
      = max (Ideal.sqrt (∑ j', SageAlgebra.out1 (mat a0) (srcRow a1) (dstEdges a1) (mat a2) (mat a4) (vec a3) one n j'
          * SageAlgebra.out1 (mat a0) (srcRow a1) (dstEdges a1) (mat a2) (mat a4) (vec a3) one n j')) e12 := by
  rw [val_main_v37_apply]
  have h1 : idx_main_v37 (ix2 n j) = ix2 n (0 : Fin 1) := by idx2
  rw [h1, val_main_v36_apply, val_main_v34_apply, val_main_v33_apply]
  have h2 : idx_main_v33 (ix2 n (0 : Fin 1)) = ix1 n := by idx1
  rw [h2, v32_at, val_main_v35_apply, val_main_cst_5_apply, Ideal.hostUnary_sqrt_def]; rfl

/-- The first layer. -/
theorem v38_at (n : Fin 100000) (j : Fin 128) :
    val_main_v38 (F := Ideal) a0 a1 a2 a3 a4 (ix2 n j)
      = SageAlgebra.h (mat a0) (srcRow a1) (dstEdges a1) (mat a2) (mat a4) (vec a3) one e12 n j := by
  rw [val_main_v38_apply, v30_at, v37_at]; rfl

/-! ## The mean and the variance over the nodes -/

local notation "𝔥" => SageAlgebra.h (mat a0) (srcRow a1) (dstEdges a1) (mat a2) (mat a4) (vec a3) one e12
local notation "𝔪" => SageAlgebra.mu (mat a0) (srcRow a1) (dstEdges a1) (mat a2) (mat a4) (vec a3) one e12 nN
local notation "𝔳" => SageAlgebra.varR (mat a0) (srcRow a1) (dstEdges a1) (mat a2) (mat a4) (vec a3) one e12 nN

/-- The number of nodes, laid along a row. -/
theorem v40_at (i : S128.Idx) : val_main_v40 (F := Ideal) i = nN := by
  rw [val_main_v40_apply, val_main_cst_7_apply]; rfl

/-- The mean of a hidden feature over the nodes. -/
theorem v41_at (j : Fin 128) : val_main_v41 (F := Ideal) a0 a1 a2 a3 a4 (ix1 j) = 𝔪 j := by
  rw [val_main_v41_apply, val_main_v39_apply, val_main_cst_6_apply, v40_at]
  have hs : (∑ k : Fin 100000, val_main_v38 (F := Ideal) a0 a1 a2 a3 a4 (idx_main_v39 (ix1 j) k)) = ∑ n, 𝔥 n j :=
    Finset.sum_congr rfl fun n _ => by
      have hi : idx_main_v39 (ix1 j) n = ix2 n j := by idx2
      rw [hi, v38_at]
  rw [hs]
  refine (congrArg (fun t => FloatOps.hostDivf (t + _) _) Ideal.ofBits_zero_f32).trans ?_
  rw [zero_add]; rfl

/-- The mean, laid along the rows. -/
theorem v43_at (n : Fin 100000) (j : Fin 128) :
    val_main_v43 (F := Ideal) a0 a1 a2 a3 a4 (ix2 n j) = 𝔪 j := by
  rw [val_main_v43_apply]
  have h1 : idx_main_v43 (ix2 n j) = ix2 (0 : Fin 1) j := by idx2
  rw [h1, val_main_v42_apply]
  have h2 : idx_main_v42 (ix2 (0 : Fin 1) j) = ix1 j := by idx1
  rw [h2, v41_at]

/-- The deviation from the mean. -/
theorem v44_at (n : Fin 100000) (j : Fin 128) :
    val_main_v44 (F := Ideal) a0 a1 a2 a3 a4 (ix2 n j) = 𝔥 n j - 𝔪 j := by
  rw [val_main_v44_apply, v38_at, v43_at]; rfl

/-- The number of nodes again. -/
theorem v47_at (i : S128.Idx) : val_main_v47 (F := Ideal) i = nN := by
  rw [val_main_v47_apply, val_main_cst_9_apply]; rfl

/-- The variance: the mean of the squared deviations. -/
theorem v48_at (j : Fin 128) : val_main_v48 (F := Ideal) a0 a1 a2 a3 a4 (ix1 j) = 𝔳 j := by
  rw [val_main_v48_apply, val_main_v46_apply, val_main_cst_8_apply, v47_at]
  have hs : (∑ k : Fin 100000, val_main_v45 (F := Ideal) a0 a1 a2 a3 a4 (idx_main_v46 (ix1 j) k))
      = ∑ n, (𝔥 n j - 𝔪 j) * (𝔥 n j - 𝔪 j) :=
    Finset.sum_congr rfl fun n _ => by
      have hi : idx_main_v46 (ix1 j) n = ix2 n j := by idx2
      rw [hi, val_main_v45_apply, v44_at]; rfl
  rw [hs]
  refine (congrArg (fun t => FloatOps.hostDivf (t + _) _) Ideal.ofBits_zero_f32).trans ?_
  rw [zero_add]; rfl

/-! ## The normalised, rectified activations -/

local notation "𝔞" => SageAlgebra.act (mat a0) (srcRow a1) (dstEdges a1) (mat a2) (mat a4) (vec a3) (vec a5) (vec a6)
  one e12 e5 nN zero

/-- The mean, laid along the rows, again. -/
theorem v50_at (n : Fin 100000) (j : Fin 128) :
    val_main_v50 (F := Ideal) a0 a1 a2 a3 a4 (ix2 n j) = 𝔪 j := by
  rw [val_main_v50_apply]
  have h1 : idx_main_v50 (ix2 n j) = ix2 (0 : Fin 1) j := by idx2
  rw [h1, val_main_v49_apply]
  have h2 : idx_main_v49 (ix2 (0 : Fin 1) j) = ix1 j := by idx1
  rw [h2, v41_at]

/-- The deviation from the mean, again. -/
theorem v51_at (n : Fin 100000) (j : Fin 128) :
    val_main_v51 (F := Ideal) a0 a1 a2 a3 a4 (ix2 n j) = 𝔥 n j - 𝔪 j := by
  rw [val_main_v51_apply, v38_at, v50_at]; rfl

/-- The scale, laid along the rows. -/
theorem v53_at (n : Fin 100000) (j : Fin 128) : val_main_v53 (F := Ideal) a5 (ix2 n j) = a5 (ix1 j) := by
  rw [val_main_v53_apply]
  have h1 : idx_main_v53 (ix2 n j) = ix2 (0 : Fin 1) j := by idx2
  rw [h1, val_main_v52_apply]
  exact congrArg a5 (by idx1)

/-- The scaled deviation. -/
theorem v54_at (n : Fin 100000) (j : Fin 128) :
    val_main_v54 (F := Ideal) a0 a1 a2 a3 a4 a5 (ix2 n j) = vec a5 j * (𝔥 n j - 𝔪 j) := by
  rw [val_main_v54_apply, v53_at, v51_at]; rfl

/-- The small constant added to the variance. -/
theorem v55_at (i : S128.Idx) : val_main_v55 (F := Ideal) i = e5 := by
  rw [val_main_v55_apply, val_main_cst_10_apply]; rfl

/-- The reciprocal square root of the variance plus the small constant. -/
theorem v57_at (j : Fin 128) :
    val_main_v57 (F := Ideal) a0 a1 a2 a3 a4 (ix1 j) = Ideal.rsqrt (𝔳 j + e5) := by
  rw [val_main_v57_apply, val_main_v56_apply, v48_at, v55_at, Ideal.hostUnary_rsqrt_def]; rfl

/-- The same, laid along the rows. -/
theorem v59_at (n : Fin 100000) (j : Fin 128) :
    val_main_v59 (F := Ideal) a0 a1 a2 a3 a4 (ix2 n j) = Ideal.rsqrt (𝔳 j + e5) := by
  rw [val_main_v59_apply]
  have h1 : idx_main_v59 (ix2 n j) = ix2 (0 : Fin 1) j := by idx2
  rw [h1, val_main_v58_apply]
  have h2 : idx_main_v58 (ix2 (0 : Fin 1) j) = ix1 j := by idx1
  rw [h2, v57_at]

/-- The shift, laid along the rows. -/
theorem v62_at (n : Fin 100000) (j : Fin 128) : val_main_v62 (F := Ideal) a6 (ix2 n j) = a6 (ix1 j) := by
  rw [val_main_v62_apply]
  have h1 : idx_main_v62 (ix2 n j) = ix2 (0 : Fin 1) j := by idx2
  rw [h1, val_main_v61_apply]
  exact congrArg a6 (by idx1)

/-- The array the rectification compares with is zero. -/
theorem call0_v0_at (i : S100000x128.Idx) : val_main_call0_v0 (F := Ideal) i = zero := by
  rw [val_main_call0_v0_apply, val_main_call0_cst_apply]; rfl

/-- The activations. -/
theorem v64_at (n : Fin 100000) (j : Fin 128) :
    val_main_v64 (F := Ideal) a0 a1 a2 a3 a4 a5 a6 (ix2 n j) = 𝔞 𝔳 n j := by
  rw [val_main_v64_apply, val_main_v63_apply, val_main_v60_apply, v54_at, v59_at, v62_at, call0_v0_at]; rfl

/-! ## The second aggregation -/

/-- Row 0 of the array of edge ends, flattened (the second reading). -/
theorem v66_at (e : Fin 800000) : val_main_v66 (F := Ideal) a1 (ix1 e) = a1 (ix2 (0 : Fin 2) e) := by
  rw [val_main_v66_apply, val_main_v65_apply]
  refine congrArg a1 (funext fun a => Fin.ext ?_)
  match a with
  | ⟨0, _⟩ => rfl
  | ⟨1, _⟩ => show e.val % 800000 = e.val; omega

/-- Row 1 of the array of edge ends, flattened (the second reading). -/
theorem v68_at (e : Fin 800000) : val_main_v68 (F := Ideal) a1 (ix1 e) = a1 (ix2 (1 : Fin 2) e) := by
  rw [val_main_v68_apply, val_main_v67_apply]
  refine congrArg a1 (funext fun a => Fin.ext ?_)
  match a with
  | ⟨0, _⟩ => rfl
  | ⟨1, _⟩ => show e.val % 800000 = e.val; omega

/-- The column of nodes read (the second reading): at edge `e`, the word `srcWord`. -/
theorem v74_at (e : Fin 800000) : val_main_v74 (F := Ideal) a1 (ix2 e (0 : Fin 1)) = srcWord a1 e := by
  rw [val_main_v74_apply]
  have hi : idx_main_v74 (ix2 e (0 : Fin 1)) = ix1 e := by idx1
  rw [hi, val_main_v73_apply, val_main_v70_apply, val_main_v72_apply, val_main_v69_apply, val_main_v71_apply,
    val_main_c_11_apply, val_main_c_12_apply, v66_at]
  rfl

/-- The column of nodes landed on (the second reading). -/
theorem v77_at (e : Fin 800000) : val_main_v77 (F := Ideal) a1 (ix2 e (0 : Fin 1)) = a1 (ix2 (1 : Fin 2) e) := by
  rw [val_main_v77_apply]
  have hi : idx_main_v77 (ix2 e (0 : Fin 1)) = ix1 e := by idx1
  rw [hi, v68_at]

/-- The same column, as the second count reads it. -/
theorem v81_at (e : Fin 800000) : val_main_v81 (F := Ideal) a1 (ix2 e (0 : Fin 1)) = a1 (ix2 (1 : Fin 2) e) := by
  rw [val_main_v81_apply]
  have hi : idx_main_v81 (ix2 e (0 : Fin 1)) = ix1 e := by idx1
  rw [hi, v68_at]

/-- The gathered activations: edge `e` carries the activation row of the node it reads. -/
theorem v75_at (e : Fin 800000) (j : Fin 128) :
    val_main_v75 (F := Ideal) a0 a1 a2 a3 a4 a5 a6 (ix2 e j) = 𝔞 𝔳 (srcRow a1 e) j := by
  unfold val_main_v75
  refine (GatherScatter.gather_rows2_apply (N := 100000) (C := 128) (E := 800000) (by decide)
    gather_S100000x128_S800000x1_S800000x128_1_0_n_n_0_1_1128_wf
    (val_main_v64 (F := Ideal) a0 a1 a2 a3 a4 a5 a6) (val_main_v74 (F := Ideal) a1) e j).trans ?_
  have hg : (⟨min ((val_main_v74 (F := Ideal) a1) (ix2 e (0 : Fin 1))).toInt.toNat (100000 - 1), by omega⟩ : Fin 100000)
      = srcRow a1 e :=
    Fin.ext (congrArg (fun w : BitVec 32 => min w.toInt.toNat (100000 - 1)) (v74_at a1 e))
  rw [hg, v64_at]

/-- The array the activations are added into is zero. -/
theorem v76_at (i : S100000x128.Idx) : val_main_v76 (F := Ideal) i = 0 := by
  rw [val_main_v76_apply, val_main_cst_13_apply]; exact Ideal.ofBits_zero_f32

/-- The activations added onto the nodes the edges land on. -/
theorem v78_at (n : Fin 100000) (j : Fin 128) :
    val_main_v78 (F := Ideal) a0 a1 a2 a3 a4 a5 a6 (ix2 n j)
      = SageAlgebra.agg2 (mat a0) (srcRow a1) (dstEdges a1) (mat a2) (mat a4) (vec a3) (vec a5) (vec a6)
          one e12 e5 nN zero n j := by
  unfold val_main_v78
  refine (GatherScatter.Host_scatterAdd_rows2_apply (N := 100000) (C := 128) (E := 800000)
    scatter_S100000x128_S800000x1_S800000x128_1_0_0_1_wf (val_main_v76 (F := Ideal))
    (val_main_v77 (F := Ideal) a1) (val_main_v75 (F := Ideal) a0 a1 a2 a3 a4 a5 a6) n j).trans ?_
  rw [v76_at, zero_add]
  simp only [v77_at, v75_at]
  rfl

/-- Every update of the second count is `1`. -/
theorem v79_at (i : S800000.Idx) : val_main_v79 (F := Ideal) i = one := by
  rw [val_main_v79_apply, val_main_cst_14_apply]; rfl

/-- The array the second count is added into is zero. -/
theorem v80_at (i : S100000.Idx) : val_main_v80 (F := Ideal) i = 0 := by
  rw [val_main_v80_apply, val_main_cst_15_apply]; exact Ideal.ofBits_zero_f32

/-- The second count. -/
theorem v82_at (n : Fin 100000) :
    val_main_v82 (F := Ideal) a1 (ix1 n) = SageAlgebra.cnt (dstEdges a1) one n := by
  unfold val_main_v82
  refine (ScatterCount.Host_scatterAdd_rows1_apply (N := 100000) (E := 800000)
    scatter_S100000_S800000x1_S800000_n_0_0_1_wf (val_main_v80 (F := Ideal))
    (val_main_v81 (F := Ideal) a1) (val_main_v79 (F := Ideal)) n).trans ?_
  rw [v80_at, zero_add]
  simp only [v81_at, v79_at]
  rfl

/-- The second count kept above `1`, laid along the rows. -/
theorem v86_at (n : Fin 100000) (j : Fin 128) :
    val_main_v86 (F := Ideal) a1 (ix2 n j) = max (SageAlgebra.cnt (dstEdges a1) one n) one := by
  rw [val_main_v86_apply]
  have h1 : idx_main_v86 (ix2 n j) = ix2 n (0 : Fin 1) := by idx2
  rw [h1, val_main_v85_apply]
  have h2 : idx_main_v85 (ix2 n (0 : Fin 1)) = ix1 n := by idx1
  rw [h2, val_main_v84_apply, v82_at, val_main_v83_apply, val_main_cst_16_apply]; rfl

/-- The mean of the activations over the edges landing on a node. -/
theorem v87_at (n : Fin 100000) (j : Fin 128) :
    val_main_v87 (F := Ideal) a0 a1 a2 a3 a4 a5 a6 (ix2 n j)
      = SageAlgebra.m2 (mat a0) (srcRow a1) (dstEdges a1) (mat a2) (mat a4) (vec a3) (vec a5) (vec a6)
          one e12 e5 nN zero n j := by
  rw [val_main_v87_apply, v78_at, v86_at]; rfl

/-! ## The second layer -/

local notation "𝔬" => SageAlgebra.out2R (mat a0) (srcRow a1) (dstEdges a1) (mat a2) (mat a4) (vec a3) (vec a5) (vec a6)
  (mat a7) (mat a9) (vec a8) one e12 e5 nN zero

/-- The third weight matrix, transposed. -/
theorem v88_at (j : Fin 128) (o : Fin 47) : val_main_v88 (F := Ideal) a7 (ix2 j o) = a7 (ix2 o j) := by
  rw [val_main_v88_apply]
  exact congrArg a7 (by idx2)

/-- The mean activations through `w2l`. -/
theorem v89_at (n : Fin 100000) (o : Fin 47) :
    val_main_v89 (F := Ideal) a0 a1 a2 a3 a4 a5 a6 a7 (ix2 n o)
      = ∑ j, SageAlgebra.m2 (mat a0) (srcRow a1) (dstEdges a1) (mat a2) (mat a4) (vec a3) (vec a5) (vec a6)
          one e12 e5 nN zero n j * mat a7 o j := by
  rw [val_main_v89_apply]
  refine Finset.sum_congr rfl fun j _ => ?_
  have hl : lidx_main_v89 (ix2 n o) j = ix2 n j := by idx2
  have hr : ridx_main_v89 (ix2 n o) j = ix2 j o := by idx2
  rw [hl, hr, v87_at, v88_at]

/-- The second bias, laid along the rows. -/
theorem v91_at (n : Fin 100000) (o : Fin 47) : val_main_v91 (F := Ideal) a8 (ix2 n o) = a8 (ix1 o) := by
  rw [val_main_v91_apply]
  have h1 : idx_main_v91 (ix2 n o) = ix2 (0 : Fin 1) o := by idx2
  rw [h1, val_main_v90_apply]
  exact congrArg a8 (by idx1)

/-- The fourth weight matrix, transposed. -/
theorem v93_at (j : Fin 128) (o : Fin 47) : val_main_v93 (F := Ideal) a9 (ix2 j o) = a9 (ix2 o j) := by
  rw [val_main_v93_apply]
  exact congrArg a9 (by idx2)

/-- The node's own activations through `w2r`. -/
theorem v94_at (n : Fin 100000) (o : Fin 47) :
    val_main_v94 (F := Ideal) a0 a1 a2 a3 a4 a5 a6 a9 (ix2 n o) = ∑ j, 𝔞 𝔳 n j * mat a9 o j := by
  rw [val_main_v94_apply]
  refine Finset.sum_congr rfl fun j _ => ?_
  have hl : lidx_main_v94 (ix2 n o) j = ix2 n j := by idx2
  have hr : ridx_main_v94 (ix2 n o) j = ix2 j o := by idx2
  rw [hl, hr, v64_at, v93_at]

/-- The second layer before normalisation. -/
theorem v95_at (n : Fin 100000) (o : Fin 47) :
    val_main_v95 (F := Ideal) a0 a1 a2 a3 a4 a5 a6 a7 a8 a9 (ix2 n o) = 𝔬 n o := by
  rw [val_main_v95_apply, val_main_v92_apply, v89_at, v91_at, v94_at]; rfl

/-- The sum of the squares of a row of the second layer. -/
theorem v97_at (n : Fin 100000) :
    val_main_v97 (F := Ideal) a0 a1 a2 a3 a4 a5 a6 a7 a8 a9 (ix1 n) = ∑ o, 𝔬 n o * 𝔬 n o := by
  rw [val_main_v97_apply, val_main_cst_17_apply]
  refine (congrArg (· + _) Ideal.ofBits_zero_f32).trans ((zero_add _).trans ?_)
  refine Finset.sum_congr rfl fun o _ => ?_
  have hi : idx_main_v97 (ix1 n) o = ix2 n o := by idx2
  rw [hi, val_main_v96_apply, v95_at]; rfl

/-- The norm of a row of the second layer kept above `e12`, laid along the row. -/
theorem v102_at (n : Fin 100000) (o : Fin 47) :
    val_main_v102 (F := Ideal) a0 a1 a2 a3 a4 a5 a6 a7 a8 a9 (ix2 n o)
      = max (Ideal.sqrt (∑ o', 𝔬 n o' * 𝔬 n o')) e12 := by
  rw [val_main_v102_apply]
  have h1 : idx_main_v102 (ix2 n o) = ix2 n (0 : Fin 1) := by idx2
  rw [h1, val_main_v101_apply, val_main_v99_apply, val_main_v98_apply]
  have h2 : idx_main_v98 (ix2 n (0 : Fin 1)) = ix1 n := by idx1
  rw [h2, v97_at, val_main_v100_apply, val_main_cst_18_apply, Ideal.hostUnary_sqrt_def]; rfl

/-- THE REFERENCE'S RESULT, at node `n` and output feature `o`, is the convolution aggregating first. -/
theorem v103_at (n : Fin 100000) (o : Fin 47) :
    val_main_v103 (F := Ideal) a0 a1 a2 a3 a4 a5 a6 a7 a8 a9 (ix2 n o)
      = SageAlgebra.resR (mat a0) (srcRow a1) (dstEdges a1) (mat a2) (mat a4) (vec a3) (vec a5) (vec a6)
          (mat a7) (mat a9) (vec a8) one e12 e5 nN zero n o := by
  rw [val_main_v103_apply, v95_at, v102_at]; rfl

/-- The same for the result as the reference's run names it, over the launch memory `m` at device `c`. -/
theorem res_at (m : (ℓ : Loc nD τ sig) → Buf (Elt Ideal) ℓ) (c : Dev nD) (n : Fin 100000) (o : Fin 47) :
    Cert.ReferenceIdeal.Value.res_main_v103 m c (ix2 n o)
      = SageAlgebra.resR (mat (m ((c.tc : Thread nD τ).loc main_arg0)))
          (srcRow (m ((c.tc : Thread nD τ).loc main_arg1))) (dstEdges (m ((c.tc : Thread nD τ).loc main_arg1)))
          (mat (m ((c.tc : Thread nD τ).loc main_arg2))) (mat (m ((c.tc : Thread nD τ).loc main_arg4)))
          (vec (m ((c.tc : Thread nD τ).loc main_arg3))) (vec (m ((c.tc : Thread nD τ).loc main_arg5)))
          (vec (m ((c.tc : Thread nD τ).loc main_arg6))) (mat (m ((c.tc : Thread nD τ).loc main_arg7)))
          (mat (m ((c.tc : Thread nD τ).loc main_arg9))) (vec (m ((c.tc : Thread nD τ).loc main_arg8)))
          one e12 e5 nN zero n o := by
  rw [val_main_v103_eq]
  exact v103_at _ _ _ _ _ _ _ _ _ _ n o

end Cert.ReferenceIdeal.RefSpec

end
-- ==== Proof.KFinite.lean ====
/-
  From the precondition to the finiteness of the inputs. The precondition computes, for each of the nine float
  argument arrays, whether every entry's absolute value is below `+∞`, and takes the conjunction. At the extended reals
  the absolute value of `x` is `max x (-x)`, which is `+∞` at both infinities; so an entry that passes the test is a real
  number, and if the precondition holds then every entry of every float argument is a real number.
-/
import proofs.«162611_j39075612459051_2_alg».proof.Proof.Gen.Pre_finite_inputs
import proofs.«162611_j39075612459051_2_alg».proof.Proof.LibExtendedReals
import Idealize.ShloMosaic.Lib.ReduceAll
import Idealize.ShloMosaic.Lib.ValueIdx

namespace Cert.Finite

open Idealize.ShloMosaic Cert.ExtendedReals Cert.Pre_finite_inputs

/-- The scalar shape has one index. -/
instance subsingleton_scalar_idx : Subsingleton S_.Idx := ⟨fun a b => funext fun d => d.elim0⟩

/-- The word `0x7F800000` denotes `+∞`. -/
theorem ofBits_inf_f32 : Ideal.ofBits .f32 0x7F800000#32 = ⊤ := by simp [Ideal.ofBits, Ideal.ieee]

/-- An extended real whose absolute value `max x (-x)` is below `+∞` is a real number: at `-∞` and at `+∞` that
    maximum is `+∞`. -/
theorem isReal_of_abs_lt_top {x : EReal} (h : max x (-x) < ⊤) : IsReal x := by
  induction x using EReal.rec with
  | bot =>
    rw [EReal.neg_bot, max_eq_right bot_le] at h
    exact absurd h (lt_irrefl _)
  | top =>
    rw [max_eq_left le_top] at h
    exact absurd h (lt_irrefl _)
  | coe r => exact ⟨r, rfl⟩

/-- A comparison "less than" that answers `1` says the first is less than the second. -/
theorem lt_of_cmp_olt {a b : EReal} (h : Ideal.cmp .olt a b = 1#1) : a < b := by
  by_contra hn
  have e : Ideal.cmp .olt a b = BitVec.ofBool (decide (a < b)) := rfl
  rw [e, decide_eq_false hn] at h
  exact absurd h (by decide)

section OneArray
variable {s : Shape}

/-- An entry that passes the printed test `|x| < +∞` is a real number. -/
theorem isReal_of_entry (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    IsReal (x i) := by
  have h' : Ideal.cmp .olt (max (x i) (-(x i))) (Ideal.ofBits .f32 0x7F800000#32) = 1#1 := h
  rw [ofBits_inf_f32] at h'
  exact isReal_of_abs_lt_top (lt_of_cmp_olt h')

/-- An array all of whose entries pass the printed test — the conjunction over every entry answers `1` — has real
    entries. -/
theorem isReal_of_all {axes : List (Fin s.rank)} (x : FVec Ideal s .f32)
    (hb : S_.BroadcastsInDim s (![] : Fin 0 → Fin s.rank)) (hr : s.ReducesTo axes S_) (hu : 0 < S_.numel)
    (h : Host.reduce IntOp.andi
        (cmpf .olt (Host.absf x) (broadcastInDim s ![] hb (constant (F := Ideal) S_ .f32 0x7F800000#32)))
        (constantI S_ 1 1#1) hr hu ValueIdx.ix0 = 1#1) :
    ∀ i, IsReal (x i) := fun i =>
  isReal_of_entry x hb i (Host.reduce_andi_all _ _ hr hu ValueIdx.ix0 h i)

end OneArray

/-- If the precondition holds, every entry of each of the nine float arguments is a real number. -/
theorem reals_of_pre (a0 : FVec Ideal S100000x128 .f32) (a1 : IVec S2x800000 32) (a2 : FVec Ideal S128x128 .f32)
    (a3 : FVec Ideal S128 .f32) (a4 : FVec Ideal S128x128 .f32) (a5 : FVec Ideal S128 .f32) (a6 : FVec Ideal S128 .f32)
    (a7 : FVec Ideal S47x128 .f32) (a8 : FVec Ideal S47 .f32) (a9 : FVec Ideal S47x128 .f32)
    (h : Cert.Pre_finite_inputs.fn (F := Ideal) a0 a1 a2 a3 a4 a5 a6 a7 a8 a9 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) := by
  have h0 := congrFun h ValueIdx.ix0
  dsimp only [Cert.Pre_finite_inputs.fn, Cert.Pre_finite_inputs.fn_part1, Cert.Pre_finite_inputs.fn_part2] at h0
  obtain ⟨h38, h42⟩ := IntOp.andi_eq_one.1 h0
  obtain ⟨h33, h37⟩ := IntOp.andi_eq_one.1 h38
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨isReal_of_all a0 _ _ _ h3, isReal_of_all a2 _ _ _ h7, isReal_of_all a3 _ _ _ h12, isReal_of_all a4 _ _ _ h17,
    isReal_of_all a5 _ _ _ h22, isReal_of_all a6 _ _ _ h27, isReal_of_all a7 _ _ _ h32, isReal_of_all a8 _ _ _ h37,
    isReal_of_all a9 _ _ _ h42⟩

end Cert.Finite
-- ==== Proof.lean ====
/-
  The certificate of a two-layer mean-aggregating graph convolution with batch normalisation between the layers.

  THE TWO PROGRAMS. Both gather the rows of the node features along the edges, add them into the destination rows and
  divide by the clipped degree; multiply by the neighbour weights, add the bias and the self term; normalise every row
  by its clipped Euclidean norm; batch-normalise the columns, scale, shift and rectify; and repeat the convolution with
  the second layer's weights. They differ in two places. The kernel program takes the variance of a column as the mean
  of the squares minus the square of the mean, clipped at zero; the reference as the mean of the squared deviations. And
  in the second layer the kernel program multiplies the activations by the neighbour weights FIRST and aggregates the
  projected rows, while the reference aggregates the activations and multiplies afterwards.

  WHY THEY AGREE on the extended reals under the precondition. Every float input is finite, so every intermediate value
  is a real number: sums and products of reals, a quotient by a degree clipped at one or by a norm clipped at a positive
  constant, the reciprocal square root of a nonnegative variance plus a positive constant. On real numbers the mean of
  the squared deviations IS the mean of the squares minus the squared mean, and it is nonnegative, so the clip at zero
  changes nothing; and the mean over the edges landing on a node commutes with a linear map. (Both identities fail at
  the infinities, which is where the precondition is used.)

  HOW THE KERNEL PROGRAM'S RESULT IS READ. The program is three kernel regions among three stretches of host operations.
  Each region's body is run once per block of ten thousand rows; the first region keeps the running column sums of
  the normalised rows and of their squares in two scratch rows from block to block and writes them out at the last
  block. The contents of every buffer are followed through the six items, and the result array is read entry by entry
  against the specification. The word-level program's frame is the same run read at the word-level instance.
-/
import proofs.«162611_j39075612459051_2_alg».proof.Defs
import proofs.«162611_j39075612459051_2_alg».proof.Proof.Gen.Kernel
import proofs.«162611_j39075612459051_2_alg».proof.Proof.Gen.KernelIdeal
import proofs.«162611_j39075612459051_2_alg».proof.Proof.Gen.ReferenceIdeal
import proofs.«162611_j39075612459051_2_alg».proof.Proof.Gen.ReferenceIdeal.Run
import proofs.«162611_j39075612459051_2_alg».proof.Proof.Gen.ReferenceIdeal.Read
import proofs.«162611_j39075612459051_2_alg».proof.Proof.Gen.Pre_finite_inputs
import proofs.«162611_j39075612459051_2_alg».proof.Proof.WordRun
import proofs.«162611_j39075612459051_2_alg».proof.Proof.Run
import proofs.«162611_j39075612459051_2_alg».proof.Proof.KSpec
import proofs.«162611_j39075612459051_2_alg».proof.Proof.RefIsSpec
import proofs.«162611_j39075612459051_2_alg».proof.Proof.KFinite
import proofs.«162611_j39075612459051_2_alg».proof.Proof.SageAlgebra
import proofs.«162611_j39075612459051_2_alg».proof.Proof.SageConsts
import proofs.«162611_j39075612459051_2_alg».proof.Proof.EdgeRows
import Idealize.ShloMosaic.Adequacy
import Idealize.ShloMosaic.Init

noncomputable section

namespace Cert.Proof

open Idealize.ShloMosaic Idealize.ShloMosaic.TcCoe Idealize.SL.Sem Idealize.ShloMosaic.ValueIdx
open Cert.EdgeRows Cert.SageConsts

/-- The word-level program runs to the end and leaves its argument arrays as launched. -/
theorem frame_word : Cert.frame_Kernel := fun m ρ _ => Cert.Kernel.Hand.frame (F := Bits) m ρ
/-- So does the program read at the exact instance. -/
theorem frame_exact : Cert.frame_KernelIdeal := fun m ρ _ => Cert.KernelIdeal.Hand.frame (F := Ideal) m ρ
/-- The reference is host operations only: its run, with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Under the precondition every entry of the nine float argument arrays is a real number; with the constants'
    values these are the hypotheses of the specification's two forms agreeing. -/
theorem hyp_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.SageAlgebra.Hyp (mat (m ((c.tc : Thread Cert.KernelIdeal.nD Cert.KernelIdeal.τ).loc Cert.KernelIdeal.main_arg0))) (mat (m ((c.tc : Thread Cert.KernelIdeal.nD Cert.KernelIdeal.τ).loc Cert.KernelIdeal.main_arg2))) (mat (m ((c.tc : Thread Cert.KernelIdeal.nD Cert.KernelIdeal.τ).loc Cert.KernelIdeal.main_arg4))) (vec (m ((c.tc : Thread Cert.KernelIdeal.nD Cert.KernelIdeal.τ).loc Cert.KernelIdeal.main_arg3))) (vec (m ((c.tc : Thread Cert.KernelIdeal.nD Cert.KernelIdeal.τ).loc Cert.KernelIdeal.main_arg5))) (vec (m ((c.tc : Thread Cert.KernelIdeal.nD Cert.KernelIdeal.τ).loc Cert.KernelIdeal.main_arg6)))
      (mat (m ((c.tc : Thread Cert.KernelIdeal.nD Cert.KernelIdeal.τ).loc Cert.KernelIdeal.main_arg7))) (mat (m ((c.tc : Thread Cert.KernelIdeal.nD Cert.KernelIdeal.τ).loc Cert.KernelIdeal.main_arg9))) (vec (m ((c.tc : Thread Cert.KernelIdeal.nD Cert.KernelIdeal.τ).loc Cert.KernelIdeal.main_arg8))) one e12 e5 nN zero := by
  obtain ⟨h0, h2, h3, h4, h5, h6, h7, h8, h9⟩ := Cert.Finite.reals_of_pre _ _ _ _ _ _ _ _ _ _ (hpre c)
  exact ⟨fun _ _ => h0 _, fun _ _ => h2 _, fun _ _ => h4 _, fun _ => h3 _, fun _ => h5 _, fun _ => h6 _,
    fun _ _ => h7 _, fun _ _ => h9 _, fun _ => h8 _, one_eq, zero_eq, e12_pos, e5_pos, nN_eq, card_pos⟩

/-- From memories agreeing on the arguments both programs run to the end with the same result array: entry by
    entry the reference's is the specification's reference form, the kernel program's the kernel form, and the two
    forms agree on real inputs. -/
theorem algebraic : Cert.algebraic_KernelIdeal_ReferenceIdeal := by
  intro m ρ m' ρ' hpre hagree
  refine ⟨fun c => (Cert.KernelIdeal.Hand.dat2 (Cert.KernelIdeal.Hand.V5 m ρ) c).arrAt 4 Cert.KernelIdeal.cfg2.N,
    Cert.KernelIdeal.Hand.result m ρ, ?_⟩
  refine (θ_run Cert.ReferenceIdeal.defs _ _).mono (fun _ h c => ⟨(h c).1.trans ?_, (h c).2⟩)
    (Cert.ReferenceIdeal.Value.run (F := Ideal) m' ρ')
  funext i
  obtain ⟨n, o, rfl⟩ : ∃ (n : Fin 100000) (o : Fin 47), i = ix2 n o := ⟨i 0, i 1, eq_ix2 i⟩
  rw [Cert.ReferenceIdeal.RefSpec.res_at m' c n o, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]
  refine Eq.trans ?_ (Cert.KernelIdeal.Hand.kernel_value m ρ c n o).symm
  exact (congrFun (congrFun (Cert.SageAlgebra.resK_eq_resR _ _ (hyp_of_pre m hpre c)) n) o).symm

theorem claim : Cert.Claim := ⟨Cert.Kernel.Gen.facts, Cert.KernelIdeal.Gen.facts, Cert.ReferenceIdeal.Gen.facts, Cert.Pre_finite_inputs.Gen.facts,
  frame_word, frame_exact, frame_ref, trivial, algebraic⟩

end Cert.Proof

end
